-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x262144 : Shape := ⟨2, ![2, 262144]⟩
abbrev S256 : Shape := ⟨1, ![256]⟩
abbrev S3x256x256 : Shape := ⟨3, ![3, 256, 256]⟩
abbrev S3x256 : Shape := ⟨2, ![3, 256]⟩
abbrev S1x256 : Shape := ⟨2, ![1, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg5 : FVec F S3x256 .f32) (main_arg6 : FVec F S1x256 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  main_v28

def fn {F : FTy → Type} [FloatOps F] (main_arg0 : FVec F S50000x256 .f32) (main_arg1 : IVec S2x262144 32) (main_arg2 : FVec F S256 .f32) (main_arg3 : FVec F S3x256x256 .f32) (main_arg4 : FVec F S3x256 .f32) (main_arg5 : FVec F S3x256 .f32) (main_arg6 : FVec F S1x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_arg6 main_v13 main_v16
-- ==== Kernel.lean ====
abbrev S50000x256 : Shape := ⟨2, ![50000, 256]⟩
abbrev S2x262144 : Shape := ⟨2, ![2, 262144]⟩
abbrev S256 : Shape := ⟨1, ![256]⟩
abbrev S3x256x256 : Shape := ⟨3, ![3, 256, 256]⟩
abbrev S3x256 : Shape := ⟨2, ![3, 256]⟩
abbrev S1x256 : Shape := ⟨2, ![1, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S3x1x256 : Shape := ⟨3, ![3, 1, 256]⟩
abbrev S1x256x256 : Shape := ⟨3, ![1, 256, 256]⟩
abbrev S256x256 : Shape := ⟨2, ![256, 256]⟩
abbrev S2048x256 : Shape := ⟨2, ![2048, 256]⟩
abbrev S2048 : Shape := ⟨1, ![2048]⟩
abbrev S2048x1 : Shape := ⟨2, ![2048, 1]⟩
abbrev S1x1x256 : Shape := ⟨3, ![1, 1, 256]⟩

abbrev nBuf : Space → Nat
  | .hbm => 96
  | .vmem => 39
  | .smem => 0
  | _ => 0

abbrev bufTy : (tb : Table) → Fin (tcTables nBuf tb) → BufTy
  | .hbm, ⟨0, _⟩ => ⟨S50000x256, .f32⟩
  | .hbm, ⟨1, _⟩ => ⟨S2x262144, .i32⟩
  | .hbm, ⟨2, _⟩ => ⟨S256, .f32⟩
  | .hbm, ⟨3, _⟩ => ⟨S3x256x256, .f32⟩
  | .hbm, ⟨4, _⟩ => ⟨S3x256, .f32⟩
  | .hbm, ⟨5, _⟩ => ⟨S3x256, .f32⟩
  | .hbm, ⟨6, _⟩ => ⟨S1x256, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x256, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x256, .f32⟩
  | .hbm, ⟨29, _⟩ => ⟨S262144x256, .f32⟩
  | .hbm, ⟨30, _⟩ => ⟨S1x256, .f32⟩
  | .hbm, ⟨31, _⟩ => ⟨S3x256x256, .f32⟩
  | .hbm, ⟨32, _⟩ => ⟨S3x256x256, .bf16⟩
  | .hbm, ⟨33, _⟩ => ⟨S3x1x256, .f32⟩
  | .hbm, ⟨34, _⟩ => ⟨S3x1x256, .f32⟩
  | .hbm, ⟨35, _⟩ => ⟨S1x256x256, .bf16⟩
  | .hbm, ⟨36, _⟩ => ⟨S256x256, .bf16⟩
  | .hbm, ⟨37, _⟩ => ⟨S262144x256, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x1x256, .f32⟩
  | .hbm, ⟨52, _⟩ => ⟨S1x256, .f32⟩
  | .hbm, ⟨53, _⟩ => ⟨S1x1x256, .f32⟩
  | .hbm, ⟨54, _⟩ => ⟨S1x256, .f32⟩
  | .hbm, ⟨55, _⟩ => ⟨S1x256x256, .bf16⟩
  | .hbm, ⟨56, _⟩ => ⟨S256x256, .bf16⟩
  | .hbm, ⟨57, _⟩ => ⟨S262144x256, .f32⟩
  | .hbm, ⟨58, _⟩ => ⟨S1x256, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S_, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S_, .f32⟩
  | .hbm, ⟨69, _⟩ => ⟨S1x256, .f32⟩
  | .hbm, ⟨70, _⟩ => ⟨S1x256, .f32⟩
  | .hbm, ⟨71, _⟩ => ⟨S1x1x256, .f32⟩
  | .hbm, ⟨72, _⟩ => ⟨S1x256, .f32⟩
  | .hbm, ⟨73, _⟩ => ⟨S1x1x256, .f32⟩
  | .hbm, ⟨74, _⟩ => ⟨S1x256, .f32⟩
  | .hbm, ⟨75, _⟩ => ⟨S1x256x256, .bf16⟩
  | .hbm, ⟨76, _⟩ => ⟨S256x256, .bf16⟩
  | .hbm, ⟨77, _⟩ => ⟨S262144x256, .f32⟩
  | .hbm, ⟨78, _⟩ => ⟨S1x256, .f32⟩
  | .hbm, ⟨79, _⟩ => ⟨S1x256, .f32⟩
  | .hbm, ⟨80, _⟩ => ⟨S_, .f32⟩
  | .hbm, ⟨81, _⟩ => ⟨S1x256, .f32⟩
  | .hbm, ⟨82, _⟩ => ⟨S1x256, .f32⟩
  | .hbm, ⟨83, _⟩ => ⟨S_, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S1x256, .f32⟩
  | .hbm, ⟨88, _⟩ => ⟨S_, .f32⟩
  | .hbm, ⟨89, _⟩ => ⟨S1x256, .f32⟩
  | .hbm, ⟨90, _⟩ => ⟨S1x256, .f32⟩
  | .hbm, ⟨91, _⟩ => ⟨S1x1x256, .f32⟩
  | .hbm, ⟨92, _⟩ => ⟨S1x256, .f32⟩
  | .hbm, ⟨93, _⟩ => ⟨S1x1x256, .f32⟩
  | .hbm, ⟨94, _⟩ => ⟨S1x256, .f32⟩
  | .hbm, ⟨95, _⟩ => ⟨S262144, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S256x256, .bf16⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S2048x256, .f32⟩
  | .local _ .vmem, ⟨16, _⟩ => ⟨S2048x256, .f32⟩
  | .local _ .vmem, ⟨17, _⟩ => ⟨S1x256, .f32⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S256x256, .bf16⟩
  | .local _ .vmem, ⟨26, _⟩ => ⟨S2048x256, .f32⟩
  | .local _ .vmem, ⟨27, _⟩ => ⟨S2048x256, .f32⟩
  | .local _ .vmem, ⟨28, _⟩ => ⟨S1x256, .f32⟩
  | .local _ .vmem, ⟨29, _⟩ => ⟨S1x256, .f32⟩
  | .local _ .vmem, ⟨30, _⟩ => ⟨S2048x256, .f32⟩
  | .local _ .vmem, ⟨31, _⟩ => ⟨S2048x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S2048, .f32⟩
  | .local _ .vmem, ⟨38, _⟩ => ⟨S2048, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg8_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem8_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  shapeCasts_S256_S1x256 : S256.ShapeCasts S1x256
  transposes_S3x256x256_S3x256x256_0_2_1 : S3x256x256.Transposes [0, 2, 1] S3x256x256
  bitsLt_bf16_f32 : FTy.bits .bf16 < FTy.bits .f32
  shapeCasts_S3x256_S3x1x256 : S3x256.ShapeCasts S3x1x256
  slices_S3x256x256_S1x256x256_0_0_0 : S3x256x256.Slices ![0, 0, 0] S1x256x256
  shapeCasts_S1x256x256_S256x256 : S1x256x256.ShapeCasts S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2048x256_S256 : S2048x256.Reduces [0] S256
  bcast_S_S1x256 : S_.BroadcastsInDim S1x256 (![] : Fin 0 → Fin S1x256.rank)
  slices_S3x1x256_S1x1x256_0_0_0 : S3x1x256.Slices ![0, 0, 0] S1x1x256
  shapeCasts_S1x1x256_S1x256 : S1x1x256.ShapeCasts S1x256
  slices_S3x256x256_S1x256x256_1_0_0 : S3x256x256.Slices ![1, 0, 0] S1x256x256
  slices_S3x1x256_S1x1x256_1_0_0 : S3x1x256.Slices ![1, 0, 0] S1x1x256
  slices_S3x256x256_S1x256x256_2_0_0 : S3x256x256.Slices ![2, 0, 0] S1x256x256
  slices_S3x1x256_S1x1x256_2_0_0 : S3x1x256.Slices ![2, 0, 0] S1x1x256
  inb_S2048_S2048_0 : ∀ a, (![0] : Fin 1 → Nat) a + S2048.size a ≤ S2048.size a
  h_S2048 : 0 < S2048.numel
  gather_S50000x256_S262144x1_S262144x256_1_0_n_n_0_1_1256_wf : GatherDims.WF S50000x256 S262144x1 S262144x256 [1] [0] [] [0] [] 1 ![1, 256]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S262144x256.size a
  hwx0_3 : ∀ i : grid0.Coords, EltTy.bits .f32 = 32 ∨ (Rect.block (s := S262144x256) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S262144x256.size a
  hwx1_6 : ∀ i : grid1.Coords, EltTy.bits .f32 = 32 ∨ (Rect.block (s := S262144x256) S2048x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S262144x256.size a
  hwx2_0 : ∀ i : grid2.Coords, EltTy.bits .f32 = 32 ∨ (Rect.block (s := S262144x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x256.size a ≤ S262144x256.size a
  hwx2_6 : ∀ i : grid2.Coords, EltTy.bits .f32 = 32 ∨ (Rect.block (s := S262144x256) S2048x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S262144x256.size a
  hwx3_0 : ∀ i : grid3.Coords, EltTy.bits .f32 = 32 ∨ (Rect.block (s := S262144x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048.size a ≤ S262144.size a
  hwx3_6 : ∀ i : grid3.Coords, EltTy.bits .f32 = 32 ∨ (Rect.block (s := S262144) S2048.size (cc3_transform_6 i) (hinb3_6 i)).WholeWords (EltTy.packing .f32)

variable [Facts₀]

def gather_S50000x256_S262144x1_S262144x256_1_0_n_n_0_1_1256 : GatherDims S50000x256 S262144x1 S262144x256 where
  offsetDims := [1]
  collapsedSliceDims := [0]
  operandBatchingDims := []
  startIndicesBatchingDims := []
  startIndexMap := [0]
  indexVectorDim := 1
  sliceSizes := ![1, 256]
  wf := gather_S50000x256_S262144x1_S262144x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v18) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26_0) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26_1) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_2) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41_0) S2048x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v41_1) S1x256.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41_2) S1x256.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v41_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56_0) S2048x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v56_1) S1x256.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56_2) S1x256.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v56_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S2048.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x262144 : Shape := ⟨2, ![2, 262144]⟩
abbrev S256 : Shape := ⟨1, ![256]⟩
abbrev S3x256x256 : Shape := ⟨3, ![3, 256, 256]⟩
abbrev S3x256 : Shape := ⟨2, ![3, 256]⟩
abbrev S1x256 : Shape := ⟨2, ![1, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S1x256x256 : Shape := ⟨3, ![1, 256, 256]⟩
abbrev S256x256 : Shape := ⟨2, ![256, 256]⟩
abbrev S256x1 : Shape := ⟨2, ![256, 1]⟩

abbrev nBuf : Space → Nat
  | .hbm => 182
  | .vmem => 0
  | .smem => 0
  | _ => 0

abbrev hbmTy0_0 (i : Nat) : BufTy := match i % 128 with
  | 0 => ⟨S50000x256, .f32⟩
  | 1 => ⟨S2x262144, .i32⟩
  | 2 => ⟨S256, .f32⟩
  | 3 => ⟨S3x256x256, .f32⟩
  | 4 => ⟨S3x256, .f32⟩
  | 5 => ⟨S3x256, .f32⟩
  | 6 => ⟨S1x256, .f32⟩
  | 7 => ⟨S1x262144, .i32⟩
  | 8 => ⟨S262144, .i32⟩
  | 9 => ⟨S1x262144, .i32⟩
  | 10 => ⟨S262144, .i32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144x256, .f32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S262144x256, .f32⟩
  | 29 => ⟨S262144x256, .f32⟩
  | 30 => ⟨S_, .f32⟩
  | 31 => ⟨S262144, .f32⟩
  | 32 => ⟨S262144x1, .f32⟩
  | 33 => ⟨S_, .f32⟩
  | 34 => ⟨S262144x1, .f32⟩
  | 35 => ⟨S262144x1, .f32⟩
  | 36 => ⟨S262144x256, .f32⟩
  | 37 => ⟨S262144x256, .f32⟩
  | 38 => ⟨S262144x256, .f32⟩
  | 39 => ⟨S_, .f32⟩
  | 40 => ⟨S262144, .f32⟩
  | 41 => ⟨S262144x1, .f32⟩
  | 42 => ⟨S_, .f32⟩
  | 43 => ⟨S262144x1, .f32⟩
  | 44 => ⟨S262144x1, .f32⟩
  | 45 => ⟨S262144x256, .f32⟩
  | 46 => ⟨S262144x256, .f32⟩
  | 47 => ⟨S_, .f32⟩
  | 48 => ⟨S262144x1, .f32⟩
  | 49 => ⟨S262144x1, .f32⟩
  | 50 => ⟨S262144x1, .f32⟩
  | 51 => ⟨S262144x256, .f32⟩
  | 52 => ⟨S262144x256, .f32⟩
  | 53 => ⟨S1x256, .f32⟩
  | 54 => ⟨S262144x256, .f32⟩
  | 55 => ⟨S262144x256, .f32⟩
  | 56 => ⟨S1x256x256, .f32⟩
  | 57 => ⟨S256x256, .f32⟩
  | 58 => ⟨S256x256, .f32⟩
  | 59 => ⟨S262144x256, .f32⟩
  | 60 => ⟨S_, .f32⟩
  | 61 => ⟨S256, .f32⟩
  | 62 => ⟨S_, .f32⟩
  | 63 => ⟨S256, .f32⟩
  | 64 => ⟨S256, .f32⟩
  | 65 => ⟨S1x256, .f32⟩
  | 66 => ⟨S262144x256, .f32⟩
  | 67 => ⟨S262144x256, .f32⟩
  | 68 => ⟨S262144x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S262144x256, .f32⟩
  | 76 => ⟨S262144x256, .f32⟩
  | 77 => ⟨S_, .f32⟩
  | 78 => ⟨S256, .f32⟩
  | 79 => ⟨S256, .f32⟩
  | 80 => ⟨S256, .f32⟩
  | 81 => ⟨S1x256, .f32⟩
  | 82 => ⟨S262144x256, .f32⟩
  | 83 => ⟨S262144x256, .f32⟩
  | 84 => ⟨S1x256, .f32⟩
  | 85 => ⟨S256, .f32⟩
  | 86 => ⟨S1x256, .f32⟩
  | 87 => ⟨S262144x256, .f32⟩
  | 88 => ⟨S262144x256, .f32⟩
  | 89 => ⟨S1x256, .f32⟩
  | 90 => ⟨S256, .f32⟩
  | 91 => ⟨S1x256, .f32⟩
  | 92 => ⟨S262144x256, .f32⟩
  | 93 => ⟨S262144x256, .f32⟩
  | 94 => ⟨S_, .f32⟩
  | 95 => ⟨S262144x256, .f32⟩
  | 96 => ⟨S262144x256, .f32⟩
  | 97 => ⟨S1x256x256, .f32⟩
  | 98 => ⟨S256x256, .f32⟩
  | 99 => ⟨S256x256, .f32⟩
  | 100 => ⟨S262144x256, .f32⟩
  | 101 => ⟨S_, .f32⟩
  | 102 => ⟨S256, .f32⟩
  | 103 => ⟨S_, .f32⟩
  | 104 => ⟨S256, .f32⟩
  | 105 => ⟨S256, .f32⟩
  | 106 => ⟨S1x256, .f32⟩
  | 107 => ⟨S262144x256, .f32⟩
  | 108 => ⟨S262144x256, .f32⟩
  | 109 => ⟨S262144x256, .f32⟩
  | 110 => ⟨S_, .f32⟩
  | 111 => ⟨S256, .f32⟩
  | 112 => ⟨S_, .f32⟩
  | 113 => ⟨S256, .f32⟩
  | 114 => ⟨S256, .f32⟩
  | 115 => ⟨S1x256, .f32⟩
  | 116 => ⟨S262144x256, .f32⟩
  | 117 => ⟨S262144x256, .f32⟩
  | 118 => ⟨S_, .f32⟩
  | 119 => ⟨S256, .f32⟩
  | 120 => ⟨S256, .f32⟩
  | 121 => ⟨S256, .f32⟩
  | 122 => ⟨S1x256, .f32⟩
  | 123 => ⟨S262144x256, .f32⟩
  | 124 => ⟨S262144x256, .f32⟩
  | 125 => ⟨S1x256, .f32⟩
  | 126 => ⟨S256, .f32⟩
  | 127 => ⟨S1x256, .f32⟩
  | _ => ⟨S50000x256, .f32⟩

abbrev hbmTy0_1 (i : Nat) : BufTy := match i % 128 with
  | 0 => ⟨S262144x256, .f32⟩
  | 1 => ⟨S262144x256, .f32⟩
  | 2 => ⟨S1x256, .f32⟩
  | 3 => ⟨S256, .f32⟩
  | 4 => ⟨S1x256, .f32⟩
  | 5 => ⟨S262144x256, .f32⟩
  | 6 => ⟨S262144x256, .f32⟩
  | 7 => ⟨S_, .f32⟩
  | 8 => ⟨S262144x256, .f32⟩
  | 9 => ⟨S262144x256, .f32⟩
  | 10 => ⟨S1x256x256, .f32⟩
  | 11 => ⟨S256x256, .f32⟩
  | 12 => ⟨S256x256, .f32⟩
  | 13 => ⟨S262144x256, .f32⟩
  | 14 => ⟨S_, .f32⟩
  | 15 => ⟨S256, .f32⟩
  | 16 => ⟨S_, .f32⟩
  | 17 => ⟨S256, .f32⟩
  | 18 => ⟨S256, .f32⟩
  | 19 => ⟨S1x256, .f32⟩
  | 20 => ⟨S262144x256, .f32⟩
  | 21 => ⟨S262144x256, .f32⟩
  | 22 => ⟨S262144x256, .f32⟩
  | 23 => ⟨S_, .f32⟩
  | 24 => ⟨S256, .f32⟩
  | 25 => ⟨S_, .f32⟩
  | 26 => ⟨S256, .f32⟩
  | 27 => ⟨S256, .f32⟩
  | 28 => ⟨S1x256, .f32⟩
  | 29 => ⟨S262144x256, .f32⟩
  | 30 => ⟨S262144x256, .f32⟩
  | 31 => ⟨S_, .f32⟩
  | 32 => ⟨S256, .f32⟩
  | 33 => ⟨S256, .f32⟩
  | 34 => ⟨S256, .f32⟩
  | 35 => ⟨S1x256, .f32⟩
  | 36 => ⟨S262144x256, .f32⟩
  | 37 => ⟨S262144x256, .f32⟩
  | 38 => ⟨S1x256, .f32⟩
  | 39 => ⟨S256, .f32⟩
  | 40 => ⟨S1x256, .f32⟩
  | 41 => ⟨S262144x256, .f32⟩
  | 42 => ⟨S262144x256, .f32⟩
  | 43 => ⟨S1x256, .f32⟩
  | 44 => ⟨S256, .f32⟩
  | 45 => ⟨S1x256, .f32⟩
  | 46 => ⟨S262144x256, .f32⟩
  | 47 => ⟨S262144x256, .f32⟩
  | 48 => ⟨S_, .f32⟩
  | 49 => ⟨S262144x256, .f32⟩
  | 50 => ⟨S262144x256, .f32⟩
  | 51 => ⟨S256x1, .f32⟩
  | 52 => ⟨S262144x1, .f32⟩
  | 53 => ⟨S262144, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_call0_cst : Ref sig .tc := ⟨.hbm, 94, rfl⟩
abbrev main_call0_v0 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_14 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_call1_cst : Ref sig .tc := ⟨.hbm, 135, rfl⟩
abbrev main_call1_v0 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_17 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_19 : Ref sig .tc := ⟨.hbm, 151, rfl⟩
abbrev main_v119 : Ref sig .tc := ⟨.hbm, 152, rfl⟩
abbrev main_cst_20 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_21 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_call2_cst : Ref sig .tc := ⟨.hbm, 176, rfl⟩
abbrev main_call2_v0 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S262144_d1 : S262144x256.ReducesTo [1] S262144
  h_S_ : 0 < S_.numel
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  reducesTo_S262144x256_S256_d0 : S262144x256.ReducesTo [0] S256
  bcast_S_S256 : S_.BroadcastsInDim S256 (![] : Fin 0 → Fin S256.rank)
  slices_S3x256_S1x256_0_0 : S3x256.Slices ![0, 0] S1x256
  shapeCasts_S1x256_S256 : S1x256.ShapeCasts S256
  bcast_S_S262144x256 : S_.BroadcastsInDim S262144x256 (![] : Fin 0 → Fin S262144x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  transposes_S1x256_S256x1_1_0 : S1x256.Transposes [1, 0] S256x1
  shapeCasts_S262144x1_S262144 : S262144x1.ShapeCasts S262144
  gather_S50000x256_S262144x1_S262144x256_1_0_n_n_0_1_1256_wf : GatherDims.WF S50000x256 S262144x1 S262144x256 [1] [0] [] [0] [] 1 ![1, 256]
  dot_S262144x256_S256x256_S262144x256_1_0_0_1_n_n_wf : DotDims.WF S262144x256 S256x256 S262144x256 [1] [0] [0] [1] [] []
  dot_S262144x256_S256x1_S262144x1_1_0_0_1_n_n_wf : DotDims.WF S262144x256 S256x1 S262144x1 [1] [0] [0] [1] [] []

variable [Facts₀]

def gather_S50000x256_S262144x1_S262144x256_1_0_n_n_0_1_1256 : GatherDims S50000x256 S262144x1 S262144x256 where
  offsetDims := [1]
  collapsedSliceDims := [0]
  operandBatchingDims := []
  startIndicesBatchingDims := []
  startIndexMap := [0]
  indexVectorDim := 1
  sliceSizes := ![1, 256]
  wf := gather_S50000x256_S262144x1_S262144x256_1_0_n_n_0_1_1256_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.KRun.lean ====
/-
  The whole program's run with the result array named.  Every weakly fair execution of the four-kernel program terminates
  with each unscoped buffer at the contents the last segment boundary gives it; the score array is one of those buffers, so
  it ends at the last boundary's contents, and the seven argument arrays end as launched.
-/
import proofs.«171780_j3272765079679_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the score array at the last boundary's contents, the arguments unchanged. -/
theorem run_result : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Val

end
-- ==== Proof.Spec.lean ====
/-
  The edge-scoring network as one function of its arrays, entry by entry, on the extended reals.

  Each edge carries a feature row h(e, ·) of d numbers.  The row is layer-normalised (its own mean and its own mean squared
  deviation over the d features, a small constant added under the reciprocal square root, a weight per feature), then sent
  three times through: a linear map  y(e, q) = Σ_k a(e, k) · W(q, k),  a normalisation of every COLUMN q of y by that column's
  mean and variance over ALL the edges (scale γ, shift β), and a rectifier.  The score of the edge is the last layer's row
  against one weight row.  The column variance is left as a parameter `var`: taken in two passes (mean, then the mean squared
  deviation) or in one (the mean of squares minus the squared mean, cut off below at zero).
-/
import Mathlib.Algebra.BigOperators.Fin
import Idealize.ShloMosaic.PureOps.Ideal

noncomputable section

namespace Cert.EdgeNet

open Idealize.ShloMosaic

/-- The f32 word of 256, the number of features. -/
def cD : EReal := Ideal.ofBits .f32 0x43800000#32
/-- The f32 word of 262144, the number of edges. -/
def cE : EReal := Ideal.ofBits .f32 0x48800000#32
/-- The f32 word nearest 1e-5, added to every variance. -/
def eps : EReal := Ideal.ofBits .f32 0x3727C5AC#32

section
variable {n d : ℕ}

/-- A row's mean over its features. -/
def rowMean (h : Fin n → Fin d → EReal) (e : Fin n) : EReal := Ideal.div (∑ k, h e k) cD

/-- A row's mean squared deviation from its mean. -/
def rowVar (h : Fin n → Fin d → EReal) (e : Fin n) : EReal :=
  Ideal.div (∑ k, (h e k - rowMean h e) * (h e k - rowMean h e)) cD

/-- Layer normalisation of every row, with a weight per feature. -/
def layerNorm (h : Fin n → Fin d → EReal) (w : Fin d → EReal) : Fin n → Fin d → EReal := fun e k =>
  (h e k - rowMean h e) * Ideal.rsqrt (rowVar h e + eps) * w k

/-- The linear map  y(e, q) = Σ_k a(e, k) · W(q, k)  (the weight matrix is stored [out, in]). -/
def linear (a : Fin n → Fin d → EReal) (W : Fin d → Fin d → EReal) : Fin n → Fin d → EReal := fun e q =>
  ∑ k, a e k * W q k

/-- A column's sum over all rows. -/
def colSum (y : Fin n → Fin d → EReal) (q : Fin d) : EReal := ∑ e, y e q

/-- A column's sum of squares over all rows. -/
def colSumSq (y : Fin n → Fin d → EReal) (q : Fin d) : EReal := ∑ e, y e q * y e q

/-- A column's mean over all rows. -/
def colMean (y : Fin n → Fin d → EReal) (q : Fin d) : EReal := Ideal.div (colSum y q) cE

/-- A column's variance in two passes: the mean squared deviation from the column's mean. -/
def varTwoPass (y : Fin n → Fin d → EReal) (q : Fin d) : EReal :=
  Ideal.div (∑ e, (y e q - colMean y q) * (y e q - colMean y q)) cE

/-- A column's variance in one pass: the mean of squares minus the squared mean, cut off below at zero. -/
def varOnePass (y : Fin n → Fin d → EReal) (q : Fin d) : EReal :=
  max (Ideal.div (colSumSq y q) cE - colMean y q * colMean y q) 0

/-- Column normalisation by a given mean row and variance row, scale, shift, rectifier. -/
def normReluBy (y : Fin n → Fin d → EReal) (mean var γ β : Fin d → EReal) : Fin n → Fin d → EReal := fun e q =>
  max ((y e q - mean q) * Ideal.rsqrt (var q + eps) * γ q + β q) 0

/-- Column normalisation of `y` by its own column means and the variance `var y`. -/
def normRelu (var : (Fin n → Fin d → EReal) → Fin d → EReal) (y : Fin n → Fin d → EReal) (γ β : Fin d → EReal) :
    Fin n → Fin d → EReal :=
  normReluBy y (colMean y) (var y) γ β

/-- The score of every edge. -/
def net (var : (Fin n → Fin d → EReal) → Fin d → EReal) (h : Fin n → Fin d → EReal) (lnw : Fin d → EReal)
    (W : Fin 3 → Fin d → Fin d → EReal) (γ β : Fin 3 → Fin d → EReal) (wout : Fin d → EReal) : Fin n → EReal :=
  let y0 := linear (layerNorm h lnw) (W 0)
  let y1 := linear (normRelu var y0 (γ 0) (β 0)) (W 1)
  let y2 := linear (normRelu var y1 (γ 1) (β 1)) (W 2)
  fun e => ∑ k, normRelu var y2 (γ 2) (β 2) e k * wout k

end

end Cert.EdgeNet

end
-- ==== Proof.Layout.lean ====
/-
  The network of Spec.lean over whole arrays: the edge features as a [262144, 256] array, the layer-norm weight as a [256]
  vector, the three weight matrices stacked as [3, 256, 256] (each [out, in]), the scales and shifts as [3, 256], the last
  weight row as [1, 256]; the scores as a [262144] vector.  An array entry is named by its coordinates.
-/
import proofs.«171780_j3272765079679_2_alg».proof.Proof.Spec
import Idealize.ShloMosaic.Lib.ValueIdx

noncomputable section

namespace Cert.EdgeNet

open Idealize.ShloMosaic Idealize.ShloMosaic.ValueIdx

/-- A matrix as a function of row and column. -/
def rows {n d : ℕ} (a : (⟨2, ![n, d]⟩ : Shape).Idx → EReal) : Fin n → Fin d → EReal := fun e k => a (ix2 e k)

/-- A vector as a function of its position. -/
def vec {d : ℕ} (a : (⟨1, ![d]⟩ : Shape).Idx → EReal) : Fin d → EReal := fun k => a (ix1 k)

/-- A stack of matrices as a function of layer, row and column. -/
def mats {l n d : ℕ} (a : (⟨3, ![l, n, d]⟩ : Shape).Idx → EReal) : Fin l → Fin n → Fin d → EReal := fun i q k => a (ix3 i q k)

/-- The one row of a [1, d] matrix. -/
def row0 {d : ℕ} (a : (⟨2, ![1, d]⟩ : Shape).Idx → EReal) : Fin d → EReal := fun k => a (ix2 0 k)

/-- The scores, as a [262144] array, of the edge-feature array `H` and the parameter arrays. -/
def scores (var : (Fin 262144 → Fin 256 → EReal) → Fin 256 → EReal)
    (H : (⟨2, ![262144, 256]⟩ : Shape).Idx → EReal) (lnw : (⟨1, ![256]⟩ : Shape).Idx → EReal)
    (Ws : (⟨3, ![3, 256, 256]⟩ : Shape).Idx → EReal) (γs βs : (⟨2, ![3, 256]⟩ : Shape).Idx → EReal)
    (wout : (⟨2, ![1, 256]⟩ : Shape).Idx → EReal) : (⟨1, ![262144]⟩ : Shape).Idx → EReal :=
  fun i => net var (rows H) (vec lnw) (mats Ws) (rows γs) (rows βs) (row0 wout) (i 0)

end Cert.EdgeNet

end
-- ==== Proof.RefIsNet.lean ====
/-
  The reference program, read one operation at a time, is the edge-scoring network of the specification.

  The reference gathers two feature rows per edge and adds them; that array stays a parameter here.  Everything after it is
  read at an index: the layer norm over the 256 features of a row, then three times a product with a transposed weight
  matrix, the mean and the two-pass variance of every column over the 262144 rows, the normalisation, scale, shift and
  rectifier, and at the end the product with one weight row.  Each stage is shown to be the specification's function of the
  stage before it, entry by entry; composing the stages gives the whole network.
-/
import proofs.«171780_j3272765079679_2_alg».proof.Proof.RefRead
import proofs.«171780_j3272765079679_2_alg».proof.Proof.Layout
import Idealize.ShloMosaic.Lib.ValueIdx
import Idealize.ShloMosaic.PureOps.Ideal.Laws

noncomputable section

namespace Cert.ReferenceIdeal.RefNet

open Cert.ReferenceIdeal Cert.ReferenceIdeal.Gen Cert.ReferenceIdeal.Read Idealize.ShloMosaic Idealize.ShloMosaic.ValueIdx
open Cert.EdgeNet

/-- Two rank-two indices are equal when their coordinates are, definitionally. -/
macro "idx2" : tactic => `(tactic| (funext a; match a with | ⟨0, _⟩ => rfl | ⟨1, _⟩ => rfl))
/-- Two rank-one indices are equal when their coordinate is, definitionally. -/
macro "idx1" : tactic => `(tactic| (funext a; match a with | ⟨0, _⟩ => rfl))

/-! ## Reading one stage of the network off its operations

Each lemma says: a value assembled from the host operations' scalar forms (a sum that starts from a zero word, a division,
a reciprocal square root, a product, a maximum) is the specification's entry, once its leaves are the specification's. -/

/-- A scalar constant holding the zero word is the number zero. -/
theorem czero (i : S_.Idx) : constant (F := Ideal) S_ .f32 0x00000000#32 i = (0 : EReal) := Ideal.ofBits_zero_f32

/-- A row's sum from a zero word, divided by the feature count, is the row's mean. -/
theorem rowMean_read (h : Fin 262144 → Fin 256 → EReal) (e : Fin 262144) (z c : EReal) (hz : z = 0) (hc : c = cD)
    (f : Fin 256 → EReal) (hf : ∀ k, f k = h e k) :
    FloatOps.hostDivf (F := Ideal) (φ := .f32) (z + ∑ k, f k) c = rowMean h e := by
  subst hz hc
  obtain rfl : f = fun k => h e k := funext hf
  rewrite [zero_add]
  rfl

/-- A row's sum of squared deviations from a zero word, divided by the feature count, is the row's variance. -/
theorem rowVar_read (h : Fin 262144 → Fin 256 → EReal) (e : Fin 262144) (z c : EReal) (hz : z = 0) (hc : c = cD)
    (f : Fin 256 → EReal) (hf : ∀ k, f k = (h e k - rowMean h e) * (h e k - rowMean h e)) :
    FloatOps.hostDivf (F := Ideal) (φ := .f32) (z + ∑ k, f k) c = rowVar h e := by
  subst hz hc
  obtain rfl : f = fun k => (h e k - rowMean h e) * (h e k - rowMean h e) := funext hf
  rewrite [zero_add]
  rfl

/-- The layer-normalised entry from its leaves. -/
theorem layerNorm_read (h : Fin 262144 → Fin 256 → EReal) (w : Fin 256 → EReal) (e : Fin 262144) (k : Fin 256)
    (y m v ep g : EReal) (hy : y = h e k) (hm : m = rowMean h e) (hv : v = rowVar h e) (hep : ep = eps) (hg : g = w k) :
    FloatOps.mulf (F := Ideal) (φ := .f32)
      (FloatOps.mulf (F := Ideal) (φ := .f32) (FloatOps.subf (F := Ideal) (φ := .f32) y m)
        (FloatOps.hostUnary (F := Ideal) .rsqrt (φ := .f32) (FloatOps.addf (F := Ideal) (φ := .f32) v ep))) g
      = layerNorm h w e k := by
  subst hy hm hv hep hg
  rfl

/-- A column's sum from a zero word, divided by the edge count, is the column's mean. -/
theorem colMean_read (Y : Fin 262144 → Fin 256 → EReal) (q : Fin 256) (z c : EReal) (hz : z = 0) (hc : c = cE)
    (f : Fin 262144 → EReal) (hf : ∀ e, f e = Y e q) :
    FloatOps.hostDivf (F := Ideal) (φ := .f32) (z + ∑ e, f e) c = colMean Y q := by
  subst hz hc
  obtain rfl : f = fun e => Y e q := funext hf
  rewrite [zero_add]
  rfl

/-- A column's sum of squared deviations from a zero word, divided by the edge count, is the two-pass variance. -/
theorem varTwoPass_read (Y : Fin 262144 → Fin 256 → EReal) (q : Fin 256) (z c : EReal) (hz : z = 0) (hc : c = cE)
    (f : Fin 262144 → EReal) (hf : ∀ e, f e = (Y e q - colMean Y q) * (Y e q - colMean Y q)) :
    FloatOps.hostDivf (F := Ideal) (φ := .f32) (z + ∑ e, f e) c = varTwoPass Y q := by
  subst hz hc
  obtain rfl : f = fun e => (Y e q - colMean Y q) * (Y e q - colMean Y q) := funext hf
  rewrite [zero_add]
  rfl

/-- The normalised, scaled, shifted and rectified entry from its leaves. -/
theorem normRelu_read (Y : Fin 262144 → Fin 256 → EReal) (γ β : Fin 256 → EReal) (e : Fin 262144) (q : Fin 256)
    (y m v ep g b zz : EReal) (hy : y = Y e q) (hm : m = colMean Y q) (hv : v = varTwoPass Y q) (hep : ep = eps)
    (hg : g = γ q) (hb : b = β q) (hz : zz = 0) :
    FloatOps.maximumf (F := Ideal) (φ := .f32)
      (FloatOps.addf (F := Ideal) (φ := .f32)
        (FloatOps.mulf (F := Ideal) (φ := .f32)
          (FloatOps.mulf (F := Ideal) (φ := .f32) (FloatOps.subf (F := Ideal) (φ := .f32) y m)
            (FloatOps.hostUnary (F := Ideal) .rsqrt (φ := .f32) (FloatOps.addf (F := Ideal) (φ := .f32) v ep))) g) b) zz
      = normRelu varTwoPass Y γ β e q := by
  subst hy hm hv hep hg hb hz
  rfl

section Stages

variable (x0 : (⟨S50000x256, .f32⟩ : BufTy).Contents (Elt Ideal)) (x1 : (⟨S2x262144, .i32⟩ : BufTy).Contents (Elt Ideal))
  (x2 : (⟨S256, .f32⟩ : BufTy).Contents (Elt Ideal)) (x3 : (⟨S3x256x256, .f32⟩ : BufTy).Contents (Elt Ideal))
  (x4 x5 : (⟨S3x256, .f32⟩ : BufTy).Contents (Elt Ideal)) (x6 : (⟨S1x256, .f32⟩ : BufTy).Contents (Elt Ideal))

/-! ## The layer norm (operations 19 to 39) -/

/-- The row means, kept as a one-column array. -/
theorem ln_mean_at (i : S262144x1.Idx) :
    val_main_v22 (F := Ideal) x0 x1 i = rowMean (rows (val_main_v18 (F := Ideal) x0 x1)) (i 0) := by
  rewrite [val_main_v22_apply, val_main_v20_apply, val_main_v19_apply, val_main_v21_apply]
  exact rowMean_read (rows (val_main_v18 (F := Ideal) x0 x1)) (i 0) _ _ (czero _) rfl _ (fun k => by
    show val_main_v18 (F := Ideal) x0 x1 (idx_main_v19 (idx_main_v20 i) k) = val_main_v18 (F := Ideal) x0 x1 (ix2 (n0 := 262144) (n1 := 256) (i 0) k)
    rw [show idx_main_v19 (idx_main_v20 i) k = ix2 (n0 := 262144) (n1 := 256) (i 0) k from by idx2])

/-- The row variances, kept as a one-column array. -/
theorem ln_var_at (i : S262144x1.Idx) :
    val_main_v29 (F := Ideal) x0 x1 i = rowVar (rows (val_main_v18 (F := Ideal) x0 x1)) (i 0) := by
  rewrite [val_main_v29_apply, val_main_v27_apply, val_main_v26_apply, val_main_v28_apply]
  refine rowVar_read (rows (val_main_v18 (F := Ideal) x0 x1)) (i 0) _ _ (czero _) rfl _ (fun k => ?_)
  show val_main_v25 (F := Ideal) x0 x1 (idx_main_v26 (idx_main_v27 i) k) = _
  rewrite [show idx_main_v26 (idx_main_v27 i) k = ix2 (n0 := 262144) (n1 := 256) (i 0) k from by idx2, val_main_v25_apply, val_main_v24_apply, val_main_v23_apply,
    ln_mean_at x0 x1]
  rfl

/-- The layer-normalised features. -/
theorem ln_at (e : Fin 262144) (k : Fin 256) :
    val_main_v39 (F := Ideal) x0 x1 x2 (ix2 e k) = layerNorm (rows (val_main_v18 (F := Ideal) x0 x1)) (vec x2) e k := by
  rewrite [val_main_v39_apply, val_main_v36_apply, val_main_v31_apply, val_main_v30_apply, ln_mean_at x0 x1, val_main_v35_apply, val_main_v34_apply, val_main_v33_apply,
    ln_var_at x0 x1, val_main_v32_apply, val_main_v38_apply, val_main_v37_apply]
  exact layerNorm_read (rows (val_main_v18 (F := Ideal) x0 x1)) (vec x2) e k _ _ _ _ _ rfl rfl rfl rfl (congrArg x2 (by idx1))

/-! ## The first layer (operations 40 to 73) -/

/-- The transposed weight slice is the layer's weight matrix with its coordinates exchanged. -/
theorem w0_at (j : S256x256.Idx) : val_main_v42 (F := Ideal) x3 j = mats x3 0 (j 1) (j 0) := by
  rewrite [val_main_v42_apply, val_main_v41_apply, val_main_v40_apply]
  exact congrArg x3 (by
    funext a
    match a with
    | ⟨0, _⟩ => rfl
    | ⟨1, _⟩ => exact Fin.ext (by
        have h0 : (j 0).val < 256 := (j 0).isLt
        have h1 : (j 1).val < 256 := (j 1).isLt
        show ((j 1).val * 256 + (j 0).val) / 256 % 256 = (j 1).val
        omega)
    | ⟨2, _⟩ => exact Fin.ext (by
        have h0 : (j 0).val < 256 := (j 0).isLt
        have h1 : (j 1).val < 256 := (j 1).isLt
        show ((j 1).val * 256 + (j 0).val) % 256 = (j 0).val
        omega))

/-- The layer's linear map of its input. -/
theorem y0_at (A : Fin 262144 → Fin 256 → EReal) (hA : ∀ e k, val_main_v39 (F := Ideal) x0 x1 x2 (ix2 e k) = A e k)
    (e : Fin 262144) (q : Fin 256) :
    val_main_v43 (F := Ideal) x0 x1 x2 x3 (ix2 e q) = linear A (mats x3 0) e q := by
  rewrite [val_main_v43_apply]
  show _ = ∑ k : Fin 256, A e k * mats x3 0 q k
  refine Finset.sum_congr rfl fun k _ => ?_
  rewrite [show lidx_main_v43 (ix2 e q) k = ix2 e k from by idx2, hA, w0_at x3]
  rfl

/-- The column means. -/
theorem mean0_at (Y : Fin 262144 → Fin 256 → EReal) (hY : ∀ e q, val_main_v43 (F := Ideal) x0 x1 x2 x3 (ix2 e q) = Y e q)
    (i : S256.Idx) : val_main_v46 (F := Ideal) x0 x1 x2 x3 i = colMean Y (i 0) := by
  rewrite [val_main_v46_apply, val_main_v44_apply, val_main_v45_apply]
  exact colMean_read Y (i 0) _ _ (czero _) rfl _ (fun e => by
    show val_main_v43 (F := Ideal) x0 x1 x2 x3 (idx_main_v44 i e) = Y e (i 0)
    rewrite [show idx_main_v44 i e = ix2 (n0 := 262144) (n1 := 256) e (i 0) from by idx2]
    exact hY e (i 0))

/-- The column variances, in two passes. -/
theorem var0_at (Y : Fin 262144 → Fin 256 → EReal) (hY : ∀ e q, val_main_v43 (F := Ideal) x0 x1 x2 x3 (ix2 e q) = Y e q)
    (i : S256.Idx) : val_main_v53 (F := Ideal) x0 x1 x2 x3 i = varTwoPass Y (i 0) := by
  rewrite [val_main_v53_apply, val_main_v51_apply, val_main_v52_apply]
  refine varTwoPass_read Y (i 0) _ _ (czero _) rfl _ (fun e => ?_)
  show val_main_v50 (F := Ideal) x0 x1 x2 x3 (idx_main_v51 i e) = _
  rewrite [show idx_main_v51 i e = ix2 (n0 := 262144) (n1 := 256) e (i 0) from by idx2, val_main_v50_apply, val_main_v49_apply, val_main_v48_apply, val_main_v47_apply,
    mean0_at x0 x1 x2 x3 Y hY, hY e (i 0)]
  rfl

/-- The scale row, spread over the edges. -/
theorem gamma0_at (i : S262144x256.Idx) : val_main_v66 (F := Ideal) x4 i = rows x4 0 (i 1) := by
  rewrite [val_main_v66_apply, val_main_v65_apply, val_main_v64_apply, val_main_v63_apply]
  exact congrArg x4 (by
    funext a
    match a with
    | ⟨0, _⟩ => rfl
    | ⟨1, _⟩ => exact Fin.ext (by
        have h1 : (i 1).val < 256 := (i 1).isLt
        show (i 1).val % 256 = (i 1).val
        omega))

/-- The shift row, spread over the edges. -/
theorem beta0_at (i : S262144x256.Idx) : val_main_v71 (F := Ideal) x5 i = rows x5 0 (i 1) := by
  rewrite [val_main_v71_apply, val_main_v70_apply, val_main_v69_apply, val_main_v68_apply]
  exact congrArg x5 (by
    funext a
    match a with
    | ⟨0, _⟩ => rfl
    | ⟨1, _⟩ => exact Fin.ext (by
        have h1 : (i 1).val < 256 := (i 1).isLt
        show (i 1).val % 256 = (i 1).val
        omega))

/-- The layer's output from its linear map: normalise every column, scale, shift, rectify. -/
theorem out0_at (Y : Fin 262144 → Fin 256 → EReal) (hY : ∀ e q, val_main_v43 (F := Ideal) x0 x1 x2 x3 (ix2 e q) = Y e q)
    (e : Fin 262144) (q : Fin 256) :
    val_main_v73 (F := Ideal) x0 x1 x2 x3 x4 x5 (ix2 e q) = normRelu varTwoPass Y (rows x4 0) (rows x5 0) e q := by
  rewrite [val_main_v73_apply, val_main_v72_apply, val_main_v67_apply, val_main_v62_apply, val_main_v56_apply, val_main_v55_apply, val_main_v54_apply,
    mean0_at x0 x1 x2 x3 Y hY, hY, val_main_v61_apply, val_main_v60_apply, val_main_v59_apply, val_main_v58_apply,
    var0_at x0 x1 x2 x3 Y hY, val_main_v57_apply, gamma0_at x4, beta0_at x5, val_main_call0_v0_apply]
  exact normRelu_read Y (rows x4 0) (rows x5 0) e q _ _ _ _ _ _ _ rfl rfl rfl rfl rfl rfl (czero _)

/-- The layer, from its input to its output. -/
theorem layer0_at (A : Fin 262144 → Fin 256 → EReal) (hA : ∀ e k, val_main_v39 (F := Ideal) x0 x1 x2 (ix2 e k) = A e k)
    (e : Fin 262144) (q : Fin 256) :
    val_main_v73 (F := Ideal) x0 x1 x2 x3 x4 x5 (ix2 e q) = normRelu varTwoPass (linear A (mats x3 0)) (rows x4 0) (rows x5 0) e q :=
  out0_at x0 x1 x2 x3 x4 x5 (linear A (mats x3 0)) (y0_at x0 x1 x2 x3 A hA) e q

/-! ## The second layer (operations 74 to 107) -/

/-- The transposed weight slice is the layer's weight matrix with its coordinates exchanged. -/
theorem w1_at (j : S256x256.Idx) : val_main_v76 (F := Ideal) x3 j = mats x3 1 (j 1) (j 0) := by
  rewrite [val_main_v76_apply, val_main_v75_apply, val_main_v74_apply]
  exact congrArg x3 (by
    funext a
    match a with
    | ⟨0, _⟩ => rfl
    | ⟨1, _⟩ => exact Fin.ext (by
        have h0 : (j 0).val < 256 := (j 0).isLt
        have h1 : (j 1).val < 256 := (j 1).isLt
        show ((j 1).val * 256 + (j 0).val) / 256 % 256 = (j 1).val
        omega)
    | ⟨2, _⟩ => exact Fin.ext (by
        have h0 : (j 0).val < 256 := (j 0).isLt
        have h1 : (j 1).val < 256 := (j 1).isLt
        show ((j 1).val * 256 + (j 0).val) % 256 = (j 0).val
        omega))

/-- The layer's linear map of its input. -/
theorem y1_at (A : Fin 262144 → Fin 256 → EReal) (hA : ∀ e k, val_main_v73 (F := Ideal) x0 x1 x2 x3 x4 x5 (ix2 e k) = A e k)
    (e : Fin 262144) (q : Fin 256) :
    val_main_v77 (F := Ideal) x0 x1 x2 x3 x4 x5 (ix2 e q) = linear A (mats x3 1) e q := by
  rewrite [val_main_v77_apply]
  show _ = ∑ k : Fin 256, A e k * mats x3 1 q k
  refine Finset.sum_congr rfl fun k _ => ?_
  rewrite [show lidx_main_v77 (ix2 e q) k = ix2 e k from by idx2, hA, w1_at x3]
  rfl

/-- The column means. -/
theorem mean1_at (Y : Fin 262144 → Fin 256 → EReal) (hY : ∀ e q, val_main_v77 (F := Ideal) x0 x1 x2 x3 x4 x5 (ix2 e q) = Y e q)
    (i : S256.Idx) : val_main_v80 (F := Ideal) x0 x1 x2 x3 x4 x5 i = colMean Y (i 0) := by
  rewrite [val_main_v80_apply, val_main_v78_apply, val_main_v79_apply]
  exact colMean_read Y (i 0) _ _ (czero _) rfl _ (fun e => by
    show val_main_v77 (F := Ideal) x0 x1 x2 x3 x4 x5 (idx_main_v78 i e) = Y e (i 0)
    rewrite [show idx_main_v78 i e = ix2 (n0 := 262144) (n1 := 256) e (i 0) from by idx2]
    exact hY e (i 0))

/-- The column variances, in two passes. -/
theorem var1_at (Y : Fin 262144 → Fin 256 → EReal) (hY : ∀ e q, val_main_v77 (F := Ideal) x0 x1 x2 x3 x4 x5 (ix2 e q) = Y e q)
    (i : S256.Idx) : val_main_v87 (F := Ideal) x0 x1 x2 x3 x4 x5 i = varTwoPass Y (i 0) := by
  rewrite [val_main_v87_apply, val_main_v85_apply, val_main_v86_apply]
  refine varTwoPass_read Y (i 0) _ _ (czero _) rfl _ (fun e => ?_)
  show val_main_v84 (F := Ideal) x0 x1 x2 x3 x4 x5 (idx_main_v85 i e) = _
  rewrite [show idx_main_v85 i e = ix2 (n0 := 262144) (n1 := 256) e (i 0) from by idx2, val_main_v84_apply, val_main_v83_apply, val_main_v82_apply, val_main_v81_apply,
    mean1_at x0 x1 x2 x3 x4 x5 Y hY, hY e (i 0)]
  rfl

/-- The scale row, spread over the edges. -/
theorem gamma1_at (i : S262144x256.Idx) : val_main_v100 (F := Ideal) x4 i = rows x4 1 (i 1) := by
  rewrite [val_main_v100_apply, val_main_v99_apply, val_main_v98_apply, val_main_v97_apply]
  exact congrArg x4 (by
    funext a
    match a with
    | ⟨0, _⟩ => rfl
    | ⟨1, _⟩ => exact Fin.ext (by
        have h1 : (i 1).val < 256 := (i 1).isLt
        show (i 1).val % 256 = (i 1).val
        omega))

/-- The shift row, spread over the edges. -/
theorem beta1_at (i : S262144x256.Idx) : val_main_v105 (F := Ideal) x5 i = rows x5 1 (i 1) := by
  rewrite [val_main_v105_apply, val_main_v104_apply, val_main_v103_apply, val_main_v102_apply]
  exact congrArg x5 (by
    funext a
    match a with
    | ⟨0, _⟩ => rfl
    | ⟨1, _⟩ => exact Fin.ext (by
        have h1 : (i 1).val < 256 := (i 1).isLt
        show (i 1).val % 256 = (i 1).val
        omega))

/-- The layer's output from its linear map: normalise every column, scale, shift, rectify. -/
theorem out1_at (Y : Fin 262144 → Fin 256 → EReal) (hY : ∀ e q, val_main_v77 (F := Ideal) x0 x1 x2 x3 x4 x5 (ix2 e q) = Y e q)
    (e : Fin 262144) (q : Fin 256) :
    val_main_v107 (F := Ideal) x0 x1 x2 x3 x4 x5 (ix2 e q) = normRelu varTwoPass Y (rows x4 1) (rows x5 1) e q := by
  rewrite [val_main_v107_apply, val_main_v106_apply, val_main_v101_apply, val_main_v96_apply, val_main_v90_apply, val_main_v89_apply, val_main_v88_apply,
    mean1_at x0 x1 x2 x3 x4 x5 Y hY, hY, val_main_v95_apply, val_main_v94_apply, val_main_v93_apply, val_main_v92_apply,
    var1_at x0 x1 x2 x3 x4 x5 Y hY, val_main_v91_apply, gamma1_at x4, beta1_at x5, val_main_call1_v0_apply]
  exact normRelu_read Y (rows x4 1) (rows x5 1) e q _ _ _ _ _ _ _ rfl rfl rfl rfl rfl rfl (czero _)

/-- The layer, from its input to its output. -/
theorem layer1_at (A : Fin 262144 → Fin 256 → EReal) (hA : ∀ e k, val_main_v73 (F := Ideal) x0 x1 x2 x3 x4 x5 (ix2 e k) = A e k)
    (e : Fin 262144) (q : Fin 256) :
    val_main_v107 (F := Ideal) x0 x1 x2 x3 x4 x5 (ix2 e q) = normRelu varTwoPass (linear A (mats x3 1)) (rows x4 1) (rows x5 1) e q :=
  out1_at x0 x1 x2 x3 x4 x5 (linear A (mats x3 1)) (y1_at x0 x1 x2 x3 x4 x5 A hA) e q

/-! ## The third layer (operations 108 to 141) -/

/-- The transposed weight slice is the layer's weight matrix with its coordinates exchanged. -/
theorem w2_at (j : S256x256.Idx) : val_main_v110 (F := Ideal) x3 j = mats x3 2 (j 1) (j 0) := by
  rewrite [val_main_v110_apply, val_main_v109_apply, val_main_v108_apply]
  exact congrArg x3 (by
    funext a
    match a with
    | ⟨0, _⟩ => rfl
    | ⟨1, _⟩ => exact Fin.ext (by
        have h0 : (j 0).val < 256 := (j 0).isLt
        have h1 : (j 1).val < 256 := (j 1).isLt
        show ((j 1).val * 256 + (j 0).val) / 256 % 256 = (j 1).val
        omega)
    | ⟨2, _⟩ => exact Fin.ext (by
        have h0 : (j 0).val < 256 := (j 0).isLt
        have h1 : (j 1).val < 256 := (j 1).isLt
        show ((j 1).val * 256 + (j 0).val) % 256 = (j 0).val
        omega))

/-- The layer's linear map of its input. -/
theorem y2_at (A : Fin 262144 → Fin 256 → EReal) (hA : ∀ e k, val_main_v107 (F := Ideal) x0 x1 x2 x3 x4 x5 (ix2 e k) = A e k)
    (e : Fin 262144) (q : Fin 256) :
    val_main_v111 (F := Ideal) x0 x1 x2 x3 x4 x5 (ix2 e q) = linear A (mats x3 2) e q := by
  rewrite [val_main_v111_apply]
  show _ = ∑ k : Fin 256, A e k * mats x3 2 q k
  refine Finset.sum_congr rfl fun k _ => ?_
  rewrite [show lidx_main_v111 (ix2 e q) k = ix2 e k from by idx2, hA, w2_at x3]
  rfl

/-- The column means. -/
theorem mean2_at (Y : Fin 262144 → Fin 256 → EReal) (hY : ∀ e q, val_main_v111 (F := Ideal) x0 x1 x2 x3 x4 x5 (ix2 e q) = Y e q)
    (i : S256.Idx) : val_main_v114 (F := Ideal) x0 x1 x2 x3 x4 x5 i = colMean Y (i 0) := by
  rewrite [val_main_v114_apply, val_main_v112_apply, val_main_v113_apply]
  exact colMean_read Y (i 0) _ _ (czero _) rfl _ (fun e => by
    show val_main_v111 (F := Ideal) x0 x1 x2 x3 x4 x5 (idx_main_v112 i e) = Y e (i 0)
    rewrite [show idx_main_v112 i e = ix2 (n0 := 262144) (n1 := 256) e (i 0) from by idx2]
    exact hY e (i 0))

/-- The column variances, in two passes. -/
theorem var2_at (Y : Fin 262144 → Fin 256 → EReal) (hY : ∀ e q, val_main_v111 (F := Ideal) x0 x1 x2 x3 x4 x5 (ix2 e q) = Y e q)
    (i : S256.Idx) : val_main_v121 (F := Ideal) x0 x1 x2 x3 x4 x5 i = varTwoPass Y (i 0) := by
  rewrite [val_main_v121_apply, val_main_v119_apply, val_main_v120_apply]
  refine varTwoPass_read Y (i 0) _ _ (czero _) rfl _ (fun e => ?_)
  show val_main_v118 (F := Ideal) x0 x1 x2 x3 x4 x5 (idx_main_v119 i e) = _
  rewrite [show idx_main_v119 i e = ix2 (n0 := 262144) (n1 := 256) e (i 0) from by idx2, val_main_v118_apply, val_main_v117_apply, val_main_v116_apply, val_main_v115_apply,
    mean2_at x0 x1 x2 x3 x4 x5 Y hY, hY e (i 0)]
  rfl

/-- The scale row, spread over the edges. -/
theorem gamma2_at (i : S262144x256.Idx) : val_main_v134 (F := Ideal) x4 i = rows x4 2 (i 1) := by
  rewrite [val_main_v134_apply, val_main_v133_apply, val_main_v132_apply, val_main_v131_apply]
  exact congrArg x4 (by
    funext a
    match a with
    | ⟨0, _⟩ => rfl
    | ⟨1, _⟩ => exact Fin.ext (by
        have h1 : (i 1).val < 256 := (i 1).isLt
        show (i 1).val % 256 = (i 1).val
        omega))

/-- The shift row, spread over the edges. -/
theorem beta2_at (i : S262144x256.Idx) : val_main_v139 (F := Ideal) x5 i = rows x5 2 (i 1) := by
  rewrite [val_main_v139_apply, val_main_v138_apply, val_main_v137_apply, val_main_v136_apply]
  exact congrArg x5 (by
    funext a
    match a with
    | ⟨0, _⟩ => rfl
    | ⟨1, _⟩ => exact Fin.ext (by
        have h1 : (i 1).val < 256 := (i 1).isLt
        show (i 1).val % 256 = (i 1).val
        omega))

/-- The layer's output from its linear map: normalise every column, scale, shift, rectify. -/
theorem out2_at (Y : Fin 262144 → Fin 256 → EReal) (hY : ∀ e q, val_main_v111 (F := Ideal) x0 x1 x2 x3 x4 x5 (ix2 e q) = Y e q)
    (e : Fin 262144) (q : Fin 256) :
    val_main_v141 (F := Ideal) x0 x1 x2 x3 x4 x5 (ix2 e q) = normRelu varTwoPass Y (rows x4 2) (rows x5 2) e q := by
  rewrite [val_main_v141_apply, val_main_v140_apply, val_main_v135_apply, val_main_v130_apply, val_main_v124_apply, val_main_v123_apply, val_main_v122_apply,
    mean2_at x0 x1 x2 x3 x4 x5 Y hY, hY, val_main_v129_apply, val_main_v128_apply, val_main_v127_apply, val_main_v126_apply,
    var2_at x0 x1 x2 x3 x4 x5 Y hY, val_main_v125_apply, gamma2_at x4, beta2_at x5, val_main_call2_v0_apply]
  exact normRelu_read Y (rows x4 2) (rows x5 2) e q _ _ _ _ _ _ _ rfl rfl rfl rfl rfl rfl (czero _)

/-- The layer, from its input to its output. -/
theorem layer2_at (A : Fin 262144 → Fin 256 → EReal) (hA : ∀ e k, val_main_v107 (F := Ideal) x0 x1 x2 x3 x4 x5 (ix2 e k) = A e k)
    (e : Fin 262144) (q : Fin 256) :
    val_main_v141 (F := Ideal) x0 x1 x2 x3 x4 x5 (ix2 e q) = normRelu varTwoPass (linear A (mats x3 2)) (rows x4 2) (rows x5 2) e q :=
  out2_at x0 x1 x2 x3 x4 x5 (linear A (mats x3 2)) (y2_at x0 x1 x2 x3 x4 x5 A hA) e q

/-! ## The scores (operations 142 to 144) -/

/-- The last product against the one weight row, flattened to a vector. -/
theorem score_at (Z : Fin 262144 → Fin 256 → EReal) (hZ : ∀ e k, val_main_v141 (F := Ideal) x0 x1 x2 x3 x4 x5 (ix2 e k) = Z e k)
    (i : S262144.Idx) :
    val_main_v144 (F := Ideal) x0 x1 x2 x3 x4 x5 x6 i = ∑ k : Fin 256, Z (i 0) k * row0 x6 k := by
  rewrite [val_main_v144_apply, val_main_v143_apply]
  refine Finset.sum_congr rfl fun k _ => ?_
  rewrite [show lidx_main_v143 (idx_main_v144 i) k = ix2 (n0 := 262144) (n1 := 256) (i 0) k from by
      funext a
      match a with
      | ⟨0, _⟩ => exact Fin.ext (Nat.div_one _)
      | ⟨1, _⟩ => rfl,
    hZ (i 0) k, val_main_v142_apply,
    show idx_main_v142 (ridx_main_v143 (idx_main_v144 i) k) = ix2 0 k from by idx2]
  rfl

end Stages

/-! ## The reference program is the network -/

/-- The reference's result is the specification's score vector of the edge-feature array and the parameter arrays. -/
theorem ref_is_net (x0 : (⟨S50000x256, .f32⟩ : BufTy).Contents (Elt Ideal)) (x1 : (⟨S2x262144, .i32⟩ : BufTy).Contents (Elt Ideal))
    (x2 : (⟨S256, .f32⟩ : BufTy).Contents (Elt Ideal)) (x3 : (⟨S3x256x256, .f32⟩ : BufTy).Contents (Elt Ideal))
    (x4 x5 : (⟨S3x256, .f32⟩ : BufTy).Contents (Elt Ideal)) (x6 : (⟨S1x256, .f32⟩ : BufTy).Contents (Elt Ideal)) :
    val_main_v144 (F := Ideal) x0 x1 x2 x3 x4 x5 x6 = scores varTwoPass (val_main_v18 (F := Ideal) x0 x1) x2 x3 x4 x5 x6 := by
  funext i
  have h1 := layer0_at x0 x1 x2 x3 x4 x5 (layerNorm (rows (val_main_v18 (F := Ideal) x0 x1)) (vec x2)) (ln_at x0 x1 x2)
  have h2 := layer1_at x0 x1 x2 x3 x4 x5 _ h1
  have h3 := layer2_at x0 x1 x2 x3 x4 x5 _ h2
  exact score_at x0 x1 x2 x3 x4 x5 x6 _ h3 i

end Cert.ReferenceIdeal.RefNet

end
-- ==== Proof.LibRealSums.lean ====
/-
  Finite sums of real numbers inside the extended reals, and the few float constants a mean over 64 rows and a
  batch-norm scale spell.

  On the extended reals multiplication does not distribute over a sum that mixes `⊤` and `⊥`; on real numbers it
  does. So a sum of products of real numbers, scaled by a real number, is the sum of the products with the scale moved
  inside each term:  (Σ_k x_k · w_k) · v = Σ_k x_k · (w_k · v).  A sum over `a + b` consecutive terms is the sum of its
  two stretches (associativity only, no finiteness). A quotient by the real 64 is the product with 1/64. For a real
  `s ≥ 0` and the f32 constant `ε = 0x3727C5AC > 0`, `γ · rsqrt (s + ε)` is a real number when `γ` is.
-/
import Mathlib.Algebra.BigOperators.Fin
import Idealize.ShloMosaic.PureOps.Ideal

noncomputable section

namespace Cert.LibRealSums

open Idealize.ShloMosaic

/-- An extended real that is a real number. -/
def IsReal (x : EReal) : Prop := ∃ r : ℝ, x = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, times a real, is the sum with the factor moved inside each product. -/
theorem sum_mul_real {n : ℕ} (x w : Fin n → EReal) (v : EReal) (hx : ∀ k, IsReal (x k)) (hw : ∀ k, IsReal (w k))
    (hv : IsReal v) : (∑ k, x k * w k) * v = ∑ k, x k * (w k * v) := by
  choose xr hxr using hx
  choose wr hwr using hw
  obtain ⟨vr, rfl⟩ := hv
  simp only [hxr, hwr, ← EReal.coe_mul, ← coe_sum]
  congr 1
  rw [Finset.sum_mul]
  exact Finset.sum_congr rfl fun k _ => mul_assoc _ _ _

/-- A sum of products of reals is a real. -/
theorem isReal_sum_mul {n : ℕ} (x w : Fin n → EReal) (hx : ∀ k, IsReal (x k)) (hw : ∀ k, IsReal (w k)) :
    IsReal (∑ k, x k * w k) := by
  choose xr hxr using hx
  choose wr hwr using hw
  refine ⟨∑ k, xr k * wr k, ?_⟩
  simp only [hxr, hwr, ← EReal.coe_mul, ← coe_sum]

/-- On real numbers multiplication distributes over a sum of two. -/
theorem add_mul_real (a b v : EReal) (ha : IsReal a) (hb : IsReal b) (hv : IsReal v) : (a + b) * v = a * v + b * v := by
  obtain ⟨ar, rfl⟩ := ha
  obtain ⟨br, rfl⟩ := hb
  obtain ⟨vr, rfl⟩ := hv
  rw [← EReal.coe_add, ← EReal.coe_mul, ← EReal.coe_mul, ← EReal.coe_mul, ← EReal.coe_add, add_mul]

/-- The sum of two reals is a real. -/
theorem isReal_add (a b : EReal) (ha : IsReal a) (hb : IsReal b) : IsReal (a + b) := by
  obtain ⟨ar, rfl⟩ := ha
  obtain ⟨br, rfl⟩ := hb
  exact ⟨ar + br, (EReal.coe_add ar br).symm⟩

/-- `∑ k < a + b, f k = ∑ k < a, f k + ∑ k < b, f (a + k)`. -/
theorem sum_two {M : Type*} [AddCommMonoid M] (a b n : ℕ) (h : n = a + b) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- The f32 pattern of `+0.0` is the real zero. -/
theorem ofBits_zero : Ideal.ofBits .f32 0x00000000#32 = (0 : EReal) := by
  simp [Ideal.ofBits, Ideal.ieee]

/-- The f32 pattern `0x42800000` is the real 64. -/
theorem ofBits_64 : Ideal.ofBits .f32 0x42800000#32 = ((64 : ℝ) : EReal) := by
  simp [Ideal.ofBits, Ideal.ieee, -EReal.coe_mul]; norm_num

/-- The f32 pattern `0x3C800000` is the real 1/64. -/
theorem ofBits_inv64 : Ideal.ofBits .f32 0x3C800000#32 = ((1 / 64 : ℝ) : EReal) := by
  simp [Ideal.ofBits, Ideal.ieee, -EReal.coe_mul]; norm_num

/-- A quotient by the f32 constant 64 is the product with the f32 constant 1/64. -/
theorem div_64 (x : EReal) :
    Ideal.div x (Ideal.ofBits .f32 0x42800000#32) = x * Ideal.ofBits .f32 0x3C800000#32 := by
  rw [ofBits_64, ofBits_inv64]
  exact Ideal.div_coe (by norm_num) x

/-- The f32 pattern `0x3727C5AC` (the batch-norm ε) is a positive real. -/
theorem eps_pos : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-- For real `γ`, real `s ≥ 0` and the constant ε, `γ · rsqrt (s + ε)` is a real number. -/
theorem scale_isReal (g s : EReal) (hg : IsReal g) (hs : ∃ r : ℝ, 0 ≤ r ∧ s = (r : EReal)) :
    IsReal (g * Ideal.rsqrt (s + Ideal.ofBits .f32 0x3727C5AC#32)) := by
  obtain ⟨gr, rfl⟩ := hg
  obtain ⟨sr, hs0, rfl⟩ := hs
  obtain ⟨e, he, hE⟩ := eps_pos
  rw [hE, ← EReal.coe_add, Ideal.rsqrt_coe, if_neg (by linarith), if_neg (by linarith), ← EReal.coe_mul]
  exact ⟨_, rfl⟩

end Cert.LibRealSums

end
-- ==== Proof.Finite.lean ====
/-
  The precondition makes every float input an array of real numbers.

  For each float input x the precondition takes |x| = max x (-x) entry by entry, compares it below the f32 pattern of +∞
  (which is ⊤ on the extended reals), and folds all the answers by "and" from true; the six folds are and-ed together and
  the result is claimed to be 1.  So each fold is 1, hence every comparison is 1, hence max x (-x) < ⊤ at every entry:
  x is neither ⊤ nor ⊥, that is, a real number.
-/
import Idealize.ShloMosaic.Lib.ReduceAll
import Idealize.ShloMosaic.Lib.ValueIdx
import proofs.«171780_j3272765079679_2_alg».proof.Pre_finite_inputs
import proofs.«171780_j3272765079679_2_alg».proof.Proof.LibRealSums

noncomputable section

namespace Cert.Finite

open Idealize.ShloMosaic
open Cert.LibRealSums
open Cert.Pre_finite_inputs

/-- The scalar shape has one index. -/
instance : Subsingleton S_.Idx := ⟨fun a b => funext fun d => d.elim0⟩

theorem ofBool_eq_one (b : Bool) : BitVec.ofBool b = 1#1 ↔ b = true := by cases b <;> decide

/-- An extended real whose absolute value `max x (-x)` is below the f32 pattern of +∞ is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  simp only [Ideal.cmp] at h
  rw [ofBool_eq_one, decide_eq_true_eq, max_lt_iff] at h
  induction x using EReal.rec with
  | bot => simp at h
  | coe r => exact ⟨r, rfl⟩
  | top => simp at h

/-- One array's clause of the precondition: "all of |x| < +∞" is 1, so every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) : ∀ i, IsReal (x i) := by
  intro i
  have hi := Host.reduce_andi_all _ _ hr hu _ e i
  exact isReal_of_abs_lt_inf (x i) hi

/-- The precondition says every float input is an array of real numbers. -/
theorem real_of_pre [Facts] (x0 : FVec Ideal S50000x256 .f32) (x1 : IVec S2x262144 32) (x2 : FVec Ideal S256 .f32)
    (x3 : FVec Ideal S3x256x256 .f32) (x4 x5 : FVec Ideal S3x256 .f32) (x6 : FVec Ideal S1x256 .f32)
    (h : Cert.Pre_finite_inputs.fn (F := Ideal) x0 x1 x2 x3 x4 x5 x6 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) := by
  have e := congrFun h ValueIdx.ix0
  dsimp only [fn, fn_part1] at e
  simp only [andi, IntOp.andi_eq_one] at e
  obtain ⟨⟨⟨⟨⟨e0, e2⟩, e3⟩, e4⟩, e5⟩, e6⟩ := e
  exact ⟨all_real x0 _ _ _ e0, all_real x2 _ _ _ e2, all_real x3 _ _ _ e3, all_real x4 _ _ _ e4, all_real x5 _ _ _ e5,
    all_real x6 _ _ _ e6⟩

end Cert.Finite

end
-- ==== Proof.EdgeReal.lean ====
/-
  The gathered edge-feature array is an array of real numbers.

  A row gather reads, at every index of its result, the operand at SOME index (the start index read off the index
  array, clamped so that the slice fits, plus the offset coordinate); so if every entry of the operand is a real number,
  so is every entry of the gather.  The edge features are the entrywise sum of two such gathers of the node-feature
  array, and a sum of two reals is a real.
-/
import Idealize.ShloMosaic.Lib.ValueIdx
import proofs.«171780_j3272765079679_2_alg».proof.Proof.RefRead
import proofs.«171780_j3272765079679_2_alg».proof.Proof.LibRealSums

noncomputable section

namespace Cert.EdgeReal

open Idealize.ShloMosaic
open Cert.LibRealSums

/-- Every entry of a gather is an entry of its operand: a gather of an array of reals is an array of reals. -/
theorem gather_real {s si t : Shape} {w : Nat} (d : GatherDims s si t) (x : s.Idx → EReal) (idx : IVec si w)
    (hx : ∀ i, IsReal (x i)) : ∀ j, IsReal (Host.gather d x idx j) :=
  fun j => hx (d.operandIdx j idx)

open Cert.ReferenceIdeal Cert.ReferenceIdeal.Gen Cert.ReferenceIdeal.Read

/-- The edge features — the sum of the two gathered node-feature rows of every edge — are real numbers when the node
    features are. -/
theorem edge_real (x0 : (⟨S50000x256, .f32⟩ : BufTy).Contents (Elt Ideal))
    (x1 : (⟨S2x262144, .i32⟩ : BufTy).Contents (Elt Ideal)) (hx : ∀ i, IsReal (x0 i)) :
    ∀ j, IsReal (Cert.ReferenceIdeal.Read.val_main_v18 (F := Ideal) x0 x1 j) := by
  intro j
  rw [val_main_v18_apply, Ideal.addf_def]
  exact isReal_add _ _ (gather_real _ x0 _ hx j) (gather_real _ x0 _ hx j)

end Cert.EdgeReal

end
-- ==== Proof.NetMath.lean ====
/-
  The edge-scoring network with the column variance taken in one pass equals the network with the variance taken in
  two passes, on arrays of real numbers.

  For a column y of real numbers over exactly 262144 rows, with m the mean, the mean of squares minus m² equals the mean
  of the squared deviations (y - m)², which is a sum of squares times a positive number and so is not negative; cutting it
  off below at zero changes nothing.  Every intermediate array of the network is an array of real numbers: a row's mean
  and mean squared deviation are real, the latter not negative, so with the positive ε added the reciprocal square root
  is real; a finite sum of products of reals is real; the maximum of two reals is real.  Hence layer by layer the two
  variances agree and so do the two networks.
-/
import Mathlib.Algebra.BigOperators.Fin
import Mathlib.Tactic
import Idealize.ShloMosaic.PureOps.Ideal
import proofs.«171780_j3272765079679_2_alg».proof.Proof.Spec
import proofs.«171780_j3272765079679_2_alg».proof.Proof.LibRealSums

noncomputable section

namespace Cert.EdgeNet

open Idealize.ShloMosaic
open Cert.LibRealSums

/-! ### The two counts as real numbers -/

/-- The f32 pattern `0x48800000` is the real 262144. -/
theorem cE_eq : cE = ((262144 : ℝ) : EReal) := by
  unfold cE
  simp [Ideal.ofBits, Ideal.ieee, -EReal.coe_mul]; norm_num

/-- The f32 pattern `0x43800000` is the real 256. -/
theorem cD_eq : cD = ((256 : ℝ) : EReal) := by
  unfold cD
  simp [Ideal.ofBits, Ideal.ieee, -EReal.coe_mul]; norm_num

/-- A quotient by the number of edges is the product with its reciprocal. -/
theorem div_cE (x : EReal) : Ideal.div x cE = x * ((1 / 262144 : ℝ) : EReal) := by
  rw [cE_eq]; exact Ideal.div_coe (by norm_num) x

/-- A quotient by the number of features is the product with its reciprocal. -/
theorem div_cD (x : EReal) : Ideal.div x cD = x * ((1 / 256 : ℝ) : EReal) := by
  rw [cD_eq]; exact Ideal.div_coe (by norm_num) x

/-! ### Real numbers are closed under the operations of the network -/

theorem isReal_sub {a b : EReal} (ha : IsReal a) (hb : IsReal b) : IsReal (a - b) := by
  obtain ⟨ar, rfl⟩ := ha
  obtain ⟨br, rfl⟩ := hb
  exact ⟨ar - br, (EReal.coe_sub ar br).symm⟩

theorem isReal_mul {a b : EReal} (ha : IsReal a) (hb : IsReal b) : IsReal (a * b) := by
  obtain ⟨ar, rfl⟩ := ha
  obtain ⟨br, rfl⟩ := hb
  exact ⟨ar * br, (EReal.coe_mul ar br).symm⟩

theorem isReal_max_zero {a : EReal} (ha : IsReal a) : IsReal (max a 0) := by
  obtain ⟨ar, rfl⟩ := ha
  rcases le_total ar 0 with h | h
  · rw [max_eq_right (by exact_mod_cast h)]; exact ⟨0, rfl⟩
  · rw [max_eq_left (by exact_mod_cast h)]; exact ⟨ar, rfl⟩

/-- A finite sum of reals is a real. -/
theorem isReal_sum {m : ℕ} (x : Fin m → EReal) (hx : ∀ k, IsReal (x k)) : IsReal (∑ k, x k) := by
  choose xr hxr using hx
  exact ⟨∑ k, xr k, by simp only [hxr, ← coe_sum]⟩

/-- A sum of squared deviations of reals from a real is a real that is not negative. -/
theorem nonneg_sum_sq {m : ℕ} (x : Fin m → EReal) (c : EReal) (hx : ∀ k, IsReal (x k)) (hc : IsReal c) :
    ∃ r : ℝ, 0 ≤ r ∧ (∑ k, (x k - c) * (x k - c)) = (r : EReal) := by
  choose xr hxr using hx
  obtain ⟨cr, rfl⟩ := hc
  refine ⟨∑ k, (xr k - cr) * (xr k - cr), Finset.sum_nonneg fun k _ => mul_self_nonneg _, ?_⟩
  simp only [hxr, ← EReal.coe_sub, ← EReal.coe_mul, ← coe_sum]

theorem isReal_div_cD {x : EReal} (hx : IsReal x) : IsReal (Ideal.div x cD) := by
  rw [div_cD]; exact isReal_mul hx ⟨_, rfl⟩

theorem isReal_div_cE {x : EReal} (hx : IsReal x) : IsReal (Ideal.div x cE) := by
  rw [div_cE]; exact isReal_mul hx ⟨_, rfl⟩

theorem nonneg_div_cD {x : EReal} (hx : ∃ r : ℝ, 0 ≤ r ∧ x = (r : EReal)) :
    ∃ r : ℝ, 0 ≤ r ∧ Ideal.div x cD = (r : EReal) := by
  obtain ⟨r, hr, rfl⟩ := hx
  rw [div_cD, ← EReal.coe_mul]
  exact ⟨r * (1 / 256), mul_nonneg hr (by norm_num), rfl⟩

theorem nonneg_div_cE {x : EReal} (hx : ∃ r : ℝ, 0 ≤ r ∧ x = (r : EReal)) :
    ∃ r : ℝ, 0 ≤ r ∧ Ideal.div x cE = (r : EReal) := by
  obtain ⟨r, hr, rfl⟩ := hx
  rw [div_cE, ← EReal.coe_mul]
  exact ⟨r * (1 / 262144), mul_nonneg hr (by norm_num), rfl⟩

/-- For a real `s ≥ 0`, the reciprocal square root of `s + ε` is a real. -/
theorem isReal_rsqrt {s : EReal} (hs : ∃ r : ℝ, 0 ≤ r ∧ s = (r : EReal)) : IsReal (Ideal.rsqrt (s + eps)) := by
  obtain ⟨sr, hs0, rfl⟩ := hs
  obtain ⟨e, he, hE⟩ := eps_pos
  unfold eps
  rw [hE, ← EReal.coe_add, Ideal.rsqrt_coe, if_neg (by linarith), if_neg (by linarith)]
  exact ⟨_, rfl⟩

/-! ### The one-pass variance of a real column equals its two-pass variance -/

/-- Over the reals and exactly 262144 terms: the mean of the squared deviations from the mean is the mean of the squares
    minus the square of the mean. -/
theorem real_var (f : Fin 262144 → ℝ) :
    (∑ e, (f e - (∑ i, f i) * (1 / 262144)) * (f e - (∑ i, f i) * (1 / 262144))) * (1 / 262144)
      = (∑ e, f e * f e) * (1 / 262144) - (∑ i, f i) * (1 / 262144) * ((∑ i, f i) * (1 / 262144)) := by
  have e1 : ∀ e, (f e - (∑ i, f i) * (1 / 262144)) * (f e - (∑ i, f i) * (1 / 262144))
      = f e * f e - 2 * ((∑ i, f i) * (1 / 262144)) * f e
        + (∑ i, f i) * (1 / 262144) * ((∑ i, f i) * (1 / 262144)) := fun e => by ring
  simp only [e1, Finset.sum_add_distrib, Finset.sum_sub_distrib, ← Finset.mul_sum, Finset.sum_const,
    Finset.card_univ, Fintype.card_fin, nsmul_eq_mul]
  push_cast
  ring

/-- The maximum of a real and zero, taken in the extended reals, is the real maximum. -/
theorem coe_max_zero (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The mean of a real column, as a real. -/
theorem colMean_real {d : ℕ} (y : Fin 262144 → Fin d → EReal) (q : Fin d) (yr : Fin 262144 → ℝ)
    (hyr : ∀ e, y e q = (yr e : EReal)) :
    colMean y q = (((∑ i, yr i) * (1 / 262144) : ℝ) : EReal) := by
  unfold colMean colSum
  rw [div_cE]
  simp only [hyr, ← coe_sum, ← EReal.coe_mul]

/-- The two-pass variance of a real column, as a real. -/
theorem varTwoPass_real {d : ℕ} (y : Fin 262144 → Fin d → EReal) (q : Fin d) (yr : Fin 262144 → ℝ)
    (hyr : ∀ e, y e q = (yr e : EReal)) :
    varTwoPass y q
      = (((∑ e, (yr e - (∑ i, yr i) * (1 / 262144)) * (yr e - (∑ i, yr i) * (1 / 262144))) * (1 / 262144) : ℝ) : EReal) := by
  unfold varTwoPass
  rw [colMean_real y q yr hyr, div_cE]
  simp only [hyr, ← EReal.coe_sub, ← EReal.coe_mul, ← coe_sum]

/-- The one-pass variance of a real column, as a real. -/
theorem varOnePass_real {d : ℕ} (y : Fin 262144 → Fin d → EReal) (q : Fin d) (yr : Fin 262144 → ℝ)
    (hyr : ∀ e, y e q = (yr e : EReal)) :
    varOnePass y q
      = ((max ((∑ e, yr e * yr e) * (1 / 262144) - (∑ i, yr i) * (1 / 262144) * ((∑ i, yr i) * (1 / 262144))) 0 : ℝ) : EReal) := by
  unfold varOnePass colSumSq
  rw [colMean_real y q yr hyr, div_cE]
  simp only [hyr, ← EReal.coe_mul, ← coe_sum, ← EReal.coe_sub]
  exact coe_max_zero _

/-- For a column of real numbers over 262144 rows the two variances are the same number. -/
theorem var_eq {d : ℕ} (y : Fin 262144 → Fin d → EReal) (q : Fin d) (hy : ∀ e, IsReal (y e q)) :
    varOnePass y q = varTwoPass y q := by
  choose yr hyr using hy
  rw [varOnePass_real y q yr hyr, varTwoPass_real y q yr hyr, ← real_var yr]
  congr 1
  exact max_eq_left (mul_nonneg (Finset.sum_nonneg fun e _ => mul_self_nonneg _) (by norm_num))

/-! ### Every array of the network is an array of real numbers -/

theorem isReal_colMean {n d : ℕ} (y : Fin n → Fin d → EReal) (q : Fin d) (hy : ∀ e, IsReal (y e q)) :
    IsReal (colMean y q) :=
  isReal_div_cE (isReal_sum (fun e => y e q) hy)

theorem nonneg_varTwoPass {n d : ℕ} (y : Fin n → Fin d → EReal) (q : Fin d) (hy : ∀ e, IsReal (y e q)) :
    ∃ r : ℝ, 0 ≤ r ∧ varTwoPass y q = (r : EReal) :=
  nonneg_div_cE (nonneg_sum_sq (fun e => y e q) (colMean y q) hy (isReal_colMean y q hy))

theorem isReal_layerNorm {n d : ℕ} (h : Fin n → Fin d → EReal) (w : Fin d → EReal) (hh : ∀ e k, IsReal (h e k))
    (hw : ∀ k, IsReal (w k)) : ∀ e k, IsReal (layerNorm h w e k) := by
  intro e k
  have hm : IsReal (rowMean h e) := isReal_div_cD (isReal_sum (fun k => h e k) (hh e))
  have hv : ∃ r : ℝ, 0 ≤ r ∧ rowVar h e = (r : EReal) :=
    nonneg_div_cD (nonneg_sum_sq (fun k => h e k) (rowMean h e) (hh e) hm)
  unfold layerNorm
  exact isReal_mul (isReal_mul (isReal_sub (hh e k) hm) (isReal_rsqrt hv)) (hw k)

theorem isReal_linear {n d : ℕ} (a : Fin n → Fin d → EReal) (W : Fin d → Fin d → EReal) (ha : ∀ e k, IsReal (a e k))
    (hW : ∀ q k, IsReal (W q k)) : ∀ e q, IsReal (linear a W e q) := by
  intro e q
  unfold linear
  exact isReal_sum_mul (fun k => a e k) (fun k => W q k) (ha e) (hW q)

theorem isReal_normRelu {n d : ℕ} (y : Fin n → Fin d → EReal) (γ β : Fin d → EReal) (hy : ∀ e q, IsReal (y e q))
    (hγ : ∀ q, IsReal (γ q)) (hβ : ∀ q, IsReal (β q)) : ∀ e q, IsReal (normRelu varTwoPass y γ β e q) := by
  intro e q
  have hm : IsReal (colMean y q) := isReal_colMean y q (fun e => hy e q)
  have hv := nonneg_varTwoPass y q (fun e => hy e q)
  unfold normRelu normReluBy
  exact isReal_max_zero (isReal_add _ _ (isReal_mul (isReal_mul (isReal_sub (hy e q) hm) (isReal_rsqrt hv)) (hγ q)) (hβ q))

/-- On an array of real numbers, normalising by the one-pass variance is normalising by the two-pass variance. -/
theorem normRelu_eq {d : ℕ} (y : Fin 262144 → Fin d → EReal) (γ β : Fin d → EReal) (hy : ∀ e q, IsReal (y e q)) :
    normRelu varOnePass y γ β = normRelu varTwoPass y γ β := by
  funext e q
  simp only [normRelu, normReluBy, var_eq y q (fun e => hy e q)]

/-! ### The two networks agree -/

/-- On real inputs, weights, scales and shifts, the network with the one-pass variance is the network with the
    two-pass variance. -/
theorem net_onePass_eq_twoPass {d : ℕ} (h : Fin 262144 → Fin d → EReal) (lnw : Fin d → EReal)
    (W : Fin 3 → Fin d → Fin d → EReal) (γ β : Fin 3 → Fin d → EReal) (wout : Fin d → EReal)
    (hh : ∀ e k, IsReal (h e k)) (hl : ∀ k, IsReal (lnw k)) (hW : ∀ i q k, IsReal (W i q k))
    (hγ : ∀ i k, IsReal (γ i k)) (hβ : ∀ i k, IsReal (β i k)) :
    net varOnePass h lnw W γ β wout = net varTwoPass h lnw W γ β wout := by
  have h0 : ∀ e q, IsReal (linear (layerNorm h lnw) (W 0) e q) :=
    isReal_linear _ _ (isReal_layerNorm h lnw hh hl) (hW 0)
  have e0 := normRelu_eq (linear (layerNorm h lnw) (W 0)) (γ 0) (β 0) h0
  have h1 : ∀ e q, IsReal (linear (normRelu varTwoPass (linear (layerNorm h lnw) (W 0)) (γ 0) (β 0)) (W 1) e q) :=
    isReal_linear _ _ (isReal_normRelu _ _ _ h0 (hγ 0) (hβ 0)) (hW 1)
  have e1 := normRelu_eq _ (γ 1) (β 1) h1
  have h2 : ∀ e q, IsReal (linear (normRelu varTwoPass
      (linear (normRelu varTwoPass (linear (layerNorm h lnw) (W 0)) (γ 0) (β 0)) (W 1)) (γ 1) (β 1)) (W 2) e q) :=
    isReal_linear _ _ (isReal_normRelu _ _ _ h1 (hγ 1) (hβ 1)) (hW 2)
  have e2 := normRelu_eq _ (γ 2) (β 2) h2
  unfold net
  dsimp only
  rw [e0, e1, e2]

end Cert.EdgeNet

end
-- ==== Proof.Assemble.lean ====
/-
  The certificate's claims from their parts.

  Both programs compute the score of every edge of a graph from the sum of the edge's two node-feature rows: a layer norm,
  three times a linear map followed by a normalisation of every column over all 262144 edges, a scale, a shift and a
  rectifier, and a last product with one weight row.  The reference takes each column's variance in two passes (the mean of
  the squared deviations from the mean); the kernel takes it in one (the mean of the squares minus the squared mean, cut off
  below at zero).  On columns of real numbers the two agree, because the divisor 262144 is exactly the number of rows, and
  the variance of real numbers is not negative, so the cut-off changes nothing.  The precondition makes every float input
  an array of real numbers; sums, products, quotients by the two counts, reciprocal square roots of a non-negative real
  plus a positive constant, and maxima of reals are real, so every intermediate array is real and the two networks are the
  same function of the inputs.
-/
import proofs.«171780_j3272765079679_2_alg».proof.Defs
import proofs.«171780_j3272765079679_2_alg».proof.Proof.Gen.Kernel.Frame
import proofs.«171780_j3272765079679_2_alg».proof.Proof.Gen.KernelIdeal.Frame
import proofs.«171780_j3272765079679_2_alg».proof.Proof.Gen.ReferenceIdeal
import proofs.«171780_j3272765079679_2_alg».proof.Proof.Gen.Pre_finite_inputs
import proofs.«171780_j3272765079679_2_alg».proof.Proof.KRun
import proofs.«171780_j3272765079679_2_alg».proof.Proof.RefIsNet
import proofs.«171780_j3272765079679_2_alg».proof.Proof.Finite
import proofs.«171780_j3272765079679_2_alg».proof.Proof.EdgeReal
import proofs.«171780_j3272765079679_2_alg».proof.Proof.NetMath
import proofs.«171780_j3272765079679_2_alg».proof.Proof.Layout

noncomputable section

namespace Cert.Proof.Parts

open Idealize.ShloMosaic Idealize.SL.Sem
open Cert.EdgeNet Cert.LibRealSums

/-! ## The two variances give one network on real arrays -/

/-- On arrays of real numbers the score vector with the one-pass column variance is the score vector with the two-pass
    column variance. -/
theorem scores_eq (H : (⟨2, ![262144, 256]⟩ : Shape).Idx → EReal) (lnw : (⟨1, ![256]⟩ : Shape).Idx → EReal)
    (Ws : (⟨3, ![3, 256, 256]⟩ : Shape).Idx → EReal) (γs βs : (⟨2, ![3, 256]⟩ : Shape).Idx → EReal)
    (wout : (⟨2, ![1, 256]⟩ : Shape).Idx → EReal)
    (hH : ∀ i, IsReal (H i)) (hl : ∀ i, IsReal (lnw i)) (hW : ∀ i, IsReal (Ws i)) (hg : ∀ i, IsReal (γs i))
    (hb : ∀ i, IsReal (βs i)) :
    scores varOnePass H lnw Ws γs βs wout = scores varTwoPass H lnw Ws γs βs wout := by
  funext i
  exact congrFun (net_onePass_eq_twoPass (rows H) (vec lnw) (mats Ws) (rows γs) (rows βs) (row0 wout)
    (fun _ _ => hH _) (fun _ => hl _) (fun _ _ _ => hW _) (fun _ _ => hg _) (fun _ _ => hb _)) (i 0)

/-! ## The frames -/

/-- The kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference program runs and leaves its arguments unchanged: its run with the result dropped. -/
theorem frame_referenceIdeal_of
    (hR : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        (fun r => ∀ c : Dev Cert.ReferenceIdeal.nD,
          r.2.mem ((c.tc : Thread Cert.ReferenceIdeal.nD Cert.ReferenceIdeal.τ).loc Cert.ReferenceIdeal.main_v144) = Cert.ReferenceIdeal.Read.val_main_v144 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))) :
    Cert.frame_ReferenceIdeal := fun m ρ _ =>
  (θ_run (Cert.ReferenceIdeal.defs (F := Ideal)) _ _).mono (fun _ h c => (h c).2) (hR m ρ)

/-! ## The two programs end with equal results -/

/-- From memories that agree on the arguments, of which the kernel's are finite, both programs run, leave their arguments
    unchanged, and end with the same score vector: the network with the two-pass variance of the edge features and the
    parameter arrays.  The kernel's result is the network with the one-pass variance of its own edge-feature term
    (`hK`), that term is the reference's (`hE`), and the reference's result is the network with the two-pass
    variance (`hR` and the reading of the reference's operations). -/
theorem algebraic_of
    (E : (⟨Cert.ReferenceIdeal.S50000x256, .f32⟩ : BufTy).Contents (Elt Ideal) → (⟨Cert.ReferenceIdeal.S2x262144, .i32⟩ : BufTy).Contents (Elt Ideal) →
      (⟨Cert.ReferenceIdeal.S262144x256, .f32⟩ : BufTy).Contents (Elt Ideal))
    (hE : ∀ x0 x1, E x0 x1 = Cert.ReferenceIdeal.Read.val_main_v18 (F := Ideal) x0 x1)
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W8 (F := Ideal) m ρ c (Proc.devRef .tc Cert.KernelIdeal.main_v69)
        = scores varOnePass (E (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)))
    (hR : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        (fun r => ∀ c : Dev Cert.ReferenceIdeal.nD,
          r.2.mem ((c.tc : Thread Cert.ReferenceIdeal.nD Cert.ReferenceIdeal.τ).loc Cert.ReferenceIdeal.main_v144) = Cert.ReferenceIdeal.Read.val_main_v144 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))) :
    Cert.algebraic_KernelIdeal_ReferenceIdeal := by
  intro m ρ m' ρ' hpre hagree
  refine ⟨fun c => scores varTwoPass (Cert.ReferenceIdeal.Read.val_main_v18 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)), ?_, ?_⟩
  · refine (θ_run (Cert.KernelIdeal.defs (F := Ideal)) _ _).mono (fun r h c => ⟨(h c).1.trans ?_, (h c).2⟩)
      (Cert.KernelIdeal.Val.run_result (F := Ideal) m ρ)
    obtain ⟨a0, a1, a2, a3, a4, a5, a6⟩ := hagree c
    obtain ⟨r0, r2, r3, r4, r5, r6⟩ := Cert.Finite.real_of_pre _ _ _ _ _ _ _ (hpre c)
    refine (hK m ρ c).trans ?_
    beta_reduce
    rw [hE, a0, a1, a2, a3, a4, a5, a6]
    exact scores_eq _ _ _ _ _ _ (Cert.EdgeReal.edge_real _ _ r0) r2 r3 r4 r5
  · refine (θ_run (Cert.ReferenceIdeal.defs (F := Ideal)) _ _).mono (fun r h c => ⟨(h c).1.trans ?_, (h c).2⟩) (hR m' ρ')
    exact Cert.ReferenceIdeal.RefNet.ref_is_net _ _ _ _ _ _ _

end Cert.Proof.Parts

end
-- ==== Proof.LibAppend.lean ====
/-
  A list in parts: three laws about `l₁ ++ l₂`.

  A property that holds of every member of two lists holds of every member of their concatenation (stated once for
  `List.Forall`, once for `∀ x ∈ l`); and the buffer contents after a straight-line list of operations `l₁ ++ l₂` are the
  contents after `l₂` FROM the contents after `l₁`. With them a long operation list given as a concatenation of short ones is
  handled one short list at a time.
-/
import Idealize.ShloMosaic.Lib.StableHlo.Run

namespace Cert.ListParts

open Idealize.ShloMosaic Idealize.ShloMosaic.StableHlo

/-- `List.Forall` of a concatenation, from its two parts. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- A property of every member of a concatenation, from its two parts. -/
theorem mem_append_all {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- The contents after two lists of operations in a row are the second list's, from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

end Cert.ListParts
-- ==== Proof.RefRun.lean ====
/-
  The reference program's run, stage by stage.

  The program is a straight line of 175 host operations.  It is cut into six consecutive stretches: the gathered edge
  features (x[src] + x[dst]); the layer norm; the three linear / batch-norm / rectifier layers; the last product and its
  reshape.  Each stretch is run from an arbitrary valuation of the buffers: its last buffer ends at the stretch's operations
  applied to the buffers it reads, and the buffers later stretches read are left alone.  Composed, the result buffer ends at
  the last stage of the operation-by-operation reading (`Read.val_main_v144`) of the argument arrays.
-/
import proofs.«171780_j3272765079679_2_alg».proof.Proof.RefOps
import proofs.«171780_j3272765079679_2_alg».proof.Proof.RefRead
import proofs.«171780_j3272765079679_2_alg».proof.Proof.LibAppend
import Idealize.ShloMosaic.Lib.StableHlo.Run

noncomputable section

namespace Cert.ReferenceIdeal.RefRun

open Cert.ReferenceIdeal Cert.ReferenceIdeal.Gen Cert.ReferenceIdeal.RunP Cert.ReferenceIdeal.Read
open Idealize.ShloMosaic Idealize.ShloMosaic.TcCoe Idealize.SL.Sem Idealize.ShloMosaic.StableHlo

variable {F : FTy → Type} [FloatOps F]

/-- Operations 1 … 23 of @main. -/
abbrev opsA : List (HloOp τ sig (Elt F)) :=
  [ unary main_arg1 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg1 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    nullary main_c (constantI S_ 32 0#32),
    unary main_c main_v4 (broadcastInDim S262144 ![] bcast_S_S262144 : (⟨S_, .i32⟩ : BufTy).Contents (Elt F) → (⟨S262144, .i32⟩ : BufTy).Contents (Elt F)),
    binary main_v1 main_v4 main_v5 (cmpi .slt : (⟨S262144, .i32⟩ : BufTy).Contents (Elt F) → (⟨S262144, .i32⟩ : BufTy).Contents (Elt F) → (⟨S262144, .i1⟩ : BufTy).Contents (Elt F)),
    nullary main_c_0 (constantI S_ 32 50000#32),
    unary main_c_0 main_v6 (broadcastInDim S262144 ![] bcast_S_S262144 : (⟨S_, .i32⟩ : BufTy).Contents (Elt F) → (⟨S262144, .i32⟩ : BufTy).Contents (Elt F)),
    binary main_v1 main_v6 main_v7 (addi : (⟨S262144, .i32⟩ : BufTy).Contents (Elt F) → (⟨S262144, .i32⟩ : BufTy).Contents (Elt F) → (⟨S262144, .i32⟩ : BufTy).Contents (Elt F)),
    ternary main_v5 main_v7 main_v1 main_v8 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v8 main_v9 (broadcastInDim S262144x1 ![0] bcast_S262144_S262144x1_0 : (⟨S262144, .i32⟩ : BufTy).Contents (Elt F) → (⟨S262144x1, .i32⟩ : BufTy).Contents (Elt F)),
    binary main_arg0 main_v9 main_v10 ((fun x i => Host.gather gather_S50000x256_S262144x1_S262144x256_1_0_n_n_0_1_1256 x i) : (⟨S50000x256, .f32⟩ : BufTy).Contents (Elt F) → (⟨S262144x1, .i32⟩ : BufTy).Contents (Elt F) → (⟨S262144x256, .f32⟩ : BufTy).Contents (Elt F)),
    nullary main_c_1 (constantI S_ 32 0#32),
    unary main_c_1 main_v11 (broadcastInDim S262144 ![] bcast_S_S262144 : (⟨S_, .i32⟩ : BufTy).Contents (Elt F) → (⟨S262144, .i32⟩ : BufTy).Contents (Elt F)),
    binary main_v3 main_v11 main_v12 (cmpi .slt : (⟨S262144, .i32⟩ : BufTy).Contents (Elt F) → (⟨S262144, .i32⟩ : BufTy).Contents (Elt F) → (⟨S262144, .i1⟩ : BufTy).Contents (Elt F)),
    nullary main_c_2 (constantI S_ 32 50000#32),
    unary main_c_2 main_v13 (broadcastInDim S262144 ![] bcast_S_S262144 : (⟨S_, .i32⟩ : BufTy).Contents (Elt F) → (⟨S262144, .i32⟩ : BufTy).Contents (Elt F)),
    binary main_v3 main_v13 main_v14 (addi : (⟨S262144, .i32⟩ : BufTy).Contents (Elt F) → (⟨S262144, .i32⟩ : BufTy).Contents (Elt F) → (⟨S262144, .i32⟩ : BufTy).Contents (Elt F)),
    ternary main_v12 main_v14 main_v3 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v15 main_v16 (broadcastInDim S262144x1 ![0] bcast_S262144_S262144x1_0 : (⟨S262144, .i32⟩ : BufTy).Contents (Elt F) → (⟨S262144x1, .i32⟩ : BufTy).Contents (Elt F)),
    binary main_arg0 main_v16 main_v17 ((fun x i => Host.gather gather_S50000x256_S262144x1_S262144x256_1_0_n_n_0_1_1256 x i) : (⟨S50000x256, .f32⟩ : BufTy).Contents (Elt F) → (⟨S262144x1, .i32⟩ : BufTy).Contents (Elt F) → (⟨S262144x256, .f32⟩ : BufTy).Contents (Elt F)),
    binary main_v10 main_v17 main_v18 (addf : (⟨S262144x256, .f32⟩ : BufTy).Contents (Elt F) → (⟨S262144x256, .f32⟩ : BufTy).Contents (Elt F) → (⟨S262144x256, .f32⟩ : BufTy).Contents (Elt F)) ]

/-- Operations 24 … 49 of @main. -/
abbrev opsB : List (HloOp τ sig (Elt F)) :=
  [ nullary main_cst (constant S_ .f32 0x00000000#32),
    binary main_v18 main_cst main_v19 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    unary main_v19 main_v20 (broadcastInDim S262144x1 ![0] bcast_S262144_S262144x1_0 : (⟨S262144, .f32⟩ : BufTy).Contents (Elt F) → (⟨S262144x1, .f32⟩ : BufTy).Contents (Elt F)),
    nullary main_cst_3 (constant S_ .f32 0x43800000#32),
    unary main_cst_3 main_v21 (broadcastInDim S262144x1 ![] bcast_S_S262144x1 : (⟨S_, .f32⟩ : BufTy).Contents (Elt F) → (⟨S262144x1, .f32⟩ : BufTy).Contents (Elt F)),
    binary main_v20 main_v21 main_v22 (Host.divf : (⟨S262144x1, .f32⟩ : BufTy).Contents (Elt F) → (⟨S262144x1, .f32⟩ : BufTy).Contents (Elt F) → (⟨S262144x1, .f32⟩ : BufTy).Contents (Elt F)),
    unary main_v22 main_v23 (broadcastInDim S262144x256 ![0, 1] bcast_S262144x1_S262144x256_0_1 : (⟨S262144x1, .f32⟩ : BufTy).Contents (Elt F) → (⟨S262144x256, .f32⟩ : BufTy).Contents (Elt F)),
    binary main_v18 main_v23 main_v24 (subf : (⟨S262144x256, .f32⟩ : BufTy).Contents (Elt F) → (⟨S262144x256, .f32⟩ : BufTy).Contents (Elt F) → (⟨S262144x256, .f32⟩ : BufTy).Contents (Elt F)),
    binary main_v24 main_v24 main_v25 (mulf : (⟨S262144x256, .f32⟩ : BufTy).Contents (Elt F) → (⟨S262144x256, .f32⟩ : BufTy).Contents (Elt F) → (⟨S262144x256, .f32⟩ : BufTy).Contents (Elt F)),
    nullary main_cst_4 (constant S_ .f32 0x00000000#32),
    binary main_v25 main_cst_4 main_v26 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    unary main_v26 main_v27 (broadcastInDim S262144x1 ![0] bcast_S262144_S262144x1_0 : (⟨S262144, .f32⟩ : BufTy).Contents (Elt F) → (⟨S262144x1, .f32⟩ : BufTy).Contents (Elt F)),
    nullary main_cst_5 (constant S_ .f32 0x43800000#32),
    unary main_cst_5 main_v28 (broadcastInDim S262144x1 ![] bcast_S_S262144x1 : (⟨S_, .f32⟩ : BufTy).Contents (Elt F) → (⟨S262144x1, .f32⟩ : BufTy).Contents (Elt F)),
    binary main_v27 main_v28 main_v29 (Host.divf : (⟨S262144x1, .f32⟩ : BufTy).Contents (Elt F) → (⟨S262144x1, .f32⟩ : BufTy).Contents (Elt F) → (⟨S262144x1, .f32⟩ : BufTy).Contents (Elt F)),
    unary main_v22 main_v30 (broadcastInDim S262144x256 ![0, 1] bcast_S262144x1_S262144x256_0_1 : (⟨S262144x1, .f32⟩ : BufTy).Contents (Elt F) → (⟨S262144x256, .f32⟩ : BufTy).Contents (Elt F)),
    binary main_v18 main_v30 main_v31 (subf : (⟨S262144x256, .f32⟩ : BufTy).Contents (Elt F) → (⟨S262144x256, .f32⟩ : BufTy).Contents (Elt F) → (⟨S262144x256, .f32⟩ : BufTy).Contents (Elt F)),
    nullary main_cst_6 (constant S_ .f32 0x3727C5AC#32),
    unary main_cst_6 main_v32 (broadcastInDim S262144x1 ![] bcast_S_S262144x1 : (⟨S_, .f32⟩ : BufTy).Contents (Elt F) → (⟨S262144x1, .f32⟩ : BufTy).Contents (Elt F)),
    binary main_v29 main_v32 main_v33 (addf : (⟨S262144x1, .f32⟩ : BufTy).Contents (Elt F) → (⟨S262144x1, .f32⟩ : BufTy).Contents (Elt F) → (⟨S262144x1, .f32⟩ : BufTy).Contents (Elt F)),
    unary main_v33 main_v34 (Host.rsqrt : (⟨S262144x1, .f32⟩ : BufTy).Contents (Elt F) → (⟨S262144x1, .f32⟩ : BufTy).Contents (Elt F)),
    unary main_v34 main_v35 (broadcastInDim S262144x256 ![0, 1] bcast_S262144x1_S262144x256_0_1 : (⟨S262144x1, .f32⟩ : BufTy).Contents (Elt F) → (⟨S262144x256, .f32⟩ : BufTy).Contents (Elt F)),
    binary main_v31 main_v35 main_v36 (mulf : (⟨S262144x256, .f32⟩ : BufTy).Contents (Elt F) → (⟨S262144x256, .f32⟩ : BufTy).Contents (Elt F) → (⟨S262144x256, .f32⟩ : BufTy).Contents (Elt F)),
    unary main_arg2 main_v37 (broadcastInDim S1x256 ![1] bcast_S256_S1x256_1 : (⟨S256, .f32⟩ : BufTy).Contents (Elt F) → (⟨S1x256, .f32⟩ : BufTy).Contents (Elt F)),
    unary main_v37 main_v38 (broadcastInDim S262144x256 ![0, 1] bcast_S1x256_S262144x256_0_1 : (⟨S1x256, .f32⟩ : BufTy).Contents (Elt F) → (⟨S262144x256, .f32⟩ : BufTy).Contents (Elt F)),
    binary main_v36 main_v38 main_v39 (mulf : (⟨S262144x256, .f32⟩ : BufTy).Contents (Elt F) → (⟨S262144x256, .f32⟩ : BufTy).Contents (Elt F) → (⟨S262144x256, .f32⟩ : BufTy).Contents (Elt F)) ]

/-- Operations 50 … 90 of @main. -/
abbrev opsC : List (HloOp τ sig (Elt F)) :=
  [ unary main_arg3 main_v40 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v40 main_v41 rfl shapeCasts_S1x256x256_S256x256,
    unary main_v41 main_v42 ((transpose S256x256 [1, 0] · transposes_S256x256_S256x256_1_0) : (⟨S256x256, .f32⟩ : BufTy).Contents (Elt F) → (⟨S256x256, .f32⟩ : BufTy).Contents (Elt F)),
    binary main_v39 main_v42 main_v43 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    nullary main_cst_7 (constant S_ .f32 0x00000000#32),
    binary main_v43 main_cst_7 main_v44 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_8 (constant S_ .f32 0x48800000#32),
    unary main_cst_8 main_v45 (broadcastInDim S256 ![] bcast_S_S256 : (⟨S_, .f32⟩ : BufTy).Contents (Elt F) → (⟨S256, .f32⟩ : BufTy).Contents (Elt F)),
    binary main_v44 main_v45 main_v46 (Host.divf : (⟨S256, .f32⟩ : BufTy).Contents (Elt F) → (⟨S256, .f32⟩ : BufTy).Contents (Elt F) → (⟨S256, .f32⟩ : BufTy).Contents (Elt F)),
    unary main_v46 main_v47 (broadcastInDim S1x256 ![1] bcast_S256_S1x256_1 : (⟨S256, .f32⟩ : BufTy).Contents (Elt F) → (⟨S1x256, .f32⟩ : BufTy).Contents (Elt F)),
    unary main_v47 main_v48 (broadcastInDim S262144x256 ![0, 1] bcast_S1x256_S262144x256_0_1 : (⟨S1x256, .f32⟩ : BufTy).Contents (Elt F) → (⟨S262144x256, .f32⟩ : BufTy).Contents (Elt F)),
    binary main_v43 main_v48 main_v49 (subf : (⟨S262144x256, .f32⟩ : BufTy).Contents (Elt F) → (⟨S262144x256, .f32⟩ : BufTy).Contents (Elt F) → (⟨S262144x256, .f32⟩ : BufTy).Contents (Elt F)),
    binary main_v49 main_v49 main_v50 (mulf : (⟨S262144x256, .f32⟩ : BufTy).Contents (Elt F) → (⟨S262144x256, .f32⟩ : BufTy).Contents (Elt F) → (⟨S262144x256, .f32⟩ : BufTy).Contents (Elt F)),
    nullary main_cst_9 (constant S_ .f32 0x00000000#32),
    binary main_v50 main_cst_9 main_v51 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_10 (constant S_ .f32 0x48800000#32),
    unary main_cst_10 main_v52 (broadcastInDim S256 ![] bcast_S_S256 : (⟨S_, .f32⟩ : BufTy).Contents (Elt F) → (⟨S256, .f32⟩ : BufTy).Contents (Elt F)),
    binary main_v51 main_v52 main_v53 (Host.divf : (⟨S256, .f32⟩ : BufTy).Contents (Elt F) → (⟨S256, .f32⟩ : BufTy).Contents (Elt F) → (⟨S256, .f32⟩ : BufTy).Contents (Elt F)),
    unary main_v46 main_v54 (broadcastInDim S1x256 ![1] bcast_S256_S1x256_1 : (⟨S256, .f32⟩ : BufTy).Contents (Elt F) → (⟨S1x256, .f32⟩ : BufTy).Contents (Elt F)),
    unary main_v54 main_v55 (broadcastInDim S262144x256 ![0, 1] bcast_S1x256_S262144x256_0_1 : (⟨S1x256, .f32⟩ : BufTy).Contents (Elt F) → (⟨S262144x256, .f32⟩ : BufTy).Contents (Elt F)),
    binary main_v43 main_v55 main_v56 (subf : (⟨S262144x256, .f32⟩ : BufTy).Contents (Elt F) → (⟨S262144x256, .f32⟩ : BufTy).Contents (Elt F) → (⟨S262144x256, .f32⟩ : BufTy).Contents (Elt F)),
    nullary main_cst_11 (constant S_ .f32 0x3727C5AC#32),
    unary main_cst_11 main_v57 (broadcastInDim S256 ![] bcast_S_S256 : (⟨S_, .f32⟩ : BufTy).Contents (Elt F) → (⟨S256, .f32⟩ : BufTy).Contents (Elt F)),
    binary main_v53 main_v57 main_v58 (addf : (⟨S256, .f32⟩ : BufTy).Contents (Elt F) → (⟨S256, .f32⟩ : BufTy).Contents (Elt F) → (⟨S256, .f32⟩ : BufTy).Contents (Elt F)),
    unary main_v58 main_v59 (Host.rsqrt : (⟨S256, .f32⟩ : BufTy).Contents (Elt F) → (⟨S256, .f32⟩ : BufTy).Contents (Elt F)),
    unary main_v59 main_v60 (broadcastInDim S1x256 ![1] bcast_S256_S1x256_1 : (⟨S256, .f32⟩ : BufTy).Contents (Elt F) → (⟨S1x256, .f32⟩ : BufTy).Contents (Elt F)),
    unary main_v60 main_v61 (broadcastInDim S262144x256 ![0, 1] bcast_S1x256_S262144x256_0_1 : (⟨S1x256, .f32⟩ : BufTy).Contents (Elt F) → (⟨S262144x256, .f32⟩ : BufTy).Contents (Elt F)),
    binary main_v56 main_v61 main_v62 (mulf : (⟨S262144x256, .f32⟩ : BufTy).Contents (Elt F) → (⟨S262144x256, .f32⟩ : BufTy).Contents (Elt F) → (⟨S262144x256, .f32⟩ : BufTy).Contents (Elt F)),
    unary main_arg4 main_v63 ((extractStridedSlice S1x256 ![0, 0] · slices_S3x256_S1x256_0_0) : (⟨S3x256, .f32⟩ : BufTy).Contents (Elt F) → (⟨S1x256, .f32⟩ : BufTy).Contents (Elt F)),
    reshape main_v63 main_v64 rfl shapeCasts_S1x256_S256,
    unary main_v64 main_v65 (broadcastInDim S1x256 ![1] bcast_S256_S1x256_1 : (⟨S256, .f32⟩ : BufTy).Contents (Elt F) → (⟨S1x256, .f32⟩ : BufTy).Contents (Elt F)),
    unary main_v65 main_v66 (broadcastInDim S262144x256 ![0, 1] bcast_S1x256_S262144x256_0_1 : (⟨S1x256, .f32⟩ : BufTy).Contents (Elt F) → (⟨S262144x256, .f32⟩ : BufTy).Contents (Elt F)),
    binary main_v62 main_v66 main_v67 (mulf : (⟨S262144x256, .f32⟩ : BufTy).Contents (Elt F) → (⟨S262144x256, .f32⟩ : BufTy).Contents (Elt F) → (⟨S262144x256, .f32⟩ : BufTy).Contents (Elt F)),
    unary main_arg5 main_v68 ((extractStridedSlice S1x256 ![0, 0] · slices_S3x256_S1x256_0_0) : (⟨S3x256, .f32⟩ : BufTy).Contents (Elt F) → (⟨S1x256, .f32⟩ : BufTy).Contents (Elt F)),
    reshape main_v68 main_v69 rfl shapeCasts_S1x256_S256,
    unary main_v69 main_v70 (broadcastInDim S1x256 ![1] bcast_S256_S1x256_1 : (⟨S256, .f32⟩ : BufTy).Contents (Elt F) → (⟨S1x256, .f32⟩ : BufTy).Contents (Elt F)),
    unary main_v70 main_v71 (broadcastInDim S262144x256 ![0, 1] bcast_S1x256_S262144x256_0_1 : (⟨S1x256, .f32⟩ : BufTy).Contents (Elt F) → (⟨S262144x256, .f32⟩ : BufTy).Contents (Elt F)),
    binary main_v67 main_v71 main_v72 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x256, .f32⟩) main_call0_v0) (broadcastInDim S262144x256 ![] bcast_S_S262144x256),
    TRef.binary (TRef.of (T := ⟨S262144x256, .f32⟩) main_v72) (TRef.of (T := ⟨S262144x256, .f32⟩) main_call0_v0) (TRef.of (T := ⟨S262144x256, .f32⟩) main_v73) maximumf ]

/-- Operations 91 … 131 of @main. -/
abbrev opsD : List (HloOp τ sig (Elt F)) :=
  [ unary main_arg3 main_v74 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v74 main_v75 rfl shapeCasts_S1x256x256_S256x256,
    unary main_v75 main_v76 ((transpose S256x256 [1, 0] · transposes_S256x256_S256x256_1_0) : (⟨S256x256, .f32⟩ : BufTy).Contents (Elt F) → (⟨S256x256, .f32⟩ : BufTy).Contents (Elt F)),
    binary main_v73 main_v76 main_v77 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    nullary main_cst_12 (constant S_ .f32 0x00000000#32),
    binary main_v77 main_cst_12 main_v78 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_13 (constant S_ .f32 0x48800000#32),
    unary main_cst_13 main_v79 (broadcastInDim S256 ![] bcast_S_S256 : (⟨S_, .f32⟩ : BufTy).Contents (Elt F) → (⟨S256, .f32⟩ : BufTy).Contents (Elt F)),
    binary main_v78 main_v79 main_v80 (Host.divf : (⟨S256, .f32⟩ : BufTy).Contents (Elt F) → (⟨S256, .f32⟩ : BufTy).Contents (Elt F) → (⟨S256, .f32⟩ : BufTy).Contents (Elt F)),
    unary main_v80 main_v81 (broadcastInDim S1x256 ![1] bcast_S256_S1x256_1 : (⟨S256, .f32⟩ : BufTy).Contents (Elt F) → (⟨S1x256, .f32⟩ : BufTy).Contents (Elt F)),
    unary main_v81 main_v82 (broadcastInDim S262144x256 ![0, 1] bcast_S1x256_S262144x256_0_1 : (⟨S1x256, .f32⟩ : BufTy).Contents (Elt F) → (⟨S262144x256, .f32⟩ : BufTy).Contents (Elt F)),
    binary main_v77 main_v82 main_v83 (subf : (⟨S262144x256, .f32⟩ : BufTy).Contents (Elt F) → (⟨S262144x256, .f32⟩ : BufTy).Contents (Elt F) → (⟨S262144x256, .f32⟩ : BufTy).Contents (Elt F)),
    binary main_v83 main_v83 main_v84 (mulf : (⟨S262144x256, .f32⟩ : BufTy).Contents (Elt F) → (⟨S262144x256, .f32⟩ : BufTy).Contents (Elt F) → (⟨S262144x256, .f32⟩ : BufTy).Contents (Elt F)),
    nullary main_cst_14 (constant S_ .f32 0x00000000#32),
    binary main_v84 main_cst_14 main_v85 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_15 (constant S_ .f32 0x48800000#32),
    unary main_cst_15 main_v86 (broadcastInDim S256 ![] bcast_S_S256 : (⟨S_, .f32⟩ : BufTy).Contents (Elt F) → (⟨S256, .f32⟩ : BufTy).Contents (Elt F)),
    binary main_v85 main_v86 main_v87 (Host.divf : (⟨S256, .f32⟩ : BufTy).Contents (Elt F) → (⟨S256, .f32⟩ : BufTy).Contents (Elt F) → (⟨S256, .f32⟩ : BufTy).Contents (Elt F)),
    unary main_v80 main_v88 (broadcastInDim S1x256 ![1] bcast_S256_S1x256_1 : (⟨S256, .f32⟩ : BufTy).Contents (Elt F) → (⟨S1x256, .f32⟩ : BufTy).Contents (Elt F)),
    unary main_v88 main_v89 (broadcastInDim S262144x256 ![0, 1] bcast_S1x256_S262144x256_0_1 : (⟨S1x256, .f32⟩ : BufTy).Contents (Elt F) → (⟨S262144x256, .f32⟩ : BufTy).Contents (Elt F)),
    binary main_v77 main_v89 main_v90 (subf : (⟨S262144x256, .f32⟩ : BufTy).Contents (Elt F) → (⟨S262144x256, .f32⟩ : BufTy).Contents (Elt F) → (⟨S262144x256, .f32⟩ : BufTy).Contents (Elt F)),
    nullary main_cst_16 (constant S_ .f32 0x3727C5AC#32),
    unary main_cst_16 main_v91 (broadcastInDim S256 ![] bcast_S_S256 : (⟨S_, .f32⟩ : BufTy).Contents (Elt F) → (⟨S256, .f32⟩ : BufTy).Contents (Elt F)),
    binary main_v87 main_v91 main_v92 (addf : (⟨S256, .f32⟩ : BufTy).Contents (Elt F) → (⟨S256, .f32⟩ : BufTy).Contents (Elt F) → (⟨S256, .f32⟩ : BufTy).Contents (Elt F)),
    unary main_v92 main_v93 (Host.rsqrt : (⟨S256, .f32⟩ : BufTy).Contents (Elt F) → (⟨S256, .f32⟩ : BufTy).Contents (Elt F)),
    unary main_v93 main_v94 (broadcastInDim S1x256 ![1] bcast_S256_S1x256_1 : (⟨S256, .f32⟩ : BufTy).Contents (Elt F) → (⟨S1x256, .f32⟩ : BufTy).Contents (Elt F)),
    unary main_v94 main_v95 (broadcastInDim S262144x256 ![0, 1] bcast_S1x256_S262144x256_0_1 : (⟨S1x256, .f32⟩ : BufTy).Contents (Elt F) → (⟨S262144x256, .f32⟩ : BufTy).Contents (Elt F)),
    binary main_v90 main_v95 main_v96 (mulf : (⟨S262144x256, .f32⟩ : BufTy).Contents (Elt F) → (⟨S262144x256, .f32⟩ : BufTy).Contents (Elt F) → (⟨S262144x256, .f32⟩ : BufTy).Contents (Elt F)),
    unary main_arg4 main_v97 ((extractStridedSlice S1x256 ![1, 0] · slices_S3x256_S1x256_1_0) : (⟨S3x256, .f32⟩ : BufTy).Contents (Elt F) → (⟨S1x256, .f32⟩ : BufTy).Contents (Elt F)),
    reshape main_v97 main_v98 rfl shapeCasts_S1x256_S256,
    unary main_v98 main_v99 (broadcastInDim S1x256 ![1] bcast_S256_S1x256_1 : (⟨S256, .f32⟩ : BufTy).Contents (Elt F) → (⟨S1x256, .f32⟩ : BufTy).Contents (Elt F)),
    unary main_v99 main_v100 (broadcastInDim S262144x256 ![0, 1] bcast_S1x256_S262144x256_0_1 : (⟨S1x256, .f32⟩ : BufTy).Contents (Elt F) → (⟨S262144x256, .f32⟩ : BufTy).Contents (Elt F)),
    binary main_v96 main_v100 main_v101 (mulf : (⟨S262144x256, .f32⟩ : BufTy).Contents (Elt F) → (⟨S262144x256, .f32⟩ : BufTy).Contents (Elt F) → (⟨S262144x256, .f32⟩ : BufTy).Contents (Elt F)),
    unary main_arg5 main_v102 ((extractStridedSlice S1x256 ![1, 0] · slices_S3x256_S1x256_1_0) : (⟨S3x256, .f32⟩ : BufTy).Contents (Elt F) → (⟨S1x256, .f32⟩ : BufTy).Contents (Elt F)),
    reshape main_v102 main_v103 rfl shapeCasts_S1x256_S256,
    unary main_v103 main_v104 (broadcastInDim S1x256 ![1] bcast_S256_S1x256_1 : (⟨S256, .f32⟩ : BufTy).Contents (Elt F) → (⟨S1x256, .f32⟩ : BufTy).Contents (Elt F)),
    unary main_v104 main_v105 (broadcastInDim S262144x256 ![0, 1] bcast_S1x256_S262144x256_0_1 : (⟨S1x256, .f32⟩ : BufTy).Contents (Elt F) → (⟨S262144x256, .f32⟩ : BufTy).Contents (Elt F)),
    binary main_v101 main_v105 main_v106 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S262144x256, .f32⟩) main_call1_v0) (broadcastInDim S262144x256 ![] bcast_S_S262144x256),
    TRef.binary (TRef.of (T := ⟨S262144x256, .f32⟩) main_v106) (TRef.of (T := ⟨S262144x256, .f32⟩) main_call1_v0) (TRef.of (T := ⟨S262144x256, .f32⟩) main_v107) maximumf ]

/-- Operations 132 … 172 of @main. -/
abbrev opsE : List (HloOp τ sig (Elt F)) :=
  [ unary main_arg3 main_v108 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v108 main_v109 rfl shapeCasts_S1x256x256_S256x256,
    unary main_v109 main_v110 ((transpose S256x256 [1, 0] · transposes_S256x256_S256x256_1_0) : (⟨S256x256, .f32⟩ : BufTy).Contents (Elt F) → (⟨S256x256, .f32⟩ : BufTy).Contents (Elt F)),
    binary main_v107 main_v110 main_v111 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    nullary main_cst_17 (constant S_ .f32 0x00000000#32),
    binary main_v111 main_cst_17 main_v112 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_18 (constant S_ .f32 0x48800000#32),
    unary main_cst_18 main_v113 (broadcastInDim S256 ![] bcast_S_S256 : (⟨S_, .f32⟩ : BufTy).Contents (Elt F) → (⟨S256, .f32⟩ : BufTy).Contents (Elt F)),
    binary main_v112 main_v113 main_v114 (Host.divf : (⟨S256, .f32⟩ : BufTy).Contents (Elt F) → (⟨S256, .f32⟩ : BufTy).Contents (Elt F) → (⟨S256, .f32⟩ : BufTy).Contents (Elt F)),
    unary main_v114 main_v115 (broadcastInDim S1x256 ![1] bcast_S256_S1x256_1 : (⟨S256, .f32⟩ : BufTy).Contents (Elt F) → (⟨S1x256, .f32⟩ : BufTy).Contents (Elt F)),
    unary main_v115 main_v116 (broadcastInDim S262144x256 ![0, 1] bcast_S1x256_S262144x256_0_1 : (⟨S1x256, .f32⟩ : BufTy).Contents (Elt F) → (⟨S262144x256, .f32⟩ : BufTy).Contents (Elt F)),
    binary main_v111 main_v116 main_v117 (subf : (⟨S262144x256, .f32⟩ : BufTy).Contents (Elt F) → (⟨S262144x256, .f32⟩ : BufTy).Contents (Elt F) → (⟨S262144x256, .f32⟩ : BufTy).Contents (Elt F)),
    binary main_v117 main_v117 main_v118 (mulf : (⟨S262144x256, .f32⟩ : BufTy).Contents (Elt F) → (⟨S262144x256, .f32⟩ : BufTy).Contents (Elt F) → (⟨S262144x256, .f32⟩ : BufTy).Contents (Elt F)),
    nullary main_cst_19 (constant S_ .f32 0x00000000#32),
    binary main_v118 main_cst_19 main_v119 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_20 (constant S_ .f32 0x48800000#32),
    unary main_cst_20 main_v120 (broadcastInDim S256 ![] bcast_S_S256 : (⟨S_, .f32⟩ : BufTy).Contents (Elt F) → (⟨S256, .f32⟩ : BufTy).Contents (Elt F)),
    binary main_v119 main_v120 main_v121 (Host.divf : (⟨S256, .f32⟩ : BufTy).Contents (Elt F) → (⟨S256, .f32⟩ : BufTy).Contents (Elt F) → (⟨S256, .f32⟩ : BufTy).Contents (Elt F)),
    unary main_v114 main_v122 (broadcastInDim S1x256 ![1] bcast_S256_S1x256_1 : (⟨S256, .f32⟩ : BufTy).Contents (Elt F) → (⟨S1x256, .f32⟩ : BufTy).Contents (Elt F)),
    unary main_v122 main_v123 (broadcastInDim S262144x256 ![0, 1] bcast_S1x256_S262144x256_0_1 : (⟨S1x256, .f32⟩ : BufTy).Contents (Elt F) → (⟨S262144x256, .f32⟩ : BufTy).Contents (Elt F)),
    binary main_v111 main_v123 main_v124 (subf : (⟨S262144x256, .f32⟩ : BufTy).Contents (Elt F) → (⟨S262144x256, .f32⟩ : BufTy).Contents (Elt F) → (⟨S262144x256, .f32⟩ : BufTy).Contents (Elt F)),
    nullary main_cst_21 (constant S_ .f32 0x3727C5AC#32),
    unary main_cst_21 main_v125 (broadcastInDim S256 ![] bcast_S_S256 : (⟨S_, .f32⟩ : BufTy).Contents (Elt F) → (⟨S256, .f32⟩ : BufTy).Contents (Elt F)),
    binary main_v121 main_v125 main_v126 (addf : (⟨S256, .f32⟩ : BufTy).Contents (Elt F) → (⟨S256, .f32⟩ : BufTy).Contents (Elt F) → (⟨S256, .f32⟩ : BufTy).Contents (Elt F)),
    unary main_v126 main_v127 (Host.rsqrt : (⟨S256, .f32⟩ : BufTy).Contents (Elt F) → (⟨S256, .f32⟩ : BufTy).Contents (Elt F)),
    unary main_v127 main_v128 (broadcastInDim S1x256 ![1] bcast_S256_S1x256_1 : (⟨S256, .f32⟩ : BufTy).Contents (Elt F) → (⟨S1x256, .f32⟩ : BufTy).Contents (Elt F)),
    unary main_v128 main_v129 (broadcastInDim S262144x256 ![0, 1] bcast_S1x256_S262144x256_0_1 : (⟨S1x256, .f32⟩ : BufTy).Contents (Elt F) → (⟨S262144x256, .f32⟩ : BufTy).Contents (Elt F)),
    binary main_v124 main_v129 main_v130 (mulf : (⟨S262144x256, .f32⟩ : BufTy).Contents (Elt F) → (⟨S262144x256, .f32⟩ : BufTy).Contents (Elt F) → (⟨S262144x256, .f32⟩ : BufTy).Contents (Elt F)),
    unary main_arg4 main_v131 ((extractStridedSlice S1x256 ![2, 0] · slices_S3x256_S1x256_2_0) : (⟨S3x256, .f32⟩ : BufTy).Contents (Elt F) → (⟨S1x256, .f32⟩ : BufTy).Contents (Elt F)),
    reshape main_v131 main_v132 rfl shapeCasts_S1x256_S256,
    unary main_v132 main_v133 (broadcastInDim S1x256 ![1] bcast_S256_S1x256_1 : (⟨S256, .f32⟩ : BufTy).Contents (Elt F) → (⟨S1x256, .f32⟩ : BufTy).Contents (Elt F)),
    unary main_v133 main_v134 (broadcastInDim S262144x256 ![0, 1] bcast_S1x256_S262144x256_0_1 : (⟨S1x256, .f32⟩ : BufTy).Contents (Elt F) → (⟨S262144x256, .f32⟩ : BufTy).Contents (Elt F)),
    binary main_v130 main_v134 main_v135 (mulf : (⟨S262144x256, .f32⟩ : BufTy).Contents (Elt F) → (⟨S262144x256, .f32⟩ : BufTy).Contents (Elt F) → (⟨S262144x256, .f32⟩ : BufTy).Contents (Elt F)),
    unary main_arg5 main_v136 ((extractStridedSlice S1x256 ![2, 0] · slices_S3x256_S1x256_2_0) : (⟨S3x256, .f32⟩ : BufTy).Contents (Elt F) → (⟨S1x256, .f32⟩ : BufTy).Contents (Elt F)),
    reshape main_v136 main_v137 rfl shapeCasts_S1x256_S256,
    unary main_v137 main_v138 (broadcastInDim S1x256 ![1] bcast_S256_S1x256_1 : (⟨S256, .f32⟩ : BufTy).Contents (Elt F) → (⟨S1x256, .f32⟩ : BufTy).Contents (Elt F)),
    unary main_v138 main_v139 (broadcastInDim S262144x256 ![0, 1] bcast_S1x256_S262144x256_0_1 : (⟨S1x256, .f32⟩ : BufTy).Contents (Elt F) → (⟨S262144x256, .f32⟩ : BufTy).Contents (Elt F)),
    binary main_v135 main_v139 main_v140 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S262144x256, .f32⟩) main_call2_v0) (broadcastInDim S262144x256 ![] bcast_S_S262144x256),
    TRef.binary (TRef.of (T := ⟨S262144x256, .f32⟩) main_v140) (TRef.of (T := ⟨S262144x256, .f32⟩) main_call2_v0) (TRef.of (T := ⟨S262144x256, .f32⟩) main_v141) maximumf ]

/-- Operations 173 … 175 of @main. -/
abbrev opsF : List (HloOp τ sig (Elt F)) :=
  [ unary main_arg6 main_v142 ((transpose S256x1 [1, 0] · transposes_S1x256_S256x1_1_0) : (⟨S1x256, .f32⟩ : BufTy).Contents (Elt F) → (⟨S256x1, .f32⟩ : BufTy).Contents (Elt F)),
    binary main_v141 main_v142 main_v143 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)),
    reshape main_v143 main_v144 rfl shapeCasts_S262144x1_S262144 ]

set_option maxRecDepth 8192 in
/-- The operation list is the six stretches in order. -/
theorem ops_split : (ops : List (HloOp τ sig (Elt F))) = opsA ++ (opsB ++ (opsC ++ (opsD ++ (opsE ++ opsF)))) := rfl

/-! ### The stretches, each from an arbitrary valuation -/

set_option maxRecDepth 8192 in
set_option maxHeartbeats 4000000 in
/-- After the first stretch the edge-feature buffer holds the two gathered rows' sum, read off the first two arguments. -/
theorem stageA (W : Valuation τ sig (Elt F)) :
    after (opsA (F := F)) W (Proc.devRef .tc main_v18)
      = val_main_v18 (F := F) (W (Proc.devRef .tc main_arg0)) (W (Proc.devRef .tc main_arg1)) := by
  after_results_simp <;> rfl

set_option maxRecDepth 8192 in
set_option maxHeartbeats 4000000 in
/-- The stretch writes none of the seven argument buffers. -/
theorem keepA (W : Valuation τ sig (Elt F)) :
    after (opsA (F := F)) W (Proc.devRef .tc main_arg0) = W (Proc.devRef .tc main_arg0)
    ∧ after (opsA (F := F)) W (Proc.devRef .tc main_arg1) = W (Proc.devRef .tc main_arg1)
    ∧ after (opsA (F := F)) W (Proc.devRef .tc main_arg2) = W (Proc.devRef .tc main_arg2)
    ∧ after (opsA (F := F)) W (Proc.devRef .tc main_arg3) = W (Proc.devRef .tc main_arg3)
    ∧ after (opsA (F := F)) W (Proc.devRef .tc main_arg4) = W (Proc.devRef .tc main_arg4)
    ∧ after (opsA (F := F)) W (Proc.devRef .tc main_arg5) = W (Proc.devRef .tc main_arg5)
    ∧ after (opsA (F := F)) W (Proc.devRef .tc main_arg6) = W (Proc.devRef .tc main_arg6) := by
  refine ⟨?_, ?_, ?_, ?_, ?_, ?_, ?_⟩ <;> (after_results_simp <;> rfl)

set_option maxRecDepth 8192 in
set_option maxHeartbeats 4000000 in
/-- The layer norm: from the edge features and the third argument. -/
theorem stageB (W : Valuation τ sig (Elt F)) (x0 : (⟨S50000x256, .f32⟩ : BufTy).Contents (Elt F)) (x1 : (⟨S2x262144, .i32⟩ : BufTy).Contents (Elt F)) (x2 : (⟨S256, .f32⟩ : BufTy).Contents (Elt F))
    (h18 : W (Proc.devRef .tc main_v18) = val_main_v18 (F := F) x0 x1) (h2 : W (Proc.devRef .tc main_arg2) = x2) :
    after (opsB (F := F)) W (Proc.devRef .tc main_v39) = val_main_v39 (F := F) x0 x1 x2 := by
  after_results_simp
  rw [h18, h2]
  rfl

set_option maxRecDepth 8192 in
set_option maxHeartbeats 4000000 in
/-- The stretch writes none of the seven argument buffers. -/
theorem keepB (W : Valuation τ sig (Elt F)) :
    after (opsB (F := F)) W (Proc.devRef .tc main_arg0) = W (Proc.devRef .tc main_arg0)
    ∧ after (opsB (F := F)) W (Proc.devRef .tc main_arg1) = W (Proc.devRef .tc main_arg1)
    ∧ after (opsB (F := F)) W (Proc.devRef .tc main_arg2) = W (Proc.devRef .tc main_arg2)
    ∧ after (opsB (F := F)) W (Proc.devRef .tc main_arg3) = W (Proc.devRef .tc main_arg3)
    ∧ after (opsB (F := F)) W (Proc.devRef .tc main_arg4) = W (Proc.devRef .tc main_arg4)
    ∧ after (opsB (F := F)) W (Proc.devRef .tc main_arg5) = W (Proc.devRef .tc main_arg5)
    ∧ after (opsB (F := F)) W (Proc.devRef .tc main_arg6) = W (Proc.devRef .tc main_arg6) := by
  refine ⟨?_, ?_, ?_, ?_, ?_, ?_, ?_⟩ <;> (after_results_simp <;> rfl)

set_option maxRecDepth 8192 in
set_option maxHeartbeats 4000000 in
/-- Layer 0: from the layer norm's output and the weight, scale and shift arguments. -/
theorem stageC (W : Valuation τ sig (Elt F)) (x0 : (⟨S50000x256, .f32⟩ : BufTy).Contents (Elt F)) (x1 : (⟨S2x262144, .i32⟩ : BufTy).Contents (Elt F)) (x2 : (⟨S256, .f32⟩ : BufTy).Contents (Elt F)) (x3 : (⟨S3x256x256, .f32⟩ : BufTy).Contents (Elt F)) (x4 : (⟨S3x256, .f32⟩ : BufTy).Contents (Elt F)) (x5 : (⟨S3x256, .f32⟩ : BufTy).Contents (Elt F))
    (h39 : W (Proc.devRef .tc main_v39) = val_main_v39 (F := F) x0 x1 x2) (h3 : W (Proc.devRef .tc main_arg3) = x3)
    (h4 : W (Proc.devRef .tc main_arg4) = x4) (h5 : W (Proc.devRef .tc main_arg5) = x5) :
    after (opsC (F := F)) W (Proc.devRef .tc main_v73) = val_main_v73 (F := F) x0 x1 x2 x3 x4 x5 := by
  after_results_simp
  rw [h39, h3, h4, h5]
  rfl

set_option maxRecDepth 8192 in
set_option maxHeartbeats 4000000 in
/-- The stretch writes none of the seven argument buffers. -/
theorem keepC (W : Valuation τ sig (Elt F)) :
    after (opsC (F := F)) W (Proc.devRef .tc main_arg0) = W (Proc.devRef .tc main_arg0)
    ∧ after (opsC (F := F)) W (Proc.devRef .tc main_arg1) = W (Proc.devRef .tc main_arg1)
    ∧ after (opsC (F := F)) W (Proc.devRef .tc main_arg2) = W (Proc.devRef .tc main_arg2)
    ∧ after (opsC (F := F)) W (Proc.devRef .tc main_arg3) = W (Proc.devRef .tc main_arg3)
    ∧ after (opsC (F := F)) W (Proc.devRef .tc main_arg4) = W (Proc.devRef .tc main_arg4)
    ∧ after (opsC (F := F)) W (Proc.devRef .tc main_arg5) = W (Proc.devRef .tc main_arg5)
    ∧ after (opsC (F := F)) W (Proc.devRef .tc main_arg6) = W (Proc.devRef .tc main_arg6) := by
  refine ⟨?_, ?_, ?_, ?_, ?_, ?_, ?_⟩ <;> (after_results_simp <;> rfl)

set_option maxRecDepth 8192 in
set_option maxHeartbeats 4000000 in
/-- Layer 1: from layer 0's output and the weight, scale and shift arguments. -/
theorem stageD (W : Valuation τ sig (Elt F)) (x0 : (⟨S50000x256, .f32⟩ : BufTy).Contents (Elt F)) (x1 : (⟨S2x262144, .i32⟩ : BufTy).Contents (Elt F)) (x2 : (⟨S256, .f32⟩ : BufTy).Contents (Elt F)) (x3 : (⟨S3x256x256, .f32⟩ : BufTy).Contents (Elt F)) (x4 : (⟨S3x256, .f32⟩ : BufTy).Contents (Elt F)) (x5 : (⟨S3x256, .f32⟩ : BufTy).Contents (Elt F))
    (h73 : W (Proc.devRef .tc main_v73) = val_main_v73 (F := F) x0 x1 x2 x3 x4 x5) (h3 : W (Proc.devRef .tc main_arg3) = x3)
    (h4 : W (Proc.devRef .tc main_arg4) = x4) (h5 : W (Proc.devRef .tc main_arg5) = x5) :
    after (opsD (F := F)) W (Proc.devRef .tc main_v107) = val_main_v107 (F := F) x0 x1 x2 x3 x4 x5 := by
  after_results_simp
  rw [h73, h3, h4, h5]
  rfl

set_option maxRecDepth 8192 in
set_option maxHeartbeats 4000000 in
/-- The stretch writes none of the seven argument buffers. -/
theorem keepD (W : Valuation τ sig (Elt F)) :
    after (opsD (F := F)) W (Proc.devRef .tc main_arg0) = W (Proc.devRef .tc main_arg0)
    ∧ after (opsD (F := F)) W (Proc.devRef .tc main_arg1) = W (Proc.devRef .tc main_arg1)
    ∧ after (opsD (F := F)) W (Proc.devRef .tc main_arg2) = W (Proc.devRef .tc main_arg2)
    ∧ after (opsD (F := F)) W (Proc.devRef .tc main_arg3) = W (Proc.devRef .tc main_arg3)
    ∧ after (opsD (F := F)) W (Proc.devRef .tc main_arg4) = W (Proc.devRef .tc main_arg4)
    ∧ after (opsD (F := F)) W (Proc.devRef .tc main_arg5) = W (Proc.devRef .tc main_arg5)
    ∧ after (opsD (F := F)) W (Proc.devRef .tc main_arg6) = W (Proc.devRef .tc main_arg6) := by
  refine ⟨?_, ?_, ?_, ?_, ?_, ?_, ?_⟩ <;> (after_results_simp <;> rfl)

set_option maxRecDepth 8192 in
set_option maxHeartbeats 4000000 in
/-- Layer 2: from layer 1's output and the weight, scale and shift arguments. -/
theorem stageE (W : Valuation τ sig (Elt F)) (x0 : (⟨S50000x256, .f32⟩ : BufTy).Contents (Elt F)) (x1 : (⟨S2x262144, .i32⟩ : BufTy).Contents (Elt F)) (x2 : (⟨S256, .f32⟩ : BufTy).Contents (Elt F)) (x3 : (⟨S3x256x256, .f32⟩ : BufTy).Contents (Elt F)) (x4 : (⟨S3x256, .f32⟩ : BufTy).Contents (Elt F)) (x5 : (⟨S3x256, .f32⟩ : BufTy).Contents (Elt F))
    (h107 : W (Proc.devRef .tc main_v107) = val_main_v107 (F := F) x0 x1 x2 x3 x4 x5) (h3 : W (Proc.devRef .tc main_arg3) = x3)
    (h4 : W (Proc.devRef .tc main_arg4) = x4) (h5 : W (Proc.devRef .tc main_arg5) = x5) :
    after (opsE (F := F)) W (Proc.devRef .tc main_v141) = val_main_v141 (F := F) x0 x1 x2 x3 x4 x5 := by
  after_results_simp
  rw [h107, h3, h4, h5]
  rfl

set_option maxRecDepth 8192 in
set_option maxHeartbeats 4000000 in
/-- The stretch writes none of the seven argument buffers. -/
theorem keepE (W : Valuation τ sig (Elt F)) :
    after (opsE (F := F)) W (Proc.devRef .tc main_arg0) = W (Proc.devRef .tc main_arg0)
    ∧ after (opsE (F := F)) W (Proc.devRef .tc main_arg1) = W (Proc.devRef .tc main_arg1)
    ∧ after (opsE (F := F)) W (Proc.devRef .tc main_arg2) = W (Proc.devRef .tc main_arg2)
    ∧ after (opsE (F := F)) W (Proc.devRef .tc main_arg3) = W (Proc.devRef .tc main_arg3)
    ∧ after (opsE (F := F)) W (Proc.devRef .tc main_arg4) = W (Proc.devRef .tc main_arg4)
    ∧ after (opsE (F := F)) W (Proc.devRef .tc main_arg5) = W (Proc.devRef .tc main_arg5)
    ∧ after (opsE (F := F)) W (Proc.devRef .tc main_arg6) = W (Proc.devRef .tc main_arg6) := by
  refine ⟨?_, ?_, ?_, ?_, ?_, ?_, ?_⟩ <;> (after_results_simp <;> rfl)

set_option maxRecDepth 8192 in
set_option maxHeartbeats 4000000 in
/-- The score: layer 2's output against the last argument, reshaped. -/
theorem stageF (W : Valuation τ sig (Elt F)) (x0 : (⟨S50000x256, .f32⟩ : BufTy).Contents (Elt F)) (x1 : (⟨S2x262144, .i32⟩ : BufTy).Contents (Elt F)) (x2 : (⟨S256, .f32⟩ : BufTy).Contents (Elt F)) (x3 : (⟨S3x256x256, .f32⟩ : BufTy).Contents (Elt F)) (x4 : (⟨S3x256, .f32⟩ : BufTy).Contents (Elt F)) (x5 : (⟨S3x256, .f32⟩ : BufTy).Contents (Elt F)) (x6 : (⟨S1x256, .f32⟩ : BufTy).Contents (Elt F))
    (h141 : W (Proc.devRef .tc main_v141) = val_main_v141 (F := F) x0 x1 x2 x3 x4 x5) (h6 : W (Proc.devRef .tc main_arg6) = x6) :
    after (opsF (F := F)) W (Proc.devRef .tc main_v144) = val_main_v144 (F := F) x0 x1 x2 x3 x4 x5 x6 := by
  after_results_simp
  rw [h141, h6]
  rfl

set_option maxRecDepth 8192 in
set_option maxHeartbeats 4000000 in
/-- The stretch writes none of the seven argument buffers. -/
theorem keepF (W : Valuation τ sig (Elt F)) :
    after (opsF (F := F)) W (Proc.devRef .tc main_arg0) = W (Proc.devRef .tc main_arg0)
    ∧ after (opsF (F := F)) W (Proc.devRef .tc main_arg1) = W (Proc.devRef .tc main_arg1)
    ∧ after (opsF (F := F)) W (Proc.devRef .tc main_arg2) = W (Proc.devRef .tc main_arg2)
    ∧ after (opsF (F := F)) W (Proc.devRef .tc main_arg3) = W (Proc.devRef .tc main_arg3)
    ∧ after (opsF (F := F)) W (Proc.devRef .tc main_arg4) = W (Proc.devRef .tc main_arg4)
    ∧ after (opsF (F := F)) W (Proc.devRef .tc main_arg5) = W (Proc.devRef .tc main_arg5)
    ∧ after (opsF (F := F)) W (Proc.devRef .tc main_arg6) = W (Proc.devRef .tc main_arg6) := by
  refine ⟨?_, ?_, ?_, ?_, ?_, ?_, ?_⟩ <;> (after_results_simp <;> rfl)

/-! ### The stretches composed -/

set_option maxRecDepth 8192 in
set_option maxHeartbeats 4000000 in
/-- After all 175 operations the result buffer holds the last stage of the operation-by-operation reading of the seven
    argument buffers' initial contents. -/
theorem result_eq (V : Valuation τ sig (Elt F)) :
    after (ops (F := F)) V (Proc.devRef .tc main_v144)
      = val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_split, Cert.ListParts.after_append, Cert.ListParts.after_append, Cert.ListParts.after_append,
    Cert.ListParts.after_append, Cert.ListParts.after_append]
  obtain ⟨-, -, a2, a3, a4, a5, a6⟩ := keepA (F := F) V
  obtain ⟨-, -, -, b3, b4, b5, b6⟩ := keepB (F := F) (after opsA V)
  obtain ⟨-, -, -, c3, c4, c5, c6⟩ := keepC (F := F) (after opsB (after opsA V))
  obtain ⟨-, -, -, d3, d4, d5, d6⟩ := keepD (F := F) (after opsC (after opsB (after opsA V)))
  obtain ⟨-, -, -, -, -, -, e6⟩ := keepE (F := F) (after opsD (after opsC (after opsB (after opsA V))))
  have hB := stageB (F := F) (after opsA V) _ _ _ (stageA V) a2
  have hC := stageC (F := F) (after opsB (after opsA V)) _ _ _ _ _ _ hB (b3.trans a3) (b4.trans a4) (b5.trans a5)
  have hD := stageD (F := F) (after opsC (after opsB (after opsA V))) _ _ _ _ _ _ hC (c3.trans (b3.trans a3))
    (c4.trans (b4.trans a4)) (c5.trans (b5.trans a5))
  have hE := stageE (F := F) (after opsD (after opsC (after opsB (after opsA V)))) _ _ _ _ _ _ hD
    (d3.trans (c3.trans (b3.trans a3))) (d4.trans (c4.trans (b4.trans a4))) (d5.trans (c5.trans (b5.trans a5)))
  exact stageF (F := F) (after opsE (after opsD (after opsC (after opsB (after opsA V))))) _ _ _ _ _ _ _ hE
    (e6.trans (d6.trans (c6.trans (b6.trans a6))))

set_option maxRecDepth 8192 in
set_option maxHeartbeats 4000000 in
/-- After all 175 operations each of the seven argument buffers holds what it held at the start. -/
theorem args_kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6) := by
  rw [ops_split, Cert.ListParts.after_append, Cert.ListParts.after_append, Cert.ListParts.after_append,
    Cert.ListParts.after_append, Cert.ListParts.after_append]
  obtain ⟨a0, a1, a2, a3, a4, a5, a6⟩ := keepA (F := F) V
  obtain ⟨b0, b1, b2, b3, b4, b5, b6⟩ := keepB (F := F) (after opsA V)
  obtain ⟨c0, c1, c2, c3, c4, c5, c6⟩ := keepC (F := F) (after opsB (after opsA V))
  obtain ⟨d0, d1, d2, d3, d4, d5, d6⟩ := keepD (F := F) (after opsC (after opsB (after opsA V)))
  obtain ⟨e0, e1, e2, e3, e4, e5, e6⟩ := keepE (F := F) (after opsD (after opsC (after opsB (after opsA V))))
  obtain ⟨f0, f1, f2, f3, f4, f5, f6⟩ := keepF (F := F) (after opsE (after opsD (after opsC (after opsB (after opsA V)))))
  exact ⟨f0.trans (e0.trans (d0.trans (c0.trans (b0.trans a0)))),
    f1.trans (e1.trans (d1.trans (c1.trans (b1.trans a1)))),
    f2.trans (e2.trans (d2.trans (c2.trans (b2.trans a2)))),
    f3.trans (e3.trans (d3.trans (c3.trans (b3.trans a3)))),
    f4.trans (e4.trans (d4.trans (c4.trans (b4.trans a4)))),
    f5.trans (e5.trans (d5.trans (c5.trans (b5.trans a5)))),
    f6.trans (e6.trans (d6.trans (c6.trans (b6.trans a6))))⟩

/-! ### The run -/

set_option maxRecDepth 8192 in
set_option maxHeartbeats 4000000 in
/-- Every weakly fair execution of the reference program from launch memory `m` terminates; at the end the result buffer
    holds the operation-by-operation reading of the seven argument buffers of `m`, and the argument buffers are as in `m`. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144)
        = val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v144).trans (result_eq (F := F) (launchContents m c)),
       (h c main_arg0).trans (args_kept (F := F) (launchContents m c)).1,
       (h c main_arg1).trans (args_kept (F := F) (launchContents m c)).2.1,
       (h c main_arg2).trans (args_kept (F := F) (launchContents m c)).2.2.1,
       (h c main_arg3).trans (args_kept (F := F) (launchContents m c)).2.2.2.1,
       (h c main_arg4).trans (args_kept (F := F) (launchContents m c)).2.2.2.2.1,
       (h c main_arg5).trans (args_kept (F := F) (launchContents m c)).2.2.2.2.2.1,
       (h c main_arg6).trans (args_kept (F := F) (launchContents m c)).2.2.2.2.2.2⟩)
    (run_seq scopedRefs_eq scopedSems_eq defs main (fun _ => ops) main_eq (fun _ => ops_sub) m ρ)

end Cert.ReferenceIdeal.RefRun

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.KPay.lean ====
/-
  The kernel bodies' arithmetic, read at an entry, on the extended reals.

  Each kernel body computes whole arrays from the arrays it has read; here every such array is read at one entry, named by its
  coordinates, and found to be the textbook expression in the entries of the arrays read.

  • Kernel 0: a [2048, 256] block of feature rows is layer-normalised row by row (the row's mean, the row's mean squared
    deviation, a small constant under the reciprocal square root, a weight per feature) and multiplied by a [256, 256] matrix:
    entry (p, q) is  Σ_k layerNorm(p, k) · W(k, q).  The running column sums add, at lane q, the sum over the 2048 rows of the
    product's entries, and the running sums of squares the sum of their squares; both start from zero.
  • Kernels 1 and 2 (one body twice): every entry is normalised by a given mean row and variance row, scaled, shifted and
    rectified, and the result multiplied by a [256, 256] matrix: entry (p, q) is  Σ_k normRelu(p, k) · W(k, q);  the same
    running sums.
  • Kernel 3: the same normalisation and rectifier, then each row against one weight row: entry p is
    Σ_k normRelu(p, k) · w(k).

  Two facts carry the reading: a sum along one axis of a [2048, 256] array is the finite sum over that axis's coordinate, and a
  column [2048, 1] or a row [1, 256] broadcast to [2048, 256] repeats its entries along the other axis.  A change of float format is
  the identity on the extended reals, and the zero pattern is the real zero.
-/
import proofs.«171780_j3272765079679_2_alg».proof.Proof.Gen.KernelIdeal.Skeleton
import proofs.«171780_j3272765079679_2_alg».proof.Proof.Layout
import proofs.«171780_j3272765079679_2_alg».proof.Proof.LibPlainMatmul
import proofs.«171780_j3272765079679_2_alg».proof.Proof.LibKeepdims
import proofs.«171780_j3272765079679_2_alg».proof.Proof.LibRowSumZero
import proofs.«171780_j3272765079679_2_alg».proof.Proof.LibMinOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay
open Cert.KernelIdeal Cert.KernelIdeal.Gen Cert.EdgeNet Idealize.ShloMosaic Idealize.ShloMosaic.ValueIdx

/-! ## Pieces shared by the bodies -/

/-- A row's sum over its 256 entries, divided by a constant, kept as a column and broadcast along the row. -/
theorem rowMean_bcast (x : FVec Ideal S2048x256 .f32) (c : BitVec 32) (p : Fin 2048) (k : Fin 256) :
    broadcastTo S2048x256 (divf (shapeCast S2048x1 (multiReduction (F := Ideal) .add [1] S2048 x 0x00000000#32
        reduces_S2048x256_S2048 (.inl rfl) rfl) shapeCasts_S2048_S2048x1) (broadcast S2048x1 (Scalar.ofBits .f32 c)))
      broadcasts_S2048x1_S2048x256 (ix2 p k)
      = Ideal.div (∑ j : Fin 256, x (ix2 p j)) (Ideal.ofBits .f32 c) := by
  refine (Cert.Keepdims.broadcastTo_a1_ab_apply _ _ p k).trans ?_
  refine (divf_apply _ _ _).trans ?_
  refine congrArg₂ Ideal.div ?_ rfl
  refine (Cert.Keepdims.shapeCast_a_a1_apply _ _ p 0).trans ?_
  exact Cert.RowSumZero.rowSum_zero_apply x _ _ _ p

/-- An entry minus its row's mean. -/
theorem centered (x : FVec Ideal S2048x256 .f32) (p : Fin 2048) (k : Fin 256) :
    subf x (broadcastTo S2048x256 (divf (shapeCast S2048x1 (multiReduction (F := Ideal) .add [1] S2048 x 0x00000000#32
        reduces_S2048x256_S2048 (.inl rfl) rfl) shapeCasts_S2048_S2048x1) (broadcast S2048x1 (Scalar.ofBits .f32 0x43800000#32)))
      broadcasts_S2048x1_S2048x256) (ix2 p k)
      = rows x p k - rowMean (rows x) p :=
  (subf_apply _ _ _).trans (congrArg (x (ix2 p k) - ·) (rowMean_bcast x _ p k))

/-- The sum down the 2048 rows, from the zero pattern, viewed as a [1, 256] row. -/
theorem colSum_row (x : FVec Ideal S2048x256 .f32) (z : Fin 1) (q : Fin 256) :
    shapeCast S1x256 (multiReduction (F := Ideal) .add [0] S256 x 0x00000000#32 reduces_S2048x256_S256 (.inl rfl) rfl)
      shapeCasts_S256_S1x256 (ix2 z q) = ∑ p : Fin 2048, x (ix2 p q) := by
  refine (shapeCast_a_1a_apply _ _ z q).trans ?_
  exact Cert.MinOps.rowsSum_apply x _ _ _ rfl q

/-- A [1, 256] row broadcast over the 2048 rows, after the identity cast. -/
theorem row_bcast (v : Vec Ideal S1x256 .f32) (p : Fin 2048) (k : Fin 256) :
    broadcastTo S2048x256 (shapeCast S1x256 v shapeCasts_S1x256_S1x256) broadcasts_S1x256_S2048x256 (ix2 p k) = v (ix2 0 k) := by
  refine (broadcastTo_1b_ab_apply _ _ p k).trans ?_
  exact congrFun (shapeCast_self v _) _

/-- Column normalisation by given mean and variance rows, scale, shift and rectifier, at an entry. -/
theorem normRelu_at (v0 : Vec Ideal S2048x256 .f32) (v2 v6 v13 v17 : Vec Ideal S1x256 .f32) (p : Fin 2048) (k : Fin 256) :
    maximumf
      (addf
        (mulf
          (mulf
            (subf (shapeCast S2048x256 v0 shapeCasts_S2048x256_S2048x256)
              (broadcastTo S2048x256 (shapeCast S1x256 v2 shapeCasts_S1x256_S1x256) broadcasts_S1x256_S2048x256))
            (broadcastTo S2048x256
              (rsqrt (addf (shapeCast S1x256 v6 shapeCasts_S1x256_S1x256)
                (broadcast S1x256 (Scalar.ofBits (F := Ideal) .f32 0x3727C5AC#32))))
              broadcasts_S1x256_S2048x256))
          (broadcastTo S2048x256 (shapeCast S1x256 v13 shapeCasts_S1x256_S1x256) broadcasts_S1x256_S2048x256))
        (broadcastTo S2048x256 (shapeCast S1x256 v17 shapeCasts_S1x256_S1x256) broadcasts_S1x256_S2048x256))
      (broadcast S2048x256 (Scalar.ofBits (F := Ideal) .f32 0x00000000#32)) (ix2 p k)
      = normReluBy (rows v0) (row0 v2) (row0 v6) (row0 v13) (row0 v17) p k := by
  refine (maximumf_apply _ _ _).trans ?_
  refine congrArg₂ max ?_ Ideal.ofBits_zero_f32
  refine (addf_apply _ _ _).trans ?_
  refine congrArg₂ (· + ·) ?_ (row_bcast v17 p k)
  refine (mulf_apply _ _ _).trans ?_
  refine congrArg₂ (· * ·) ?_ (row_bcast v13 p k)
  refine (mulf_apply _ _ _).trans ?_
  refine congrArg₂ (· * ·) ?_ ?_
  · refine (subf_apply _ _ _).trans ?_
    exact congrArg₂ (· - ·) (congrFun (shapeCast_self v0 _) _) (row_bcast v2 p k)
  · refine (broadcastTo_1b_ab_apply _ _ p k).trans ?_
    refine (Cert.RowSumZero.rsqrt_apply _ _).trans ?_
    refine congrArg Ideal.rsqrt ?_
    refine (addf_apply _ _ _).trans ?_
    exact congrArg₂ (· + ·) (congrFun (shapeCast_self v6 _) _) rfl

/-! ## Kernel 0: layer norm, product with the weight matrix, running column sums -/

theorem pay0_zero3 (i : S1x256.Idx) : k0_pay3 (F := Ideal) i = (0 : EReal) := by
  unfold k0_pay3
  exact Ideal.ofBits_zero_f32

theorem pay0_zero4 (i : S1x256.Idx) : k0_pay4 (F := Ideal) i = (0 : EReal) := by
  unfold k0_pay4
  exact Ideal.ofBits_zero_f32

theorem pay0_sq (v27 : FVec Ideal S2048x256 .f32) (v38 : Vec Ideal S1x256 .f32) (z : Fin 1) (q : Fin 256) :
    k0_pay1 (F := Ideal) v27 v38 (ix2 z q) = v38 (ix2 z q) + ∑ p : Fin 2048, v27 (ix2 p q) * v27 (ix2 p q) := by
  unfold k0_pay1
  refine (addf_apply _ _ _).trans ?_
  refine congrArg₂ (· + ·) (congrFun (shapeCast_self v38 _) _) ?_
  exact colSum_row (mulf v27 v27) z q

theorem pay0_lin (x0 : Vec Ideal S2048x256 .f32) (x1 : Vec Ideal S1x256 .f32) (x2 : Vec Ideal S256x256 .bf16)
    (p : Fin 2048) (q : Fin 256) :
    k0_pay2 (F := Ideal) x0 x1 x2 (ix2 p q)
      = ∑ k : Fin 256, layerNorm (rows x0) (row0 x1) p k * x2 (ix2 k q) := by
  have e0 : shapeCast S2048x256 x0 shapeCasts_S2048x256_S2048x256 = x0 := shapeCast_self x0 _
  unfold k0_pay2
  rw [e0]
  refine (Cert.PlainMatmul.matmul_zero_apply dot_S2048x256_S256x256_S2048x256_1_0_0_1_n_n_wf none _ _ p q).trans ?_
  refine Finset.sum_congr rfl fun k _ => ?_
  refine congrArg₂ (· * ·) ?_ (congrFun (shapeCast_self x2 _) _)
  refine (truncf_apply (φ := .f32) (ψ := .bf16) _ bitsLt_bf16_f32 _).trans ?_
  refine (mulf_apply _ _ _).trans ?_
  refine congrArg₂ (· * ·) ?_ (row_bcast x1 p k)
  refine (mulf_apply _ _ _).trans ?_
  refine congrArg₂ (· * ·) (centered x0 p k) ?_
  refine (Cert.Keepdims.broadcastTo_a1_ab_apply _ _ p k).trans ?_
  refine (Cert.RowSumZero.rsqrt_apply _ _).trans ?_
  refine congrArg Ideal.rsqrt ?_
  refine (addf_apply _ _ _).trans ?_
  refine congrArg₂ (· + ·) ?_ rfl
  refine (divf_apply _ _ _).trans ?_
  refine congrArg₂ Ideal.div ?_ rfl
  refine (Cert.Keepdims.shapeCast_a_a1_apply _ _ p 0).trans ?_
  refine (Cert.RowSumZero.rowSum_zero_apply _ _ _ _ p).trans ?_
  refine Finset.sum_congr rfl fun j _ => ?_
  refine (mulf_apply _ _ _).trans ?_
  exact congrArg₂ (· * ·) (centered x0 p j) (centered x0 p j)

theorem pay0_sum (x0 : Vec Ideal S2048x256 .f32) (x1 : Vec Ideal S1x256 .f32) (x2 : Vec Ideal S256x256 .bf16)
    (v32 : Vec Ideal S1x256 .f32) (z : Fin 1) (q : Fin 256) :
    k0_pay5 (F := Ideal) x0 x1 x2 v32 (ix2 z q)
      = v32 (ix2 z q) + ∑ p : Fin 2048, k0_pay2 (F := Ideal) x0 x1 x2 (ix2 p q) := by
  unfold k0_pay5
  refine (addf_apply _ _ _).trans ?_
  refine congrArg₂ (· + ·) (congrFun (shapeCast_self v32 _) _) ?_
  exact colSum_row (k0_pay2 x0 x1 x2) z q

/-! ## Kernel 1: column normalisation, rectifier, product with the weight matrix, running column sums -/

theorem pay1_zero4 (i : S1x256.Idx) : k1_pay4 (F := Ideal) i = (0 : EReal) := by
  unfold k1_pay4
  exact Ideal.ofBits_zero_f32

theorem pay1_zero5 (i : S1x256.Idx) : k1_pay5 (F := Ideal) i = (0 : EReal) := by
  unfold k1_pay5
  exact Ideal.ofBits_zero_f32

theorem pay1_add (v32 v34 : FVec Ideal S1x256 .f32) (i : S1x256.Idx) :
    k1_pay1 (F := Ideal) v32 v34 i = v32 i + v34 i := by
  unfold k1_pay1
  exact addf_apply _ _ _

theorem pay1_id (v31 : Vec Ideal S1x256 .f32) (i : S1x256.Idx) : k1_pay6 (F := Ideal) v31 i = v31 i := by
  unfold k1_pay6
  exact congrFun (shapeCast_self v31 _) i

theorem pay1_sq (v26 : FVec Ideal S2048x256 .f32) (v37 : Vec Ideal S1x256 .f32) (z : Fin 1) (q : Fin 256) :
    k1_pay2 (F := Ideal) v26 v37 (ix2 z q) = v37 (ix2 z q) + ∑ p : Fin 2048, v26 (ix2 p q) * v26 (ix2 p q) := by
  unfold k1_pay2
  refine (addf_apply _ _ _).trans ?_
  refine congrArg₂ (· + ·) (congrFun (shapeCast_self v37 _) _) ?_
  exact colSum_row (mulf v26 v26) z q

theorem pay1_lin (v0 : Vec Ideal S2048x256 .f32) (v2 v6 v13 v17 : Vec Ideal S1x256 .f32) (v24 : Vec Ideal S256x256 .bf16)
    (p : Fin 2048) (q : Fin 256) :
    k1_pay3 (F := Ideal) v0 v2 v6 v13 v17 v24 (ix2 p q)
      = ∑ k : Fin 256, normReluBy (rows v0) (row0 v2) (row0 v6) (row0 v13) (row0 v17) p k * v24 (ix2 k q) := by
  unfold k1_pay3
  refine (Cert.PlainMatmul.matmul_zero_apply dot_S2048x256_S256x256_S2048x256_1_0_0_1_n_n_wf none _ _ p q).trans ?_
  refine Finset.sum_congr rfl fun k _ => ?_
  refine congrArg₂ (· * ·) ?_ (congrFun (shapeCast_self v24 _) _)
  refine (truncf_apply (φ := .f32) (ψ := .bf16) _ bitsLt_bf16_f32 _).trans ?_
  exact normRelu_at v0 v2 v6 v13 v17 p k

theorem pay1_sum (v0 : Vec Ideal S2048x256 .f32) (v2 v6 v13 v17 : Vec Ideal S1x256 .f32) (v24 : Vec Ideal S256x256 .bf16)
    (z : Fin 1) (q : Fin 256) :
    k1_pay7 (F := Ideal) v0 v2 v6 v13 v17 v24 (ix2 z q)
      = ∑ p : Fin 2048, k1_pay3 (F := Ideal) v0 v2 v6 v13 v17 v24 (ix2 p q) := by
  unfold k1_pay7
  exact colSum_row (k1_pay3 v0 v2 v6 v13 v17 v24) z q

/-! ## Kernel 2: the same body as kernel 1 -/

theorem pay2_zero4 (i : S1x256.Idx) : k2_pay4 (F := Ideal) i = (0 : EReal) := by
  unfold k2_pay4
  exact Ideal.ofBits_zero_f32

theorem pay2_zero5 (i : S1x256.Idx) : k2_pay5 (F := Ideal) i = (0 : EReal) := by
  unfold k2_pay5
  exact Ideal.ofBits_zero_f32

theorem pay2_add (v32 v34 : FVec Ideal S1x256 .f32) (i : S1x256.Idx) :
    k2_pay1 (F := Ideal) v32 v34 i = v32 i + v34 i := by
  unfold k2_pay1
  exact addf_apply _ _ _

theorem pay2_id (v31 : Vec Ideal S1x256 .f32) (i : S1x256.Idx) : k2_pay6 (F := Ideal) v31 i = v31 i := by
  unfold k2_pay6
  exact congrFun (shapeCast_self v31 _) i

theorem pay2_sq (v26 : FVec Ideal S2048x256 .f32) (v37 : Vec Ideal S1x256 .f32) (z : Fin 1) (q : Fin 256) :
    k2_pay2 (F := Ideal) v26 v37 (ix2 z q) = v37 (ix2 z q) + ∑ p : Fin 2048, v26 (ix2 p q) * v26 (ix2 p q) := by
  unfold k2_pay2
  refine (addf_apply _ _ _).trans ?_
  refine congrArg₂ (· + ·) (congrFun (shapeCast_self v37 _) _) ?_
  exact colSum_row (mulf v26 v26) z q

theorem pay2_lin (v0 : Vec Ideal S2048x256 .f32) (v2 v6 v13 v17 : Vec Ideal S1x256 .f32) (v24 : Vec Ideal S256x256 .bf16)
    (p : Fin 2048) (q : Fin 256) :
    k2_pay3 (F := Ideal) v0 v2 v6 v13 v17 v24 (ix2 p q)
      = ∑ k : Fin 256, normReluBy (rows v0) (row0 v2) (row0 v6) (row0 v13) (row0 v17) p k * v24 (ix2 k q) := by
  unfold k2_pay3
  refine (Cert.PlainMatmul.matmul_zero_apply dot_S2048x256_S256x256_S2048x256_1_0_0_1_n_n_wf none _ _ p q).trans ?_
  refine Finset.sum_congr rfl fun k _ => ?_
  refine congrArg₂ (· * ·) ?_ (congrFun (shapeCast_self v24 _) _)
  refine (truncf_apply (φ := .f32) (ψ := .bf16) _ bitsLt_bf16_f32 _).trans ?_
  exact normRelu_at v0 v2 v6 v13 v17 p k

theorem pay2_sum (v0 : Vec Ideal S2048x256 .f32) (v2 v6 v13 v17 : Vec Ideal S1x256 .f32) (v24 : Vec Ideal S256x256 .bf16)
    (z : Fin 1) (q : Fin 256) :
    k2_pay7 (F := Ideal) v0 v2 v6 v13 v17 v24 (ix2 z q)
      = ∑ p : Fin 2048, k2_pay3 (F := Ideal) v0 v2 v6 v13 v17 v24 (ix2 p q) := by
  unfold k2_pay7
  exact colSum_row (k2_pay3 v0 v2 v6 v13 v17 v24) z q

/-! ## Kernel 3: column normalisation, rectifier, the row against one weight row -/

theorem pay3 (v0 : Vec Ideal S2048x256 .f32) (v2 v6 v13 v17 v23 : Vec Ideal S1x256 .f32) (p : Fin 2048) :
    k3_pay1 (F := Ideal) v0 v2 v6 v13 v17 v23 (ix1 p)
      = ∑ k : Fin 256, normReluBy (rows v0) (row0 v2) (row0 v6) (row0 v13) (row0 v17) p k * v23 (ix2 0 k) := by
  unfold k3_pay1
  refine (Cert.RowSumZero.rowSum_zero_apply _ _ _ _ p).trans ?_
  refine Finset.sum_congr rfl fun k _ => ?_
  refine (mulf_apply _ _ _).trans ?_
  exact congrArg₂ (· * ·) (normRelu_at v0 v2 v6 v13 v17 p k) (broadcastTo_1b_ab_apply v23 _ p k)

end Cert.KernelIdeal.Pay
end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.LibSumStep.lean ====
/-
  A contraction accumulated block by block.

  For a sequence f of N = a · b terms in a commutative monoid, `partialBlocks f b n` is the sum of its first n blocks of b
  consecutive terms (the sequence continued by zero, so that a position may be named by block number and offset). It starts
  at the first block's sum, grows by one block's sum per step, and after a steps it is the whole sum. In the extended reals
  addition is commutative and associative at the infinities too, so nothing here needs a finiteness hypothesis.
  Imports LibSumBlocks.lean (the regrouping of a sum into consecutive blocks, and the continuation by zero `onNat`).
-/
import proofs.«171780_j3272765079679_2_alg».proof.Proof.LibSumBlocks
import Mathlib.Algebra.BigOperators.Fin

open scoped BigOperators

namespace Cert.AggMath

open Cert.Lib.SumBlocks

/-- The sum of the first `n` blocks of `b` consecutive terms of `f`. -/
def partialBlocks {β : Type*} [AddCommMonoid β] {N : ℕ} (f : Fin N → β) (b n : ℕ) : β :=
  ∑ s ∈ Finset.range n, ∑ q : Fin b, onNat f (s * b + q.val)

/-- One more block. -/
theorem partialBlocks_succ {β : Type*} [AddCommMonoid β] {N : ℕ} (f : Fin N → β) (b n : ℕ) :
    partialBlocks f b (n + 1) = partialBlocks f b n + ∑ q : Fin b, onNat f (n * b + q.val) :=
  Finset.sum_range_succ _ n

/-- The first block alone, reached from zero. -/
theorem partialBlocks_one {β : Type*} [AddCommMonoid β] {N : ℕ} (f : Fin N → β) (b : ℕ) :
    partialBlocks f b 1 = 0 + ∑ q : Fin b, onNat f (0 * b + q.val) := by
  rw [partialBlocks_succ]; rfl

/-- All `a` blocks: the whole sum. -/
theorem partialBlocks_full {β : Type*} [AddCommMonoid β] {N : ℕ} (a b : ℕ) (hn : N = a * b) (f : Fin N → β) :
    partialBlocks f b a = ∑ k : Fin N, f k :=
  (sum_fin_blocks a b hn f).symm

end Cert.AggMath
-- ==== Proof.Blocks.lean ====
/-
  A sum over the 262144 rows taken 2048 rows at a time.

  Row number 2048·s + p is position p of block s.  A running value that starts at zero plus the first block's sum and
  grows by one block's sum per step is, after the 128-th block, the sum over all the rows.
-/
import proofs.«171780_j3272765079679_2_alg».proof.Proof.LibSumStep
import Mathlib.Algebra.BigOperators.Fin

open scoped BigOperators

namespace Cert.EdgeNet

open Cert.AggMath Cert.Lib.SumBlocks

/-- Row 2048·s + p as a row number of the whole array. -/
def rowOf (s : ℕ) (hs : s < 128) (p : Fin 2048) : Fin 262144 := ⟨2048 * s + p.val, by have := p.isLt; omega⟩

/-- A block's sum, its rows named through the whole array, is the block's sum of the continued sequence. -/
theorem block_sum {β : Type*} [AddCommMonoid β] (f : Fin 262144 → β) (s : ℕ) (hs : s < 128) (g : Fin 2048 → β)
    (hg : ∀ p : Fin 2048, g p = f (rowOf s hs p)) :
    ∑ p : Fin 2048, g p = ∑ p : Fin 2048, onNat f (s * 2048 + p.val) :=
  Finset.sum_congr rfl fun p _ => by
    have hp := p.isLt
    rw [hg p, onNat_of_lt f _ (by omega)]
    congr 1
    apply Fin.ext
    show 2048 * s + p.val = s * 2048 + p.val
    omega

/-- The first step: zero plus the first block. -/
theorem acc_first {β : Type*} [AddCommMonoid β] (f : Fin 262144 → β) (g : Fin 2048 → β)
    (hg : ∀ p : Fin 2048, g p = f (rowOf 0 (by omega) p)) :
    0 + ∑ p : Fin 2048, g p = partialBlocks f 2048 1 := by
  rw [partialBlocks_one, block_sum f 0 (by omega) g hg]

/-- A later step: one more block. -/
theorem acc_step {β : Type*} [AddCommMonoid β] (f : Fin 262144 → β) (n : ℕ) (hn : n + 1 < 128) (g : Fin 2048 → β)
    (hg : ∀ p : Fin 2048, g p = f (rowOf (n + 1) hn p)) :
    partialBlocks f 2048 (n + 1) + ∑ p : Fin 2048, g p = partialBlocks f 2048 (n + 1 + 1) := by
  rw [partialBlocks_succ f 2048 (n + 1), block_sum f (n + 1) hn g hg]

/-- After all 128 blocks: the whole sum. -/
theorem acc_full {β : Type*} [AddCommMonoid β] (f : Fin 262144 → β) :
    partialBlocks f 2048 128 = ∑ e : Fin 262144, f e :=
  partialBlocks_full 128 2048 rfl f

end Cert.EdgeNet
-- ==== Proof.KReg0.lean ====
/-
  The kernel that layer-normalises a [262144, 256] array row by row, multiplies by a 256×256 matrix, and accumulates the
  product's column sums and column sums of squares over the 128 row blocks (pipeline 0): what its three output arrays hold
  after the run, as functions of the arrays it is entered with.

  Block t of the product is a function of rows 2048·t … 2048·t + 2047 of the input only; the two running rows hold, after
  block t, the sums over the first t + 1 blocks, and after the last block the sums over all rows.
-/
import proofs.«171780_j3272765079679_2_alg».proof.Proof.Gen.KernelIdeal.Frame
import proofs.«171780_j3272765079679_2_alg».proof.Proof.KPay
import proofs.«171780_j3272765079679_2_alg».proof.Proof.Blocks
import proofs.«171780_j3272765079679_2_alg».proof.Proof.Layout
import Idealize.ShloMosaic.Lib.Pipeline.Value
import Idealize.ShloMosaic.Lib.ValueIdx

set_option maxRecDepth 16384

noncomputable section

namespace Cert.KernelIdeal.Reg0

open Cert.KernelIdeal Cert.KernelIdeal.Gen Cert.KernelIdeal.Pay Cert.EdgeNet Cert.AggMath
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-! ## What one grid point leaves in the output buffers -/

section Pieces
variable {F : FTy → Type} [FloatOps F]

/-- First point: the product block, stored whole. -/
theorem outA3 (c : Dev nD) (i : grid0.Coords) (a1 : Memref sig .tc .vmem S2048x256 .f32) (h1 : a1.IsWhole) (a2 : Memref sig .tc .vmem S1x256 .f32) (h2 : a2.IsWhole) (a3 : Memref sig .tc .vmem S256x256 .bf16) (h3 : a3.IsWhole) (a4 : Memref sig .tc .vmem S2048x256 .f32) (h4 : a4.IsWhole) (a5 : Memref sig .tc .vmem S1x256 .f32) (h5 : a5.IsWhole) (a6 : Memref sig .tc .vmem S1x256 .f32) (h6 : a6.IsWhole) (hc : cond0_0 i) (x0 : Vec F S2048x256 .f32) (x1 : Vec F S1x256 .f32) (x2 : Vec F S256x256 .bf16) :
    out0_A_3 c i a1 h1 a2 h2 a3 h3 a4 h4 a5 h5 a6 h6 hc x0 x1 x2 = k0_pay2 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz2]
  simp only [View.readAt_eq_ld, h1.read_unread, h2.read_unread, h3.read_unread,
    View.ld_unit_zero (S := S2048x256) hz2, View.ld_unit_zero (S := S1x256) hz2, View.ld_unit_zero (S := S256x256) hz2]

/-- A later point: the product block, stored whole. -/
theorem outB3 (c : Dev nD) (i : grid0.Coords) (a1 : Memref sig .tc .vmem S2048x256 .f32) (h1 : a1.IsWhole) (a2 : Memref sig .tc .vmem S1x256 .f32) (h2 : a2.IsWhole) (a3 : Memref sig .tc .vmem S256x256 .bf16) (h3 : a3.IsWhole) (a4 : Memref sig .tc .vmem S2048x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2048x256 .f32) (x1 : Vec F S1x256 .f32) (x2 : Vec F S256x256 .bf16) (xo4 xo5 : Vec F S1x256 .f32) :
    out0_B_3 c i a1 h1 a2 h2 a3 h3 a4 h4 a5 h5 a6 h6 hc x0 x1 x2 xo4 xo5 = k0_pay2 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz2]
  simp only [View.readAt_eq_ld, h1.read_unread, h2.read_unread, h3.read_unread,
    View.ld_unit_zero (S := S2048x256) hz2, View.ld_unit_zero (S := S1x256) hz2, View.ld_unit_zero (S := S256x256) hz2]

/-- First point: the running row of sums is reset to zero, read back, and increased by the block's column sums. -/
theorem outA4 (c : Dev nD) (i : grid0.Coords) (a1 : Memref sig .tc .vmem S2048x256 .f32) (h1 : a1.IsWhole) (a2 : Memref sig .tc .vmem S1x256 .f32) (h2 : a2.IsWhole) (a3 : Memref sig .tc .vmem S256x256 .bf16) (h3 : a3.IsWhole) (a4 : Memref sig .tc .vmem S2048x256 .f32) (h4 : a4.IsWhole) (a5 : Memref sig .tc .vmem S1x256 .f32) (h5 : a5.IsWhole) (a6 : Memref sig .tc .vmem S1x256 .f32) (h6 : a6.IsWhole) (hc : cond0_0 i) (x0 : Vec F S2048x256 .f32) (x1 : Vec F S1x256 .f32) (x2 : Vec F S256x256 .bf16) :
    out0_A_4 c i a1 h1 a2 h2 a3 h3 a4 h4 a5 h5 a6 h6 hc x0 x1 x2 = k0_pay5 x0 x1 x2 (k0_pay3 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x256) hz2, View.readCov_unit_zero (S := S1x256) _ hz2]
  simp only [View.readAt_eq_ld, h1.read_unread, h2.read_unread, h3.read_unread,
    View.ld_unit_zero (S := S2048x256) hz2, View.ld_unit_zero (S := S1x256) hz2, View.ld_unit_zero (S := S256x256) hz2]

/-- First point: the running row of sums of squares is reset to zero, read back, and increased. -/
theorem outA5 (c : Dev nD) (i : grid0.Coords) (a1 : Memref sig .tc .vmem S2048x256 .f32) (h1 : a1.IsWhole) (a2 : Memref sig .tc .vmem S1x256 .f32) (h2 : a2.IsWhole) (a3 : Memref sig .tc .vmem S256x256 .bf16) (h3 : a3.IsWhole) (a4 : Memref sig .tc .vmem S2048x256 .f32) (h4 : a4.IsWhole) (a5 : Memref sig .tc .vmem S1x256 .f32) (h5 : a5.IsWhole) (a6 : Memref sig .tc .vmem S1x256 .f32) (h6 : a6.IsWhole) (hc : cond0_0 i) (x0 : Vec F S2048x256 .f32) (x1 : Vec F S1x256 .f32) (x2 : Vec F S256x256 .bf16) :
    out0_A_5 c i a1 h1 a2 h2 a3 h3 a4 h4 a5 h5 a6 h6 hc x0 x1 x2 = k0_pay1 (k0_pay2 x0 x1 x2) (k0_pay4 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x256) hz2, View.readCov_unit_zero (S := S1x256) _ hz2]
  simp only [View.readAt_eq_ld, h1.read_unread, h2.read_unread, h3.read_unread,
    View.ld_unit_zero (S := S2048x256) hz2, View.ld_unit_zero (S := S1x256) hz2, View.ld_unit_zero (S := S256x256) hz2]

/-- A later point: the running row of sums grows from what the point before left. -/
theorem outB4 (c : Dev nD) (i : grid0.Coords) (a1 : Memref sig .tc .vmem S2048x256 .f32) (h1 : a1.IsWhole) (a2 : Memref sig .tc .vmem S1x256 .f32) (h2 : a2.IsWhole) (a3 : Memref sig .tc .vmem S256x256 .bf16) (h3 : a3.IsWhole) (a4 : Memref sig .tc .vmem S2048x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2048x256 .f32) (x1 : Vec F S1x256 .f32) (x2 : Vec F S256x256 .bf16) (xo4 xo5 : Vec F S1x256 .f32) :
    out0_B_4 c i a1 h1 a2 h2 a3 h3 a4 h4 a5 h5 a6 h6 hc x0 x1 x2 xo4 xo5 = k0_pay5 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S2048x256) hz2, View.ld_unit_zero (S := S1x256) hz2, View.ld_unit_zero (S := S256x256) hz2]

/-- A later point: the running row of sums of squares grows from what the point before left. -/
theorem outB5 (c : Dev nD) (i : grid0.Coords) (a1 : Memref sig .tc .vmem S2048x256 .f32) (h1 : a1.IsWhole) (a2 : Memref sig .tc .vmem S1x256 .f32) (h2 : a2.IsWhole) (a3 : Memref sig .tc .vmem S256x256 .bf16) (h3 : a3.IsWhole) (a4 : Memref sig .tc .vmem S2048x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2048x256 .f32) (x1 : Vec F S1x256 .f32) (x2 : Vec F S256x256 .bf16) (xo4 xo5 : Vec F S1x256 .f32) :
    out0_B_5 c i a1 h1 a2 h2 a3 h3 a4 h4 a5 h5 a6 h6 hc x0 x1 x2 xo4 xo5 = k0_pay1 (k0_pay2 x0 x1 x2) xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S2048x256) hz2, View.ld_unit_zero (S := S1x256) hz2, View.ld_unit_zero (S := S256x256) hz2]

end Pieces

/-! ## The windows' blocks, read off the arrays -/

variable (V : (c : Dev nD) → (b : Ref sig .tc) → Buf (Elt Ideal) ((c : Thread nD τ).loc b))

/-- The printed index maps, decided over the grid: the row windows move with the point, the others stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt127 : 127 < cfg0.N := by rw [show cfg0.N = 128 from N_0]; decide

theorem lt128 (t : Fin cfg0.N) : t.val < 128 := lt_of_lt_of_eq t.isLt (show cfg0.N = 128 from N_0)

/-- Row p of block t of the input is row 2048·t + p of the array. -/
theorem iblk_0 (c : Dev nD) (t : Fin cfg0.N) (p : Fin 2048) (k : Fin 256) :
    (iblk0 V c 0 t : Vec Ideal S2048x256 .f32) (ix2 p k) = V c main_v18 (ix2 (rowOf t.val (lt128 t) p) k) := by
  obtain ⟨e00, e01, -⟩ := idx_facts t
  unfold iblk0
  rw [View.read_apply]
  show V c main_v18 _ = V c main_v18 _
  congr 1
  funext a
  apply Fin.ext
  match a with
  | ⟨0, _⟩ => show win0_0.index t (0 : Fin 2) * 2048 + 1 * p.val = 2048 * t.val + p.val; rw [e00]; omega
  | ⟨1, _⟩ => show win0_0.index t (1 : Fin 2) * 256 + 1 * k.val = k.val; rw [e01]; omega

/-- Window 1's block is the whole array at every point. -/
theorem iblk_1 (c : Dev nD) (t : Fin cfg0.N) : (iblk0 V c 1 t : Vec Ideal S1x256 .f32) = V c main_v19 := by
  obtain ⟨-, -, e10, e11, -⟩ := idx_facts t
  funext j
  unfold iblk0
  rw [View.read_apply]
  show V c main_v19 _ = V c main_v19 j
  congr 1
  funext a
  apply Fin.ext
  match a with
  | ⟨0, _⟩ => show win0_1.index t (0 : Fin 2) * 1 + 1 * (j 0).val = (j 0).val; rw [e10]; omega
  | ⟨1, _⟩ => show win0_1.index t (1 : Fin 2) * 256 + 1 * (j 1).val = (j 1).val; rw [e11]; omega

/-- Window 2's block is the whole array at every point. -/
theorem iblk_2 (c : Dev nD) (t : Fin cfg0.N) : (iblk0 V c 2 t : Vec Ideal S256x256 .bf16) = V c main_v25 := by
  obtain ⟨-, -, -, -, e20, e21, -⟩ := idx_facts t
  funext j
  unfold iblk0
  rw [View.read_apply]
  show V c main_v25 _ = V c main_v25 j
  congr 1
  funext a
  apply Fin.ext
  match a with
  | ⟨0, _⟩ => show win0_2.index t (0 : Fin 2) * 256 + 1 * (j 0).val = (j 0).val; rw [e20]; omega
  | ⟨1, _⟩ => show win0_2.index t (1 : Fin 2) * 256 + 1 * (j 1).val = (j 1).val; rw [e21]; omega

/-! ## The product array -/

/-- The product: the layer-normalised input times the weight matrix, entry by entry. -/
def lin (c : Dev nD) : S262144x256.Idx → EReal := fun i =>
  ∑ k : Fin 256, layerNorm (rows (n := 262144) (d := 256) (V c main_v18)) (row0 (d := 256) (V c main_v19)) (i 0) k * V c main_v25 (ix2 k (i 1))

/-- Block t of the product, row p, is row 2048·t + p of the product array. -/
theorem blk_eq (c : Dev nD) (t : Fin cfg0.N) (p : Fin 2048) (q : Fin 256) :
    k0_pay2 (F := Ideal) (iblk0 V c 0 t) (iblk0 V c 1 t) (iblk0 V c 2 t) (ix2 p q) = lin V c (ix2 (rowOf t.val (lt128 t) p) q) := by
  refine (pay0_lin (iblk0 V c 0 t) (iblk0 V c 1 t) (iblk0 V c 2 t) p q).trans ?_
  unfold lin
  refine Finset.sum_congr rfl fun k _ => ?_
  rw [iblk_1 V c t, iblk_2 V c t]
  unfold layerNorm rowVar rowMean rows
  simp only [iblk_0 V c t p]

/-! ## The outputs after each point -/

/-- After point n: the product block of point n; the running rows at the sums over the first n + 1 blocks. -/
theorem outs_eq (c : Dev nD) : ∀ (n : ℕ) (h : n < cfg0.N),
    (outsAt0 V c n h).1 = k0_pay2 (F := Ideal) (iblk0 V c 0 ⟨n, h⟩) (iblk0 V c 1 ⟨n, h⟩) (iblk0 V c 2 ⟨n, h⟩)
    ∧ (∀ (z : Fin 1) (q : Fin 256), (outsAt0 V c n h).2.1 (ix2 z q) = partialBlocks (fun e : Fin 262144 => lin V c (ix2 e q)) 2048 (n + 1))
    ∧ (∀ (z : Fin 1) (q : Fin 256), (outsAt0 V c n h).2.2 (ix2 z q)
        = partialBlocks (fun e : Fin 262144 => lin V c (ix2 e q) * lin V c (ix2 e q)) 2048 (n + 1))
  | 0, h => by
    have e : outsAt0 V c 0 h = _ := outsAt0_A V c ⟨0, h⟩ rfl
    rw [e]
    dsimp only
    refine ⟨outA3 .., fun z q => ?_, fun z q => ?_⟩
    · rw [outA4, pay0_sum, pay0_zero3]
      exact acc_first (fun e : Fin 262144 => lin V c (ix2 e q)) _ (fun p => blk_eq V c ⟨0, h⟩ p q)
    · rw [outA5, pay0_sq, pay0_zero4]
      exact acc_first (fun e : Fin 262144 => lin V c (ix2 e q) * lin V c (ix2 e q)) _
        (fun p => by rw [blk_eq V c ⟨0, h⟩ p q])
  | n + 1, h => by
    have hN : cfg0.N = 128 := N_0
    have hB : ¬(⟨n + 1, h⟩ : Fin cfg0.N).val % 128 = 0 := by dsimp only; omega
    obtain ⟨ih1, ih2, ih3⟩ := outs_eq c n (Nat.lt_of_succ_lt h)
    have e : outsAt0 V c (n + 1) h = _ := outsAt0_B V c ⟨n + 1, h⟩ hB
    rw [e]
    dsimp only
    refine ⟨outB3 .., fun z q => ?_, fun z q => ?_⟩
    · rw [outB4, pay0_sum]
      show (outsAt0 V c n _).2.1 (ix2 z q) + _ = _
      rw [ih2 z q]
      exact acc_step (fun e : Fin 262144 => lin V c (ix2 e q)) n (by omega) _ (fun p => blk_eq V c ⟨n + 1, h⟩ p q)
    · rw [outB5, pay0_sq]
      show (outsAt0 V c n _).2.2 (ix2 z q) + _ = _
      rw [ih3 z q]
      exact acc_step (fun e : Fin 262144 => lin V c (ix2 e q) * lin V c (ix2 e q)) n (by omega) _
        (fun p => by rw [blk_eq V c ⟨n + 1, h⟩ p q])

/-! ## The arrays after the run -/

theorem mem_blk3 (t : Fin cfg0.N) (i : S262144x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v26_0).slice (win0_3.rect t)).set ↔ _
  rw [View.set_slice_whole, Rect.mem_set_unit]
  exact Iff.rfl

/-- What point t writes back is block t of the product array. -/
theorem flushed3 (c : Dev nD) (t : Fin cfg0.N) :
    (dat0 V c).flushed 3 t = ((cfg0.win 3).blk t).view.read (Elt Ideal) (lin V c) := by
  show (cfg0.win 3).cut (grid0.coords t) ((dat0 V c).after 3 t) = _
  rw [after0_3, (outs_eq V c t.val t.isLt).1]
  obtain ⟨-, -, -, -, -, -, e30, e31, e40, e41, e50, e51⟩ := idx_facts t
  funext j
  obtain ⟨p, q, rfl⟩ : ∃ (p : Fin 2048) (q : Fin 256), j = ix2 p q := ⟨j 0, j 1, eq_ix2 j⟩
  show k0_pay2 (F := Ideal) (iblk0 V c 0 t) (iblk0 V c 1 t) (iblk0 V c 2 t) (ix2 p q) = lin V c (((cfg0.win 3).blk t).view.emb (ix2 p q))
  rw [blk_eq V c t p q]
  congr 1
  funext a
  apply Fin.ext
  match a with
  | ⟨0, _⟩ => show 2048 * t.val + p.val = win0_3.index t (0 : Fin 2) * 2048 + 1 * p.val; rw [e30]; omega
  | ⟨1, _⟩ => show q.val = win0_3.index t (1 : Fin 2) * 256 + 1 * q.val; rw [e31]; omega

/-- So the product array ends at the product, every row in the block of its point. -/
theorem arr3 (c : Dev nD) : (dat0 V c).arrAt 3 cfg0.N = lin V c :=
  (dat0 V c).arrAt_eq_of_cover 3 (lin V c) (fun t _ => flushed3 V c t) fun i => by
    have hN : cfg0.N = 128 := N_0
    have hi0 : (i 0).val < 262144 := (i 0).isLt
    have hi1 : (i 1).val < 256 := (i 1).isLt
    have ht : (i 0).val / 2048 < cfg0.N := by rw [hN]; omega
    obtain ⟨-, -, -, -, -, -, e30, e31, e40, e41, e50, e51⟩ := idx_facts (⟨(i 0).val / 2048, ht⟩ : Fin cfg0.N)
    refine ⟨⟨(i 0).val / 2048, ht⟩, flush0_3 _, ?_⟩
    rw [mem_blk3]
    intro a
    match a with
    | ⟨0, _⟩ => show win0_3.index _ (0 : Fin 2) * 2048 ≤ (i 0).val ∧ (i 0).val < win0_3.index _ (0 : Fin 2) * 2048 + 2048; rw [e30]; dsimp only; omega
    | ⟨1, _⟩ => show win0_3.index _ (1 : Fin 2) * 256 ≤ (i 1).val ∧ (i 1).val < win0_3.index _ (1 : Fin 2) * 256 + 256; rw [e31]; omega

/-- The product's column sums over all rows. -/
def sums (c : Dev nD) : S1x256.Idx → EReal := fun i => ∑ e : Fin 262144, lin V c (ix2 e (i 1))

theorem mem_blk4 (t : Fin cfg0.N) (i : S1x256.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v26_1).slice (win0_4.rect t)).set ↔ _
  rw [View.set_slice_whole, Rect.mem_set_unit]
  exact Iff.rfl

/-- The one write-back of the running row, after the last point, writes the sums over all rows. -/
theorem flushed4 (c : Dev nD) (t : Fin cfg0.N) (hf : (cfg0.win 4).flush t = true) :
    (dat0 V c).flushed 4 t = ((cfg0.win 4).blk t).view.read (Elt Ideal) (sums V c) := by
  have hN : cfg0.N = 128 := N_0
  have h127 : t.val = 127 := by have := (flush0_4 t).mp hf; have := lt128 t; omega
  have hO : (outsAt0 V c t.val t.isLt).2.1 = sums V c := by
    funext j
    obtain ⟨z, q, rfl⟩ : ∃ (z : Fin 1) (q : Fin 256), j = ix2 z q := ⟨j 0, j 1, eq_ix2 j⟩
    exact ((outs_eq V c t.val t.isLt).2.1 z q).trans
      ((congrArg (partialBlocks (fun e : Fin 262144 => lin V c (ix2 e q)) 2048) (show t.val + 1 = 128 by omega)).trans (acc_full (fun e : Fin 262144 => lin V c (ix2 e q))))
  have hA : (dat0 V c).after 4 t = sums V c := (after0_4 V c t).trans hO
  show (cfg0.win 4).cut (grid0.coords t) ((dat0 V c).after 4 t) = _
  rw [hA]
  obtain rfl : t = (⟨127, lt127⟩ : Fin cfg0.N) := Fin.ext h127
  have hz' : (fun a => win0_4.index (⟨127, lt127⟩ : Fin cfg0.N) a * main_v26_1.ty.shape.size a) = fun _ => 0 :=
    funext fun a => by fin_cases a <;> decide +kernel
  exact (Memref.read_access_unit_zero (Elt Ideal) main_v26_1 hz' (fun a => by rw [congrFun hz' a]; simp) (sums V c)).symm

/-- So the array ends at the sums over all rows. -/
theorem arr4 (c : Dev nD) : (dat0 V c).arrAt 4 cfg0.N = sums V c :=
  (dat0 V c).arrAt_eq_of_cover 4 (sums V c) (flushed4 V c) fun i => by
    have hN : cfg0.N = 128 := N_0
    have hi0 : (i 0).val < 1 := (i 0).isLt
    have hi1 : (i 1).val < 256 := (i 1).isLt
    obtain ⟨-, -, -, -, -, -, e30, e31, e40, e41, e50, e51⟩ := idx_facts (⟨127, lt127⟩ : Fin cfg0.N)
    refine ⟨⟨127, lt127⟩, (flush0_4 _).mpr rfl, ?_⟩
    rw [mem_blk4]
    intro a
    match a with
    | ⟨0, _⟩ => show win0_4.index _ (0 : Fin 2) * 1 ≤ (i 0).val ∧ (i 0).val < win0_4.index _ (0 : Fin 2) * 1 + 1; rw [e40]; omega
    | ⟨1, _⟩ => show win0_4.index _ (1 : Fin 2) * 256 ≤ (i 1).val ∧ (i 1).val < win0_4.index _ (1 : Fin 2) * 256 + 256; rw [e41]; omega

/-- The product's column sums of squares over all rows. -/
def sumsqs (c : Dev nD) : S1x256.Idx → EReal := fun i => ∑ e : Fin 262144, lin V c (ix2 e (i 1)) * lin V c (ix2 e (i 1))

theorem mem_blk5 (t : Fin cfg0.N) (i : S1x256.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v26_2).slice (win0_5.rect t)).set ↔ _
  rw [View.set_slice_whole, Rect.mem_set_unit]
  exact Iff.rfl

/-- The one write-back of the running row, after the last point, writes the sums over all rows. -/
theorem flushed5 (c : Dev nD) (t : Fin cfg0.N) (hf : (cfg0.win 5).flush t = true) :
    (dat0 V c).flushed 5 t = ((cfg0.win 5).blk t).view.read (Elt Ideal) (sumsqs V c) := by
  have hN : cfg0.N = 128 := N_0
  have h127 : t.val = 127 := by have := (flush0_5 t).mp hf; have := lt128 t; omega
  have hO : (outsAt0 V c t.val t.isLt).2.2 = sumsqs V c := by
    funext j
    obtain ⟨z, q, rfl⟩ : ∃ (z : Fin 1) (q : Fin 256), j = ix2 z q := ⟨j 0, j 1, eq_ix2 j⟩
    exact ((outs_eq V c t.val t.isLt).2.2 z q).trans
      ((congrArg (partialBlocks (fun e : Fin 262144 => lin V c (ix2 e q) * lin V c (ix2 e q)) 2048) (show t.val + 1 = 128 by omega)).trans (acc_full (fun e : Fin 262144 => lin V c (ix2 e q) * lin V c (ix2 e q))))
  have hA : (dat0 V c).after 5 t = sumsqs V c := (after0_5 V c t).trans hO
  show (cfg0.win 5).cut (grid0.coords t) ((dat0 V c).after 5 t) = _
  rw [hA]
  obtain rfl : t = (⟨127, lt127⟩ : Fin cfg0.N) := Fin.ext h127
  have hz' : (fun a => win0_5.index (⟨127, lt127⟩ : Fin cfg0.N) a * main_v26_2.ty.shape.size a) = fun _ => 0 :=
    funext fun a => by fin_cases a <;> decide +kernel
  exact (Memref.read_access_unit_zero (Elt Ideal) main_v26_2 hz' (fun a => by rw [congrFun hz' a]; simp) (sumsqs V c)).symm

/-- So the array ends at the sums over all rows. -/
theorem arr5 (c : Dev nD) : (dat0 V c).arrAt 5 cfg0.N = sumsqs V c :=
  (dat0 V c).arrAt_eq_of_cover 5 (sumsqs V c) (flushed5 V c) fun i => by
    have hN : cfg0.N = 128 := N_0
    have hi0 : (i 0).val < 1 := (i 0).isLt
    have hi1 : (i 1).val < 256 := (i 1).isLt
    obtain ⟨-, -, -, -, -, -, e30, e31, e40, e41, e50, e51⟩ := idx_facts (⟨127, lt127⟩ : Fin cfg0.N)
    refine ⟨⟨127, lt127⟩, (flush0_5 _).mpr rfl, ?_⟩
    rw [mem_blk5]
    intro a
    match a with
    | ⟨0, _⟩ => show win0_5.index _ (0 : Fin 2) * 1 ≤ (i 0).val ∧ (i 0).val < win0_5.index _ (0 : Fin 2) * 1 + 1; rw [e50]; omega
    | ⟨1, _⟩ => show win0_5.index _ (1 : Fin 2) * 256 ≤ (i 1).val ∧ (i 1).val < win0_5.index _ (1 : Fin 2) * 256 + 256; rw [e51]; omega

/-! ## The arrays in the vocabulary of the specification -/

/-- The product array, by rows: the linear map of the layer-normalised input. -/
theorem lin_rows (c : Dev nD) (h : Fin 262144 → Fin 256 → EReal) (w : Fin 256 → EReal) (Wm : Fin 256 → Fin 256 → EReal)
    (hh : rows (n := 262144) (d := 256) (V c main_v18) = h) (hw1 : row0 (d := 256) (V c main_v19) = w)
    (hw : ∀ k q : Fin 256, V c main_v25 (ix2 k q) = Wm q k) :
    rows (n := 262144) (d := 256) (lin V c) = linear (layerNorm h w) Wm := by
  funext e q
  show lin V c (ix2 e q) = linear (layerNorm h w) Wm e q
  unfold lin linear
  rw [hh, hw1]
  exact Finset.sum_congr rfl fun k _ => congrArg (layerNorm h w e k * ·) (hw k q)

/-- The running row of sums ends at the product's column sums. -/
theorem sums_row0 (c : Dev nD) : row0 (d := 256) (sums V c) = colSum (rows (n := 262144) (d := 256) (lin V c)) := rfl

/-- The running row of sums of squares ends at the product's column sums of squares. -/
theorem sumsqs_row0 (c : Dev nD) : row0 (d := 256) (sumsqs V c) = colSumSq (rows (n := 262144) (d := 256) (lin V c)) := rfl

end Cert.KernelIdeal.Reg0

end
-- ==== Proof.KReg1.lean ====
/-
  The kernel that normalises a [262144, 256] array by given mean and variance rows, scales, shifts, rectifies, multiplies by a
  256×256 matrix, and accumulates the product's column sums and column sums of squares over the 128 row blocks
  (pipeline 1): what its three output arrays hold after the run, as functions of the arrays it is entered with.

  Block t of the product is a function of rows 2048·t … 2048·t + 2047 of the input only; the two running rows hold, after
  block t, the sums over the first t + 1 blocks, and after the last block the sums over all rows.
-/
import proofs.«171780_j3272765079679_2_alg».proof.Proof.Gen.KernelIdeal.Frame
import proofs.«171780_j3272765079679_2_alg».proof.Proof.KPay
import proofs.«171780_j3272765079679_2_alg».proof.Proof.Blocks
import proofs.«171780_j3272765079679_2_alg».proof.Proof.Layout
import Idealize.ShloMosaic.Lib.Pipeline.Value
import Idealize.ShloMosaic.Lib.ValueIdx

set_option maxRecDepth 16384

noncomputable section

namespace Cert.KernelIdeal.Reg1

open Cert.KernelIdeal Cert.KernelIdeal.Gen Cert.KernelIdeal.Pay Cert.EdgeNet Cert.AggMath
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-! ## What one grid point leaves in the output buffers -/

section Pieces
variable {F : FTy → Type} [FloatOps F]

/-- First point: the product block, stored whole. -/
theorem outA6 (c : Dev nD) (i : grid1.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : cond1_0 i) (x0 : Vec F S2048x256 .f32) (x1 x2 x3 x4 : Vec F S1x256 .f32) (x5 : Vec F S256x256 .bf16) :
    out1_A_6 c i a1 h1 a2 h2 a3 h3 a4 h4 a5 h5 a6 h6 a7 h7 a8 h8 a9 h9 hc x0 x1 x2 x3 x4 x5 = k1_pay3 x0 x1 x2 x3 x4 x5 := by
  unfold out1_A_6
  rw [View.read_writes_eq_canon _ _ _ (cover1_A_6 c i a1 h1 a2 h2 a3 h3 a4 h4 a5 h5 a6 h6 a7 h7 a8 h8 a9 h9 hc x0 x1 x2 x3 x4 x5)]
  unfold kernelRun1_A
  dsimp only
  rw [View.canon_unit_zero hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- A later point: the product block, stored whole. -/
theorem outB6 (c : Dev nD) (i : grid1.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : ¬cond1_0 i) (x0 : Vec F S2048x256 .f32) (x1 x2 x3 x4 : Vec F S1x256 .f32) (x5 : Vec F S256x256 .bf16) (xo7 xo8 : Vec F S1x256 .f32) :
    out1_B_6 c i a1 h1 a2 h2 a3 h3 a4 h4 a5 h5 a6 h6 a7 h7 a8 h8 a9 h9 hc x0 x1 x2 x3 x4 x5 xo7 xo8 = k1_pay3 x0 x1 x2 x3 x4 x5 := by
  unfold out1_B_6
  rw [View.read_writes_eq_canon _ _ _ (cover1_B_6 c i a1 h1 a2 h2 a3 h3 a4 h4 a5 h5 a6 h6 a7 h7 a8 h8 a9 h9 hc x0 x1 x2 x3 x4 x5 xo7 xo8)]
  unfold kernelRun1_B
  dsimp only
  rw [View.canon_unit_zero hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- First point: the running row of sums is reset to zero, read back, and increased by the block's column sums. -/
theorem outA7 (c : Dev nD) (i : grid1.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : cond1_0 i) (x0 : Vec F S2048x256 .f32) (x1 x2 x3 x4 : Vec F S1x256 .f32) (x5 : Vec F S256x256 .bf16) :
    out1_A_7 c i a1 h1 a2 h2 a3 h3 a4 h4 a5 h5 a6 h6 a7 h7 a8 h8 a9 h9 hc x0 x1 x2 x3 x4 x5 = k1_pay1 (k1_pay6 (k1_pay4 (F := F))) (k1_pay7 x0 x1 x2 x3 x4 x5) := by
  unfold out1_A_7
  rw [View.read_writes_eq_canon _ _ _ (cover1_A_7 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- First point: the running row of sums of squares is reset to zero, read back, and increased. -/
theorem outA8 (c : Dev nD) (i : grid1.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : cond1_0 i) (x0 : Vec F S2048x256 .f32) (x1 x2 x3 x4 : Vec F S1x256 .f32) (x5 : Vec F S256x256 .bf16) :
    out1_A_8 c i a1 h1 a2 h2 a3 h3 a4 h4 a5 h5 a6 h6 a7 h7 a8 h8 a9 h9 hc x0 x1 x2 x3 x4 x5 = k1_pay2 (k1_pay3 x0 x1 x2 x3 x4 x5) (k1_pay5 (F := F)) := by
  unfold out1_A_8
  rw [View.read_writes_eq_canon _ _ _ (cover1_A_8 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- A later point: the running row of sums grows from what the point before left. -/
theorem outB7 (c : Dev nD) (i : grid1.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : ¬cond1_0 i) (x0 : Vec F S2048x256 .f32) (x1 x2 x3 x4 : Vec F S1x256 .f32) (x5 : Vec F S256x256 .bf16) (xo7 xo8 : Vec F S1x256 .f32) :
    out1_B_7 c i a1 h1 a2 h2 a3 h3 a4 h4 a5 h5 a6 h6 a7 h7 a8 h8 a9 h9 hc x0 x1 x2 x3 x4 x5 xo7 xo8 = k1_pay1 (k1_pay6 xo7) (k1_pay7 x0 x1 x2 x3 x4 x5) := by
  unfold out1_B_7
  rw [View.read_writes_eq_canon _ _ _ (cover1_B_7 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz2]
  simp only [View.readAt_eq_ld, h1.read_unread, h2.read_unread, h3.read_unread, h4.read_unread, h5.read_unread, h6.read_unread, h8.read_unread, h9.read_unread,
    View.ld_unit_zero (S := S2048x256) hz2, View.ld_unit_zero (S := S1x256) hz2, View.ld_unit_zero (S := S256x256) hz2]

/-- A later point: the running row of sums of squares grows from what the point before left. -/
theorem outB8 (c : Dev nD) (i : grid1.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : ¬cond1_0 i) (x0 : Vec F S2048x256 .f32) (x1 x2 x3 x4 : Vec F S1x256 .f32) (x5 : Vec F S256x256 .bf16) (xo7 xo8 : Vec F S1x256 .f32) :
    out1_B_8 c i a1 h1 a2 h2 a3 h3 a4 h4 a5 h5 a6 h6 a7 h7 a8 h8 a9 h9 hc x0 x1 x2 x3 x4 x5 xo7 xo8 = k1_pay2 (k1_pay3 x0 x1 x2 x3 x4 x5) xo8 := by
  unfold out1_B_8
  rw [View.read_writes_eq_canon _ _ _ (cover1_B_8 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz2]
  simp only [View.readAt_eq_ld, h1.read_unread, h2.read_unread, h3.read_unread, h4.read_unread, h5.read_unread, h6.read_unread, h8.read_unread, h9.read_unread,
    View.ld_unit_zero (S := S2048x256) hz2, View.ld_unit_zero (S := S1x256) hz2, View.ld_unit_zero (S := S256x256) hz2]

end Pieces

/-! ## The windows' blocks, read off the arrays -/

variable (V : (c : Dev nD) → (b : Ref sig .tc) → Buf (Elt Ideal) ((c : Thread nD τ).loc b))

/-- The printed index maps, decided over the grid: the row windows move with the point, the others stay at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem lt127 : 127 < cfg1.N := by rw [show cfg1.N = 128 from N_1]; decide

theorem lt128 (t : Fin cfg1.N) : t.val < 128 := lt_of_lt_of_eq t.isLt (show cfg1.N = 128 from N_1)

/-- Row p of block t of the input is row 2048·t + p of the array. -/
theorem iblk_0 (c : Dev nD) (t : Fin cfg1.N) (p : Fin 2048) (k : Fin 256) :
    (iblk1 V c 0 t : Vec Ideal S2048x256 .f32) (ix2 p k) = V c main_v26_0 (ix2 (rowOf t.val (lt128 t) p) k) := by
  obtain ⟨e00, e01, -⟩ := idx_facts t
  unfold iblk1
  rw [View.read_apply]
  show V c main_v26_0 _ = V c main_v26_0 _
  congr 1
  funext a
  apply Fin.ext
  match a with
  | ⟨0, _⟩ => show win1_0.index t (0 : Fin 2) * 2048 + 1 * p.val = 2048 * t.val + p.val; rw [e00]; omega
  | ⟨1, _⟩ => show win1_0.index t (1 : Fin 2) * 256 + 1 * k.val = k.val; rw [e01]; omega

/-- Window 1's block is the whole array at every point. -/
theorem iblk_1 (c : Dev nD) (t : Fin cfg1.N) : (iblk1 V c 1 t : Vec Ideal S1x256 .f32) = V c main_v28 := by
  obtain ⟨-, -, e10, e11, e20, e21, e30, e31, e40, e41, e50, e51, -⟩ := idx_facts t
  funext j
  unfold iblk1
  rw [View.read_apply]
  show V c main_v28 _ = V c main_v28 j
  congr 1
  funext a
  apply Fin.ext
  match a with
  | ⟨0, _⟩ => show win1_1.index t (0 : Fin 2) * 1 + 1 * (j 0).val = (j 0).val; rw [e10]; omega
  | ⟨1, _⟩ => show win1_1.index t (1 : Fin 2) * 256 + 1 * (j 1).val = (j 1).val; rw [e11]; omega

/-- Window 2's block is the whole array at every point. -/
theorem iblk_2 (c : Dev nD) (t : Fin cfg1.N) : (iblk1 V c 2 t : Vec Ideal S1x256 .f32) = V c main_v34 := by
  obtain ⟨-, -, e10, e11, e20, e21, e30, e31, e40, e41, e50, e51, -⟩ := idx_facts t
  funext j
  unfold iblk1
  rw [View.read_apply]
  show V c main_v34 _ = V c main_v34 j
  congr 1
  funext a
  apply Fin.ext
  match a with
  | ⟨0, _⟩ => show win1_2.index t (0 : Fin 2) * 1 + 1 * (j 0).val = (j 0).val; rw [e20]; omega
  | ⟨1, _⟩ => show win1_2.index t (1 : Fin 2) * 256 + 1 * (j 1).val = (j 1).val; rw [e21]; omega

/-- Window 3's block is the whole array at every point. -/
theorem iblk_3 (c : Dev nD) (t : Fin cfg1.N) : (iblk1 V c 3 t : Vec Ideal S1x256 .f32) = V c main_v36 := by
  obtain ⟨-, -, e10, e11, e20, e21, e30, e31, e40, e41, e50, e51, -⟩ := idx_facts t
  funext j
  unfold iblk1
  rw [View.read_apply]
  show V c main_v36 _ = V c main_v36 j
  congr 1
  funext a
  apply Fin.ext
  match a with
  | ⟨0, _⟩ => show win1_3.index t (0 : Fin 2) * 1 + 1 * (j 0).val = (j 0).val; rw [e30]; omega
  | ⟨1, _⟩ => show win1_3.index t (1 : Fin 2) * 256 + 1 * (j 1).val = (j 1).val; rw [e31]; omega

/-- Window 4's block is the whole array at every point. -/
theorem iblk_4 (c : Dev nD) (t : Fin cfg1.N) : (iblk1 V c 4 t : Vec Ideal S1x256 .f32) = V c main_v38 := by
  obtain ⟨-, -, e10, e11, e20, e21, e30, e31, e40, e41, e50, e51, -⟩ := idx_facts t
  funext j
  unfold iblk1
  rw [View.read_apply]
  show V c main_v38 _ = V c main_v38 j
  congr 1
  funext a
  apply Fin.ext
  match a with
  | ⟨0, _⟩ => show win1_4.index t (0 : Fin 2) * 1 + 1 * (j 0).val = (j 0).val; rw [e40]; omega
  | ⟨1, _⟩ => show win1_4.index t (1 : Fin 2) * 256 + 1 * (j 1).val = (j 1).val; rw [e41]; omega

/-- Window 5's block is the whole array at every point. -/
theorem iblk_5 (c : Dev nD) (t : Fin cfg1.N) : (iblk1 V c 5 t : Vec Ideal S256x256 .bf16) = V c main_v40 := by
  obtain ⟨-, -, e10, e11, e20, e21, e30, e31, e40, e41, e50, e51, -⟩ := idx_facts t
  funext j
  unfold iblk1
  rw [View.read_apply]
  show V c main_v40 _ = V c main_v40 j
  congr 1
  funext a
  apply Fin.ext
  match a with
  | ⟨0, _⟩ => show win1_5.index t (0 : Fin 2) * 256 + 1 * (j 0).val = (j 0).val; rw [e50]; omega
  | ⟨1, _⟩ => show win1_5.index t (1 : Fin 2) * 256 + 1 * (j 1).val = (j 1).val; rw [e51]; omega

/-! ## The product array -/

/-- The product: the normalised, rectified input times the weight matrix, entry by entry. -/
def lin (c : Dev nD) : S262144x256.Idx → EReal := fun i =>
  ∑ k : Fin 256, normReluBy (rows (n := 262144) (d := 256) (V c main_v26_0)) (row0 (d := 256) (V c main_v28)) (row0 (d := 256) (V c main_v34))
    (row0 (d := 256) (V c main_v36)) (row0 (d := 256) (V c main_v38)) (i 0) k * V c main_v40 (ix2 k (i 1))

/-- Block t of the product, row p, is row 2048·t + p of the product array. -/
theorem blk_eq (c : Dev nD) (t : Fin cfg1.N) (p : Fin 2048) (q : Fin 256) :
    k1_pay3 (F := Ideal) (iblk1 V c 0 t) (iblk1 V c 1 t) (iblk1 V c 2 t) (iblk1 V c 3 t) (iblk1 V c 4 t) (iblk1 V c 5 t) (ix2 p q) = lin V c (ix2 (rowOf t.val (lt128 t) p) q) := by
  refine (pay1_lin (iblk1 V c 0 t) (iblk1 V c 1 t) (iblk1 V c 2 t) (iblk1 V c 3 t) (iblk1 V c 4 t) (iblk1 V c 5 t) p q).trans ?_
  unfold lin
  refine Finset.sum_congr rfl fun k _ => ?_
  rw [iblk_1 V c t, iblk_2 V c t, iblk_3 V c t, iblk_4 V c t, iblk_5 V c t]
  unfold normReluBy rows
  rw [iblk_0 V c t p k]

/-! ## The outputs after each point -/

/-- After point n: the product block of point n; the running rows at the sums over the first n + 1 blocks. -/
theorem outs_eq (c : Dev nD) : ∀ (n : ℕ) (h : n < cfg1.N),
    (outsAt1 V c n h).1 = k1_pay3 (F := Ideal) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩)
    ∧ (∀ (z : Fin 1) (q : Fin 256), (outsAt1 V c n h).2.1 (ix2 z q) = partialBlocks (fun e : Fin 262144 => lin V c (ix2 e q)) 2048 (n + 1))
    ∧ (∀ (z : Fin 1) (q : Fin 256), (outsAt1 V c n h).2.2 (ix2 z q)
        = partialBlocks (fun e : Fin 262144 => lin V c (ix2 e q) * lin V c (ix2 e q)) 2048 (n + 1))
  | 0, h => by
    have e : outsAt1 V c 0 h = _ := outsAt1_A V c ⟨0, h⟩ rfl
    rw [e]
    dsimp only
    refine ⟨outA6 .., fun z q => ?_, fun z q => ?_⟩
    · rw [outA7, pay1_add, pay1_id, pay1_zero4, pay1_sum]
      exact acc_first (fun e : Fin 262144 => lin V c (ix2 e q)) _ (fun p => blk_eq V c ⟨0, h⟩ p q)
    · rw [outA8, pay1_sq, pay1_zero5]
      exact acc_first (fun e : Fin 262144 => lin V c (ix2 e q) * lin V c (ix2 e q)) _
        (fun p => by rw [blk_eq V c ⟨0, h⟩ p q])
  | n + 1, h => by
    have hN : cfg1.N = 128 := N_1
    have hB : ¬(⟨n + 1, h⟩ : Fin cfg1.N).val % 128 = 0 := by dsimp only; omega
    obtain ⟨ih1, ih2, ih3⟩ := outs_eq c n (Nat.lt_of_succ_lt h)
    have e : outsAt1 V c (n + 1) h = _ := outsAt1_B V c ⟨n + 1, h⟩ hB
    rw [e]
    dsimp only
    refine ⟨outB6 .., fun z q => ?_, fun z q => ?_⟩
    · rw [outB7, pay1_add, pay1_id, pay1_sum]
      show (outsAt1 V c n _).2.1 (ix2 z q) + _ = _
      rw [ih2 z q]
      exact acc_step (fun e : Fin 262144 => lin V c (ix2 e q)) n (by omega) _ (fun p => blk_eq V c ⟨n + 1, h⟩ p q)
    · rw [outB8, pay1_sq]
      show (outsAt1 V c n _).2.2 (ix2 z q) + _ = _
      rw [ih3 z q]
      exact acc_step (fun e : Fin 262144 => lin V c (ix2 e q) * lin V c (ix2 e q)) n (by omega) _
        (fun p => by rw [blk_eq V c ⟨n + 1, h⟩ p q])

/-! ## The arrays after the run -/

theorem mem_blk6 (t : Fin cfg1.N) (i : S262144x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v41_0).slice (win1_6.rect t)).set ↔ _
  rw [View.set_slice_whole, Rect.mem_set_unit]
  exact Iff.rfl

/-- What point t writes back is block t of the product array. -/
theorem flushed6 (c : Dev nD) (t : Fin cfg1.N) :
    (dat1 V c).flushed 6 t = ((cfg1.win 6).blk t).view.read (Elt Ideal) (lin V c) := by
  show (cfg1.win 6).cut (grid1.coords t) ((dat1 V c).after 6 t) = _
  rw [after1_6, (outs_eq V c t.val t.isLt).1]
  obtain ⟨-, -, -, -, -, -, -, -, -, -, -, -, e60, e61, e70, e71, e80, e81⟩ := idx_facts t
  funext j
  obtain ⟨p, q, rfl⟩ : ∃ (p : Fin 2048) (q : Fin 256), j = ix2 p q := ⟨j 0, j 1, eq_ix2 j⟩
  show k1_pay3 (F := Ideal) (iblk1 V c 0 t) (iblk1 V c 1 t) (iblk1 V c 2 t) (iblk1 V c 3 t) (iblk1 V c 4 t) (iblk1 V c 5 t) (ix2 p q) = lin V c (((cfg1.win 6).blk t).view.emb (ix2 p q))
  rw [blk_eq V c t p q]
  congr 1
  funext a
  apply Fin.ext
  match a with
  | ⟨0, _⟩ => show 2048 * t.val + p.val = win1_6.index t (0 : Fin 2) * 2048 + 1 * p.val; rw [e60]; omega
  | ⟨1, _⟩ => show q.val = win1_6.index t (1 : Fin 2) * 256 + 1 * q.val; rw [e61]; omega

/-- So the product array ends at the product, every row in the block of its point. -/
theorem arr6 (c : Dev nD) : (dat1 V c).arrAt 6 cfg1.N = lin V c :=
  (dat1 V c).arrAt_eq_of_cover 6 (lin V c) (fun t _ => flushed6 V c t) fun i => by
    have hN : cfg1.N = 128 := N_1
    have hi0 : (i 0).val < 262144 := (i 0).isLt
    have hi1 : (i 1).val < 256 := (i 1).isLt
    have ht : (i 0).val / 2048 < cfg1.N := by rw [hN]; omega
    obtain ⟨-, -, -, -, -, -, -, -, -, -, -, -, e60, e61, e70, e71, e80, e81⟩ := idx_facts (⟨(i 0).val / 2048, ht⟩ : Fin cfg1.N)
    refine ⟨⟨(i 0).val / 2048, ht⟩, flush1_6 _, ?_⟩
    rw [mem_blk6]
    intro a
    match a with
    | ⟨0, _⟩ => show win1_6.index _ (0 : Fin 2) * 2048 ≤ (i 0).val ∧ (i 0).val < win1_6.index _ (0 : Fin 2) * 2048 + 2048; rw [e60]; dsimp only; omega
    | ⟨1, _⟩ => show win1_6.index _ (1 : Fin 2) * 256 ≤ (i 1).val ∧ (i 1).val < win1_6.index _ (1 : Fin 2) * 256 + 256; rw [e61]; omega

/-- The product's column sums over all rows. -/
def sums (c : Dev nD) : S1x256.Idx → EReal := fun i => ∑ e : Fin 262144, lin V c (ix2 e (i 1))

theorem mem_blk7 (t : Fin cfg1.N) (i : S1x256.Idx) :
    i ∈ ((cfg1.win 7).blk t).view.set ↔ ∀ a : Fin 2, win1_7.index t a * S1x256.size a ≤ (i a).val ∧ (i a).val < win1_7.index t a * S1x256.size a + S1x256.size a := by
  show i ∈ ((View.whole main_v41_1).slice (win1_7.rect t)).set ↔ _
  rw [View.set_slice_whole, Rect.mem_set_unit]
  exact Iff.rfl

/-- The one write-back of the running row, after the last point, writes the sums over all rows. -/
theorem flushed7 (c : Dev nD) (t : Fin cfg1.N) (hf : (cfg1.win 7).flush t = true) :
    (dat1 V c).flushed 7 t = ((cfg1.win 7).blk t).view.read (Elt Ideal) (sums V c) := by
  have hN : cfg1.N = 128 := N_1
  have h127 : t.val = 127 := by have := (flush1_7 t).mp hf; have := lt128 t; omega
  have hO : (outsAt1 V c t.val t.isLt).2.1 = sums V c := by
    funext j
    obtain ⟨z, q, rfl⟩ : ∃ (z : Fin 1) (q : Fin 256), j = ix2 z q := ⟨j 0, j 1, eq_ix2 j⟩
    exact ((outs_eq V c t.val t.isLt).2.1 z q).trans
      ((congrArg (partialBlocks (fun e : Fin 262144 => lin V c (ix2 e q)) 2048) (show t.val + 1 = 128 by omega)).trans (acc_full (fun e : Fin 262144 => lin V c (ix2 e q))))
  have hA : (dat1 V c).after 7 t = sums V c := (after1_7 V c t).trans hO
  show (cfg1.win 7).cut (grid1.coords t) ((dat1 V c).after 7 t) = _
  rw [hA]
  obtain rfl : t = (⟨127, lt127⟩ : Fin cfg1.N) := Fin.ext h127
  have hz' : (fun a => win1_7.index (⟨127, lt127⟩ : Fin cfg1.N) a * main_v41_1.ty.shape.size a) = fun _ => 0 :=
    funext fun a => by fin_cases a <;> decide +kernel
  exact (Memref.read_access_unit_zero (Elt Ideal) main_v41_1 hz' (fun a => by rw [congrFun hz' a]; simp) (sums V c)).symm

/-- So the array ends at the sums over all rows. -/
theorem arr7 (c : Dev nD) : (dat1 V c).arrAt 7 cfg1.N = sums V c :=
  (dat1 V c).arrAt_eq_of_cover 7 (sums V c) (flushed7 V c) fun i => by
    have hN : cfg1.N = 128 := N_1
    have hi0 : (i 0).val < 1 := (i 0).isLt
    have hi1 : (i 1).val < 256 := (i 1).isLt
    obtain ⟨-, -, -, -, -, -, -, -, -, -, -, -, e60, e61, e70, e71, e80, e81⟩ := idx_facts (⟨127, lt127⟩ : Fin cfg1.N)
    refine ⟨⟨127, lt127⟩, (flush1_7 _).mpr rfl, ?_⟩
    rw [mem_blk7]
    intro a
    match a with
    | ⟨0, _⟩ => show win1_7.index _ (0 : Fin 2) * 1 ≤ (i 0).val ∧ (i 0).val < win1_7.index _ (0 : Fin 2) * 1 + 1; rw [e70]; omega
    | ⟨1, _⟩ => show win1_7.index _ (1 : Fin 2) * 256 ≤ (i 1).val ∧ (i 1).val < win1_7.index _ (1 : Fin 2) * 256 + 256; rw [e71]; omega

/-- The product's column sums of squares over all rows. -/
def sumsqs (c : Dev nD) : S1x256.Idx → EReal := fun i => ∑ e : Fin 262144, lin V c (ix2 e (i 1)) * lin V c (ix2 e (i 1))

theorem mem_blk8 (t : Fin cfg1.N) (i : S1x256.Idx) :
    i ∈ ((cfg1.win 8).blk t).view.set ↔ ∀ a : Fin 2, win1_8.index t a * S1x256.size a ≤ (i a).val ∧ (i a).val < win1_8.index t a * S1x256.size a + S1x256.size a := by
  show i ∈ ((View.whole main_v41_2).slice (win1_8.rect t)).set ↔ _
  rw [View.set_slice_whole, Rect.mem_set_unit]
  exact Iff.rfl

/-- The one write-back of the running row, after the last point, writes the sums over all rows. -/
theorem flushed8 (c : Dev nD) (t : Fin cfg1.N) (hf : (cfg1.win 8).flush t = true) :
    (dat1 V c).flushed 8 t = ((cfg1.win 8).blk t).view.read (Elt Ideal) (sumsqs V c) := by
  have hN : cfg1.N = 128 := N_1
  have h127 : t.val = 127 := by have := (flush1_8 t).mp hf; have := lt128 t; omega
  have hO : (outsAt1 V c t.val t.isLt).2.2 = sumsqs V c := by
    funext j
    obtain ⟨z, q, rfl⟩ : ∃ (z : Fin 1) (q : Fin 256), j = ix2 z q := ⟨j 0, j 1, eq_ix2 j⟩
    exact ((outs_eq V c t.val t.isLt).2.2 z q).trans
      ((congrArg (partialBlocks (fun e : Fin 262144 => lin V c (ix2 e q) * lin V c (ix2 e q)) 2048) (show t.val + 1 = 128 by omega)).trans (acc_full (fun e : Fin 262144 => lin V c (ix2 e q) * lin V c (ix2 e q))))
  have hA : (dat1 V c).after 8 t = sumsqs V c := (after1_8 V c t).trans hO
  show (cfg1.win 8).cut (grid1.coords t) ((dat1 V c).after 8 t) = _
  rw [hA]
  obtain rfl : t = (⟨127, lt127⟩ : Fin cfg1.N) := Fin.ext h127
  have hz' : (fun a => win1_8.index (⟨127, lt127⟩ : Fin cfg1.N) a * main_v41_2.ty.shape.size a) = fun _ => 0 :=
    funext fun a => by fin_cases a <;> decide +kernel
  exact (Memref.read_access_unit_zero (Elt Ideal) main_v41_2 hz' (fun a => by rw [congrFun hz' a]; simp) (sumsqs V c)).symm

/-- So the array ends at the sums over all rows. -/
theorem arr8 (c : Dev nD) : (dat1 V c).arrAt 8 cfg1.N = sumsqs V c :=
  (dat1 V c).arrAt_eq_of_cover 8 (sumsqs V c) (flushed8 V c) fun i => by
    have hN : cfg1.N = 128 := N_1
    have hi0 : (i 0).val < 1 := (i 0).isLt
    have hi1 : (i 1).val < 256 := (i 1).isLt
    obtain ⟨-, -, -, -, -, -, -, -, -, -, -, -, e60, e61, e70, e71, e80, e81⟩ := idx_facts (⟨127, lt127⟩ : Fin cfg1.N)
    refine ⟨⟨127, lt127⟩, (flush1_8 _).mpr rfl, ?_⟩
    rw [mem_blk8]
    intro a
    match a with
    | ⟨0, _⟩ => show win1_8.index _ (0 : Fin 2) * 1 ≤ (i 0).val ∧ (i 0).val < win1_8.index _ (0 : Fin 2) * 1 + 1; rw [e80]; omega
    | ⟨1, _⟩ => show win1_8.index _ (1 : Fin 2) * 256 ≤ (i 1).val ∧ (i 1).val < win1_8.index _ (1 : Fin 2) * 256 + 256; rw [e81]; omega

/-! ## The arrays in the vocabulary of the specification -/

/-- The product array, by rows: the linear map of the normalised, rectified input. -/
theorem lin_rows (c : Dev nD) (y : Fin 262144 → Fin 256 → EReal) (mean var γ β : Fin 256 → EReal) (Wm : Fin 256 → Fin 256 → EReal)
    (hlin : rows (n := 262144) (d := 256) (V c main_v26_0) = y) (hmean : row0 (d := 256) (V c main_v28) = mean)
    (hvar : row0 (d := 256) (V c main_v34) = var) (hg : row0 (d := 256) (V c main_v36) = γ) (hb : row0 (d := 256) (V c main_v38) = β)
    (hw : ∀ k q : Fin 256, V c main_v40 (ix2 k q) = Wm q k) :
    rows (n := 262144) (d := 256) (lin V c) = linear (normReluBy y mean var γ β) Wm := by
  funext e q
  show lin V c (ix2 e q) = linear (normReluBy y mean var γ β) Wm e q
  unfold lin linear
  rw [hlin, hmean, hvar, hg, hb]
  exact Finset.sum_congr rfl fun k _ => congrArg (normReluBy y mean var γ β e k * ·) (hw k q)

/-- The running row of sums ends at the product's column sums. -/
theorem sums_row0 (c : Dev nD) : row0 (d := 256) (sums V c) = colSum (rows (n := 262144) (d := 256) (lin V c)) := rfl

/-- The running row of sums of squares ends at the product's column sums of squares. -/
theorem sumsqs_row0 (c : Dev nD) : row0 (d := 256) (sumsqs V c) = colSumSq (rows (n := 262144) (d := 256) (lin V c)) := rfl

end Cert.KernelIdeal.Reg1

end
-- ==== Proof.KReg2.lean ====
/-
  The kernel that normalises a [262144, 256] array by given mean and variance rows, scales, shifts, rectifies, multiplies by a
  256×256 matrix, and accumulates the product's column sums and column sums of squares over the 128 row blocks
  (pipeline 2): what its three output arrays hold after the run, as functions of the arrays it is entered with.

  Block t of the product is a function of rows 2048·t … 2048·t + 2047 of the input only; the two running rows hold, after
  block t, the sums over the first t + 1 blocks, and after the last block the sums over all rows.
-/
import proofs.«171780_j3272765079679_2_alg».proof.Proof.Gen.KernelIdeal.Frame
import proofs.«171780_j3272765079679_2_alg».proof.Proof.KPay
import proofs.«171780_j3272765079679_2_alg».proof.Proof.Blocks
import proofs.«171780_j3272765079679_2_alg».proof.Proof.Layout
import Idealize.ShloMosaic.Lib.Pipeline.Value
import Idealize.ShloMosaic.Lib.ValueIdx

set_option maxRecDepth 16384

noncomputable section

namespace Cert.KernelIdeal.Reg2

open Cert.KernelIdeal Cert.KernelIdeal.Gen Cert.KernelIdeal.Pay Cert.EdgeNet Cert.AggMath
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-! ## What one grid point leaves in the output buffers -/

section Pieces
variable {F : FTy → Type} [FloatOps F]

/-- First point: the product block, stored whole. -/
theorem outA6 (c : Dev nD) (i : grid2.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : cond2_0 i) (x0 : Vec F S2048x256 .f32) (x1 x2 x3 x4 : Vec F S1x256 .f32) (x5 : Vec F S256x256 .bf16) :
    out2_A_6 c i a1 h1 a2 h2 a3 h3 a4 h4 a5 h5 a6 h6 a7 h7 a8 h8 a9 h9 hc x0 x1 x2 x3 x4 x5 = k2_pay3 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  rw [View.canon_unit_zero hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- A later point: the product block, stored whole. -/
theorem outB6 (c : Dev nD) (i : grid2.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : ¬cond2_0 i) (x0 : Vec F S2048x256 .f32) (x1 x2 x3 x4 : Vec F S1x256 .f32) (x5 : Vec F S256x256 .bf16) (xo7 xo8 : Vec F S1x256 .f32) :
    out2_B_6 c i a1 h1 a2 h2 a3 h3 a4 h4 a5 h5 a6 h6 a7 h7 a8 h8 a9 h9 hc x0 x1 x2 x3 x4 x5 xo7 xo8 = k2_pay3 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  rw [View.canon_unit_zero hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- First point: the running row of sums is reset to zero, read back, and increased by the block's column sums. -/
theorem outA7 (c : Dev nD) (i : grid2.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : cond2_0 i) (x0 : Vec F S2048x256 .f32) (x1 x2 x3 x4 : Vec F S1x256 .f32) (x5 : Vec F S256x256 .bf16) :
    out2_A_7 c i a1 h1 a2 h2 a3 h3 a4 h4 a5 h5 a6 h6 a7 h7 a8 h8 a9 h9 hc x0 x1 x2 x3 x4 x5 = k2_pay1 (k2_pay6 (k2_pay4 (F := F))) (k2_pay7 x0 x1 x2 x3 x4 x5) := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- First point: the running row of sums of squares is reset to zero, read back, and increased. -/
theorem outA8 (c : Dev nD) (i : grid2.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : cond2_0 i) (x0 : Vec F S2048x256 .f32) (x1 x2 x3 x4 : Vec F S1x256 .f32) (x5 : Vec F S256x256 .bf16) :
    out2_A_8 c i a1 h1 a2 h2 a3 h3 a4 h4 a5 h5 a6 h6 a7 h7 a8 h8 a9 h9 hc x0 x1 x2 x3 x4 x5 = k2_pay2 (k2_pay3 x0 x1 x2 x3 x4 x5) (k2_pay5 (F := F)) := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h6.read_unread,
    View.ld_unit_zero (S := S2048x256) hz2, View.ld_unit_zero (S := S1x256) hz2, View.ld_unit_zero (S := S256x256) hz2]

/-- A later point: the running row of sums grows from what the point before left. -/
theorem outB7 (c : Dev nD) (i : grid2.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : ¬cond2_0 i) (x0 : Vec F S2048x256 .f32) (x1 x2 x3 x4 : Vec F S1x256 .f32) (x5 : Vec F S256x256 .bf16) (xo7 xo8 : Vec F S1x256 .f32) :
    out2_B_7 c i a1 h1 a2 h2 a3 h3 a4 h4 a5 h5 a6 h6 a7 h7 a8 h8 a9 h9 hc x0 x1 x2 x3 x4 x5 xo7 xo8 = k2_pay1 (k2_pay6 xo7) (k2_pay7 x0 x1 x2 x3 x4 x5) := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz2]
  simp only [View.readAt_eq_ld, h1.read_unread, h2.read_unread, h3.read_unread, h4.read_unread, h5.read_unread, h6.read_unread, h8.read_unread, h9.read_unread,
    View.ld_unit_zero (S := S2048x256) hz2, View.ld_unit_zero (S := S1x256) hz2, View.ld_unit_zero (S := S256x256) hz2]

/-- A later point: the running row of sums of squares grows from what the point before left. -/
theorem outB8 (c : Dev nD) (i : grid2.Coords) (a1 : Memref sig .tc .vmem S2048x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x256 .bf16) (h6 : a6.IsWhole) (a7 : Memref sig .tc .vmem S2048x256 .f32) (h7 : a7.IsWhole) (a8 : Memref sig .tc .vmem S1x256 .f32) (h8 : a8.IsWhole) (a9 : Memref sig .tc .vmem S1x256 .f32) (h9 : a9.IsWhole) (hc : ¬cond2_0 i) (x0 : Vec F S2048x256 .f32) (x1 x2 x3 x4 : Vec F S1x256 .f32) (x5 : Vec F S256x256 .bf16) (xo7 xo8 : Vec F S1x256 .f32) :
    out2_B_8 c i a1 h1 a2 h2 a3 h3 a4 h4 a5 h5 a6 h6 a7 h7 a8 h8 a9 h9 hc x0 x1 x2 x3 x4 x5 xo7 xo8 = k2_pay2 (k2_pay3 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz2]
  simp only [View.readAt_eq_ld, h1.read_unread, h2.read_unread, h3.read_unread, h4.read_unread, h5.read_unread, h6.read_unread, h8.read_unread, h9.read_unread,
    View.ld_unit_zero (S := S2048x256) hz2, View.ld_unit_zero (S := S1x256) hz2, View.ld_unit_zero (S := S256x256) hz2]

end Pieces

/-! ## The windows' blocks, read off the arrays -/

variable (V : (c : Dev nD) → (b : Ref sig .tc) → Buf (Elt Ideal) ((c : Thread nD τ).loc b))

/-- The printed index maps, decided over the grid: the row windows move with the point, the others stay at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem lt127 : 127 < cfg2.N := by rw [show cfg2.N = 128 from N_2]; decide

theorem lt128 (t : Fin cfg2.N) : t.val < 128 := lt_of_lt_of_eq t.isLt (show cfg2.N = 128 from N_2)

/-- Row p of block t of the input is row 2048·t + p of the array. -/
theorem iblk_0 (c : Dev nD) (t : Fin cfg2.N) (p : Fin 2048) (k : Fin 256) :
    (iblk2 V c 0 t : Vec Ideal S2048x256 .f32) (ix2 p k) = V c main_v41_0 (ix2 (rowOf t.val (lt128 t) p) k) := by
  obtain ⟨e00, e01, -⟩ := idx_facts t
  unfold iblk2
  rw [View.read_apply]
  show V c main_v41_0 _ = V c main_v41_0 _
  congr 1
  funext a
  apply Fin.ext
  match a with
  | ⟨0, _⟩ => show win2_0.index t (0 : Fin 2) * 2048 + 1 * p.val = 2048 * t.val + p.val; rw [e00]; omega
  | ⟨1, _⟩ => show win2_0.index t (1 : Fin 2) * 256 + 1 * k.val = k.val; rw [e01]; omega

/-- Window 1's block is the whole array at every point. -/
theorem iblk_1 (c : Dev nD) (t : Fin cfg2.N) : (iblk2 V c 1 t : Vec Ideal S1x256 .f32) = V c main_v43 := by
  obtain ⟨-, -, e10, e11, e20, e21, e30, e31, e40, e41, e50, e51, -⟩ := idx_facts t
  funext j
  unfold iblk2
  rw [View.read_apply]
  show V c main_v43 _ = V c main_v43 j
  congr 1
  funext a
  apply Fin.ext
  match a with
  | ⟨0, _⟩ => show win2_1.index t (0 : Fin 2) * 1 + 1 * (j 0).val = (j 0).val; rw [e10]; omega
  | ⟨1, _⟩ => show win2_1.index t (1 : Fin 2) * 256 + 1 * (j 1).val = (j 1).val; rw [e11]; omega

/-- Window 2's block is the whole array at every point. -/
theorem iblk_2 (c : Dev nD) (t : Fin cfg2.N) : (iblk2 V c 2 t : Vec Ideal S1x256 .f32) = V c main_v49 := by
  obtain ⟨-, -, e10, e11, e20, e21, e30, e31, e40, e41, e50, e51, -⟩ := idx_facts t
  funext j
  unfold iblk2
  rw [View.read_apply]
  show V c main_v49 _ = V c main_v49 j
  congr 1
  funext a
  apply Fin.ext
  match a with
  | ⟨0, _⟩ => show win2_2.index t (0 : Fin 2) * 1 + 1 * (j 0).val = (j 0).val; rw [e20]; omega
  | ⟨1, _⟩ => show win2_2.index t (1 : Fin 2) * 256 + 1 * (j 1).val = (j 1).val; rw [e21]; omega

/-- Window 3's block is the whole array at every point. -/
theorem iblk_3 (c : Dev nD) (t : Fin cfg2.N) : (iblk2 V c 3 t : Vec Ideal S1x256 .f32) = V c main_v51 := by
  obtain ⟨-, -, e10, e11, e20, e21, e30, e31, e40, e41, e50, e51, -⟩ := idx_facts t
  funext j
  unfold iblk2
  rw [View.read_apply]
  show V c main_v51 _ = V c main_v51 j
  congr 1
  funext a
  apply Fin.ext
  match a with
  | ⟨0, _⟩ => show win2_3.index t (0 : Fin 2) * 1 + 1 * (j 0).val = (j 0).val; rw [e30]; omega
  | ⟨1, _⟩ => show win2_3.index t (1 : Fin 2) * 256 + 1 * (j 1).val = (j 1).val; rw [e31]; omega

/-- Window 4's block is the whole array at every point. -/
theorem iblk_4 (c : Dev nD) (t : Fin cfg2.N) : (iblk2 V c 4 t : Vec Ideal S1x256 .f32) = V c main_v53 := by
  obtain ⟨-, -, e10, e11, e20, e21, e30, e31, e40, e41, e50, e51, -⟩ := idx_facts t
  funext j
  unfold iblk2
  rw [View.read_apply]
  show V c main_v53 _ = V c main_v53 j
  congr 1
  funext a
  apply Fin.ext
  match a with
  | ⟨0, _⟩ => show win2_4.index t (0 : Fin 2) * 1 + 1 * (j 0).val = (j 0).val; rw [e40]; omega
  | ⟨1, _⟩ => show win2_4.index t (1 : Fin 2) * 256 + 1 * (j 1).val = (j 1).val; rw [e41]; omega

/-- Window 5's block is the whole array at every point. -/
theorem iblk_5 (c : Dev nD) (t : Fin cfg2.N) : (iblk2 V c 5 t : Vec Ideal S256x256 .bf16) = V c main_v55 := by
  obtain ⟨-, -, e10, e11, e20, e21, e30, e31, e40, e41, e50, e51, -⟩ := idx_facts t
  funext j
  unfold iblk2
  rw [View.read_apply]
  show V c main_v55 _ = V c main_v55 j
  congr 1
  funext a
  apply Fin.ext
  match a with
  | ⟨0, _⟩ => show win2_5.index t (0 : Fin 2) * 256 + 1 * (j 0).val = (j 0).val; rw [e50]; omega
  | ⟨1, _⟩ => show win2_5.index t (1 : Fin 2) * 256 + 1 * (j 1).val = (j 1).val; rw [e51]; omega

/-! ## The product array -/

/-- The product: the normalised, rectified input times the weight matrix, entry by entry. -/
def lin (c : Dev nD) : S262144x256.Idx → EReal := fun i =>
  ∑ k : Fin 256, normReluBy (rows (n := 262144) (d := 256) (V c main_v41_0)) (row0 (d := 256) (V c main_v43)) (row0 (d := 256) (V c main_v49))
    (row0 (d := 256) (V c main_v51)) (row0 (d := 256) (V c main_v53)) (i 0) k * V c main_v55 (ix2 k (i 1))

/-- Block t of the product, row p, is row 2048·t + p of the product array. -/
theorem blk_eq (c : Dev nD) (t : Fin cfg2.N) (p : Fin 2048) (q : Fin 256) :
    k2_pay3 (F := Ideal) (iblk2 V c 0 t) (iblk2 V c 1 t) (iblk2 V c 2 t) (iblk2 V c 3 t) (iblk2 V c 4 t) (iblk2 V c 5 t) (ix2 p q) = lin V c (ix2 (rowOf t.val (lt128 t) p) q) := by
  refine (pay2_lin (iblk2 V c 0 t) (iblk2 V c 1 t) (iblk2 V c 2 t) (iblk2 V c 3 t) (iblk2 V c 4 t) (iblk2 V c 5 t) p q).trans ?_
  unfold lin
  refine Finset.sum_congr rfl fun k _ => ?_
  rw [iblk_1 V c t, iblk_2 V c t, iblk_3 V c t, iblk_4 V c t, iblk_5 V c t]
  unfold normReluBy rows
  rw [iblk_0 V c t p k]

/-! ## The outputs after each point -/

/-- After point n: the product block of point n; the running rows at the sums over the first n + 1 blocks. -/
theorem outs_eq (c : Dev nD) : ∀ (n : ℕ) (h : n < cfg2.N),
    (outsAt2 V c n h).1 = k2_pay3 (F := Ideal) (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩)
    ∧ (∀ (z : Fin 1) (q : Fin 256), (outsAt2 V c n h).2.1 (ix2 z q) = partialBlocks (fun e : Fin 262144 => lin V c (ix2 e q)) 2048 (n + 1))
    ∧ (∀ (z : Fin 1) (q : Fin 256), (outsAt2 V c n h).2.2 (ix2 z q)
        = partialBlocks (fun e : Fin 262144 => lin V c (ix2 e q) * lin V c (ix2 e q)) 2048 (n + 1))
  | 0, h => by
    have e : outsAt2 V c 0 h = _ := outsAt2_A V c ⟨0, h⟩ rfl
    rw [e]
    dsimp only
    refine ⟨outA6 .., fun z q => ?_, fun z q => ?_⟩
    · rw [outA7, pay2_add, pay2_id, pay2_zero4, pay2_sum]
      exact acc_first (fun e : Fin 262144 => lin V c (ix2 e q)) _ (fun p => blk_eq V c ⟨0, h⟩ p q)
    · rw [outA8, pay2_sq, pay2_zero5]
      exact acc_first (fun e : Fin 262144 => lin V c (ix2 e q) * lin V c (ix2 e q)) _
        (fun p => by rw [blk_eq V c ⟨0, h⟩ p q])
  | n + 1, h => by
    have hN : cfg2.N = 128 := N_2
    have hB : ¬(⟨n + 1, h⟩ : Fin cfg2.N).val % 128 = 0 := by dsimp only; omega
    obtain ⟨ih1, ih2, ih3⟩ := outs_eq c n (Nat.lt_of_succ_lt h)
    have e : outsAt2 V c (n + 1) h = _ := outsAt2_B V c ⟨n + 1, h⟩ hB
    rw [e]
    dsimp only
    refine ⟨outB6 .., fun z q => ?_, fun z q => ?_⟩
    · rw [outB7, pay2_add, pay2_id, pay2_sum]
      show (outsAt2 V c n _).2.1 (ix2 z q) + _ = _
      rw [ih2 z q]
      exact acc_step (fun e : Fin 262144 => lin V c (ix2 e q)) n (by omega) _ (fun p => blk_eq V c ⟨n + 1, h⟩ p q)
    · rw [outB8, pay2_sq]
      show (outsAt2 V c n _).2.2 (ix2 z q) + _ = _
      rw [ih3 z q]
      exact acc_step (fun e : Fin 262144 => lin V c (ix2 e q) * lin V c (ix2 e q)) n (by omega) _
        (fun p => by rw [blk_eq V c ⟨n + 1, h⟩ p q])

/-! ## The arrays after the run -/

theorem mem_blk6 (t : Fin cfg2.N) (i : S262144x256.Idx) :
    i ∈ ((cfg2.win 6).blk t).view.set ↔ ∀ a : Fin 2, win2_6.index t a * S2048x256.size a ≤ (i a).val ∧ (i a).val < win2_6.index t a * S2048x256.size a + S2048x256.size a := by
  show i ∈ ((View.whole main_v56_0).slice (win2_6.rect t)).set ↔ _
  rw [View.set_slice_whole, Rect.mem_set_unit]
  exact Iff.rfl

/-- What point t writes back is block t of the product array. -/
theorem flushed6 (c : Dev nD) (t : Fin cfg2.N) :
    (dat2 V c).flushed 6 t = ((cfg2.win 6).blk t).view.read (Elt Ideal) (lin V c) := by
  show (cfg2.win 6).cut (grid2.coords t) ((dat2 V c).after 6 t) = _
  rw [after2_6, (outs_eq V c t.val t.isLt).1]
  obtain ⟨-, -, -, -, -, -, -, -, -, -, -, -, e60, e61, e70, e71, e80, e81⟩ := idx_facts t
  funext j
  obtain ⟨p, q, rfl⟩ : ∃ (p : Fin 2048) (q : Fin 256), j = ix2 p q := ⟨j 0, j 1, eq_ix2 j⟩
  show k2_pay3 (F := Ideal) (iblk2 V c 0 t) (iblk2 V c 1 t) (iblk2 V c 2 t) (iblk2 V c 3 t) (iblk2 V c 4 t) (iblk2 V c 5 t) (ix2 p q) = lin V c (((cfg2.win 6).blk t).view.emb (ix2 p q))
  rw [blk_eq V c t p q]
  congr 1
  funext a
  apply Fin.ext
  match a with
  | ⟨0, _⟩ => show 2048 * t.val + p.val = win2_6.index t (0 : Fin 2) * 2048 + 1 * p.val; rw [e60]; omega
  | ⟨1, _⟩ => show q.val = win2_6.index t (1 : Fin 2) * 256 + 1 * q.val; rw [e61]; omega

/-- So the product array ends at the product, every row in the block of its point. -/
theorem arr6 (c : Dev nD) : (dat2 V c).arrAt 6 cfg2.N = lin V c :=
  (dat2 V c).arrAt_eq_of_cover 6 (lin V c) (fun t _ => flushed6 V c t) fun i => by
    have hN : cfg2.N = 128 := N_2
    have hi0 : (i 0).val < 262144 := (i 0).isLt
    have hi1 : (i 1).val < 256 := (i 1).isLt
    have ht : (i 0).val / 2048 < cfg2.N := by rw [hN]; omega
    obtain ⟨-, -, -, -, -, -, -, -, -, -, -, -, e60, e61, e70, e71, e80, e81⟩ := idx_facts (⟨(i 0).val / 2048, ht⟩ : Fin cfg2.N)
    refine ⟨⟨(i 0).val / 2048, ht⟩, flush2_6 _, ?_⟩
    rw [mem_blk6]
    intro a
    match a with
    | ⟨0, _⟩ => show win2_6.index _ (0 : Fin 2) * 2048 ≤ (i 0).val ∧ (i 0).val < win2_6.index _ (0 : Fin 2) * 2048 + 2048; rw [e60]; dsimp only; omega
    | ⟨1, _⟩ => show win2_6.index _ (1 : Fin 2) * 256 ≤ (i 1).val ∧ (i 1).val < win2_6.index _ (1 : Fin 2) * 256 + 256; rw [e61]; omega

/-- The product's column sums over all rows. -/
def sums (c : Dev nD) : S1x256.Idx → EReal := fun i => ∑ e : Fin 262144, lin V c (ix2 e (i 1))

theorem mem_blk7 (t : Fin cfg2.N) (i : S1x256.Idx) :
    i ∈ ((cfg2.win 7).blk t).view.set ↔ ∀ a : Fin 2, win2_7.index t a * S1x256.size a ≤ (i a).val ∧ (i a).val < win2_7.index t a * S1x256.size a + S1x256.size a := by
  show i ∈ ((View.whole main_v56_1).slice (win2_7.rect t)).set ↔ _
  rw [View.set_slice_whole, Rect.mem_set_unit]
  exact Iff.rfl

/-- The one write-back of the running row, after the last point, writes the sums over all rows. -/
theorem flushed7 (c : Dev nD) (t : Fin cfg2.N) (hf : (cfg2.win 7).flush t = true) :
    (dat2 V c).flushed 7 t = ((cfg2.win 7).blk t).view.read (Elt Ideal) (sums V c) := by
  have hN : cfg2.N = 128 := N_2
  have h127 : t.val = 127 := by have := (flush2_7 t).mp hf; have := lt128 t; omega
  have hO : (outsAt2 V c t.val t.isLt).2.1 = sums V c := by
    funext j
    obtain ⟨z, q, rfl⟩ : ∃ (z : Fin 1) (q : Fin 256), j = ix2 z q := ⟨j 0, j 1, eq_ix2 j⟩
    exact ((outs_eq V c t.val t.isLt).2.1 z q).trans
      ((congrArg (partialBlocks (fun e : Fin 262144 => lin V c (ix2 e q)) 2048) (show t.val + 1 = 128 by omega)).trans (acc_full (fun e : Fin 262144 => lin V c (ix2 e q))))
  have hA : (dat2 V c).after 7 t = sums V c := (after2_7 V c t).trans hO
  show (cfg2.win 7).cut (grid2.coords t) ((dat2 V c).after 7 t) = _
  rw [hA]
  obtain rfl : t = (⟨127, lt127⟩ : Fin cfg2.N) := Fin.ext h127
  have hz' : (fun a => win2_7.index (⟨127, lt127⟩ : Fin cfg2.N) a * main_v56_1.ty.shape.size a) = fun _ => 0 :=
    funext fun a => by fin_cases a <;> decide +kernel
  exact (Memref.read_access_unit_zero (Elt Ideal) main_v56_1 hz' (fun a => by rw [congrFun hz' a]; simp) (sums V c)).symm

/-- So the array ends at the sums over all rows. -/
theorem arr7 (c : Dev nD) : (dat2 V c).arrAt 7 cfg2.N = sums V c :=
  (dat2 V c).arrAt_eq_of_cover 7 (sums V c) (flushed7 V c) fun i => by
    have hN : cfg2.N = 128 := N_2
    have hi0 : (i 0).val < 1 := (i 0).isLt
    have hi1 : (i 1).val < 256 := (i 1).isLt
    obtain ⟨-, -, -, -, -, -, -, -, -, -, -, -, e60, e61, e70, e71, e80, e81⟩ := idx_facts (⟨127, lt127⟩ : Fin cfg2.N)
    refine ⟨⟨127, lt127⟩, (flush2_7 _).mpr rfl, ?_⟩
    rw [mem_blk7]
    intro a
    match a with
    | ⟨0, _⟩ => show win2_7.index _ (0 : Fin 2) * 1 ≤ (i 0).val ∧ (i 0).val < win2_7.index _ (0 : Fin 2) * 1 + 1; rw [e70]; omega
    | ⟨1, _⟩ => show win2_7.index _ (1 : Fin 2) * 256 ≤ (i 1).val ∧ (i 1).val < win2_7.index _ (1 : Fin 2) * 256 + 256; rw [e71]; omega

/-- The product's column sums of squares over all rows. -/
def sumsqs (c : Dev nD) : S1x256.Idx → EReal := fun i => ∑ e : Fin 262144, lin V c (ix2 e (i 1)) * lin V c (ix2 e (i 1))

theorem mem_blk8 (t : Fin cfg2.N) (i : S1x256.Idx) :
    i ∈ ((cfg2.win 8).blk t).view.set ↔ ∀ a : Fin 2, win2_8.index t a * S1x256.size a ≤ (i a).val ∧ (i a).val < win2_8.index t a * S1x256.size a + S1x256.size a := by
  show i ∈ ((View.whole main_v56_2).slice (win2_8.rect t)).set ↔ _
  rw [View.set_slice_whole, Rect.mem_set_unit]
  exact Iff.rfl

/-- The one write-back of the running row, after the last point, writes the sums over all rows. -/
theorem flushed8 (c : Dev nD) (t : Fin cfg2.N) (hf : (cfg2.win 8).flush t = true) :
    (dat2 V c).flushed 8 t = ((cfg2.win 8).blk t).view.read (Elt Ideal) (sumsqs V c) := by
  have hN : cfg2.N = 128 := N_2
  have h127 : t.val = 127 := by have := (flush2_8 t).mp hf; have := lt128 t; omega
  have hO : (outsAt2 V c t.val t.isLt).2.2 = sumsqs V c := by
    funext j
    obtain ⟨z, q, rfl⟩ : ∃ (z : Fin 1) (q : Fin 256), j = ix2 z q := ⟨j 0, j 1, eq_ix2 j⟩
    exact ((outs_eq V c t.val t.isLt).2.2 z q).trans
      ((congrArg (partialBlocks (fun e : Fin 262144 => lin V c (ix2 e q) * lin V c (ix2 e q)) 2048) (show t.val + 1 = 128 by omega)).trans (acc_full (fun e : Fin 262144 => lin V c (ix2 e q) * lin V c (ix2 e q))))
  have hA : (dat2 V c).after 8 t = sumsqs V c := (after2_8 V c t).trans hO
  show (cfg2.win 8).cut (grid2.coords t) ((dat2 V c).after 8 t) = _
  rw [hA]
  obtain rfl : t = (⟨127, lt127⟩ : Fin cfg2.N) := Fin.ext h127
  have hz' : (fun a => win2_8.index (⟨127, lt127⟩ : Fin cfg2.N) a * main_v56_2.ty.shape.size a) = fun _ => 0 :=
    funext fun a => by fin_cases a <;> decide +kernel
  exact (Memref.read_access_unit_zero (Elt Ideal) main_v56_2 hz' (fun a => by rw [congrFun hz' a]; simp) (sumsqs V c)).symm

/-- So the array ends at the sums over all rows. -/
theorem arr8 (c : Dev nD) : (dat2 V c).arrAt 8 cfg2.N = sumsqs V c :=
  (dat2 V c).arrAt_eq_of_cover 8 (sumsqs V c) (flushed8 V c) fun i => by
    have hN : cfg2.N = 128 := N_2
    have hi0 : (i 0).val < 1 := (i 0).isLt
    have hi1 : (i 1).val < 256 := (i 1).isLt
    obtain ⟨-, -, -, -, -, -, -, -, -, -, -, -, e60, e61, e70, e71, e80, e81⟩ := idx_facts (⟨127, lt127⟩ : Fin cfg2.N)
    refine ⟨⟨127, lt127⟩, (flush2_8 _).mpr rfl, ?_⟩
    rw [mem_blk8]
    intro a
    match a with
    | ⟨0, _⟩ => show win2_8.index _ (0 : Fin 2) * 1 ≤ (i 0).val ∧ (i 0).val < win2_8.index _ (0 : Fin 2) * 1 + 1; rw [e80]; omega
    | ⟨1, _⟩ => show win2_8.index _ (1 : Fin 2) * 256 ≤ (i 1).val ∧ (i 1).val < win2_8.index _ (1 : Fin 2) * 256 + 256; rw [e81]; omega

/-! ## The arrays in the vocabulary of the specification -/

/-- The product array, by rows: the linear map of the normalised, rectified input. -/
theorem lin_rows (c : Dev nD) (y : Fin 262144 → Fin 256 → EReal) (mean var γ β : Fin 256 → EReal) (Wm : Fin 256 → Fin 256 → EReal)
    (hlin : rows (n := 262144) (d := 256) (V c main_v41_0) = y) (hmean : row0 (d := 256) (V c main_v43) = mean)
    (hvar : row0 (d := 256) (V c main_v49) = var) (hg : row0 (d := 256) (V c main_v51) = γ) (hb : row0 (d := 256) (V c main_v53) = β)
    (hw : ∀ k q : Fin 256, V c main_v55 (ix2 k q) = Wm q k) :
    rows (n := 262144) (d := 256) (lin V c) = linear (normReluBy y mean var γ β) Wm := by
  funext e q
  show lin V c (ix2 e q) = linear (normReluBy y mean var γ β) Wm e q
  unfold lin linear
  rw [hlin, hmean, hvar, hg, hb]
  exact Finset.sum_congr rfl fun k _ => congrArg (normReluBy y mean var γ β e k * ·) (hw k q)

/-- The running row of sums ends at the product's column sums. -/
theorem sums_row0 (c : Dev nD) : row0 (d := 256) (sums V c) = colSum (rows (n := 262144) (d := 256) (lin V c)) := rfl

/-- The running row of sums of squares ends at the product's column sums of squares. -/
theorem sumsqs_row0 (c : Dev nD) : row0 (d := 256) (sumsqs V c) = colSumSq (rows (n := 262144) (d := 256) (lin V c)) := rfl

end Cert.KernelIdeal.Reg2

end
-- ==== Proof.KReg3.lean ====
/-
  The kernel that normalises a [262144, 256] array by given mean and variance rows, scales, shifts, rectifies, and takes each
  row against one weight row (pipeline 3): what its output array, the [262144] vector of scores, holds after the run, as a
  function of the arrays it is entered with.

  The grid has 128 points.  Point t reads rows 2048·t … 2048·t + 2047 of the input and the five [1, 256] rows whole, and writes
  entries 2048·t … 2048·t + 2047 of the output: entry p of its block is the score of row 2048·t + p.  The 128 blocks tile the
  output (entry i lies in block i / 2048), so after the run every entry is the score of its row.
-/
import proofs.«171780_j3272765079679_2_alg».proof.Proof.Gen.KernelIdeal.Frame
import proofs.«171780_j3272765079679_2_alg».proof.Proof.KPay
import proofs.«171780_j3272765079679_2_alg».proof.Proof.Blocks
import proofs.«171780_j3272765079679_2_alg».proof.Proof.Layout
import Idealize.ShloMosaic.Lib.Pipeline.Value
import Idealize.ShloMosaic.Lib.ValueIdx

set_option maxRecDepth 16384

noncomputable section

namespace Cert.KernelIdeal.Reg3

open Cert.KernelIdeal Cert.KernelIdeal.Gen Cert.KernelIdeal.Pay Cert.EdgeNet
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz1 : (![0] : Fin 1 → Nat) = fun _ => 0 := funext fun a => by fin_cases a <;> rfl
theorem hz2 : (![0, 0] : Fin 2 → Nat) = fun _ => 0 := funext fun a => by fin_cases a <;> rfl

/-! ## The windows' blocks, read off the arrays -/

variable (V : (c : Dev nD) → (b : Ref sig .tc) → Buf (Elt Ideal) ((c : Thread nD τ).loc b))

/-- The printed index maps, decided over the grid: the row window and the output window move with the point, the others stay
    at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = t.val :=
  (by decide +kernel : ∀ t : Fin grid3.N, _)

theorem lt128 (t : Fin cfg3.N) : t.val < 128 := lt_of_lt_of_eq t.isLt (show cfg3.N = 128 from N_3)

/-- Row p of block t of the input is row 2048·t + p of the array. -/
theorem iblk_0 (c : Dev nD) (t : Fin cfg3.N) (p : Fin 2048) (k : Fin 256) :
    (iblk3 V c 0 t : Vec Ideal S2048x256 .f32) (ix2 p k) = V c main_v56_0 (ix2 (rowOf t.val (lt128 t) p) k) := by
  obtain ⟨e00, e01, e10, e11, e20, e21, e30, e31, e40, e41, e50, e51, e60⟩ := idx_facts t
  unfold iblk3
  rw [View.read_apply]
  show V c main_v56_0 _ = V c main_v56_0 _
  congr 1
  funext a
  apply Fin.ext
  match a with
  | ⟨0, _⟩ => show win3_0.index t (0 : Fin 2) * 2048 + 1 * p.val = 2048 * t.val + p.val; rw [e00]; omega
  | ⟨1, _⟩ => show win3_0.index t (1 : Fin 2) * 256 + 1 * k.val = k.val; rw [e01]; omega

/-- Window 1's block is its whole [1, 256] array at every point. -/
theorem iblk_1 (c : Dev nD) (t : Fin cfg3.N) : (iblk3 V c 1 t : Vec Ideal S1x256 .f32) = V c main_v58 := by
  obtain ⟨e00, e01, e10, e11, e20, e21, e30, e31, e40, e41, e50, e51, e60⟩ := idx_facts t
  funext j
  unfold iblk3
  rw [View.read_apply]
  show V c main_v58 _ = V c main_v58 j
  congr 1
  funext a
  apply Fin.ext
  match a with
  | ⟨0, _⟩ => show win3_1.index t (0 : Fin 2) * 1 + 1 * (j 0).val = (j 0).val; rw [e10]; omega
  | ⟨1, _⟩ => show win3_1.index t (1 : Fin 2) * 256 + 1 * (j 1).val = (j 1).val; rw [e11]; omega

/-- Window 2's block is its whole [1, 256] array at every point. -/
theorem iblk_2 (c : Dev nD) (t : Fin cfg3.N) : (iblk3 V c 2 t : Vec Ideal S1x256 .f32) = V c main_v64 := by
  obtain ⟨e00, e01, e10, e11, e20, e21, e30, e31, e40, e41, e50, e51, e60⟩ := idx_facts t
  funext j
  unfold iblk3
  rw [View.read_apply]
  show V c main_v64 _ = V c main_v64 j
  congr 1
  funext a
  apply Fin.ext
  match a with
  | ⟨0, _⟩ => show win3_2.index t (0 : Fin 2) * 1 + 1 * (j 0).val = (j 0).val; rw [e20]; omega
  | ⟨1, _⟩ => show win3_2.index t (1 : Fin 2) * 256 + 1 * (j 1).val = (j 1).val; rw [e21]; omega

/-- Window 3's block is its whole [1, 256] array at every point. -/
theorem iblk_3 (c : Dev nD) (t : Fin cfg3.N) : (iblk3 V c 3 t : Vec Ideal S1x256 .f32) = V c main_v66 := by
  obtain ⟨e00, e01, e10, e11, e20, e21, e30, e31, e40, e41, e50, e51, e60⟩ := idx_facts t
  funext j
  unfold iblk3
  rw [View.read_apply]
  show V c main_v66 _ = V c main_v66 j
  congr 1
  funext a
  apply Fin.ext
  match a with
  | ⟨0, _⟩ => show win3_3.index t (0 : Fin 2) * 1 + 1 * (j 0).val = (j 0).val; rw [e30]; omega
  | ⟨1, _⟩ => show win3_3.index t (1 : Fin 2) * 256 + 1 * (j 1).val = (j 1).val; rw [e31]; omega

/-- Window 4's block is its whole [1, 256] array at every point. -/
theorem iblk_4 (c : Dev nD) (t : Fin cfg3.N) : (iblk3 V c 4 t : Vec Ideal S1x256 .f32) = V c main_v68 := by
  obtain ⟨e00, e01, e10, e11, e20, e21, e30, e31, e40, e41, e50, e51, e60⟩ := idx_facts t
  funext j
  unfold iblk3
  rw [View.read_apply]
  show V c main_v68 _ = V c main_v68 j
  congr 1
  funext a
  apply Fin.ext
  match a with
  | ⟨0, _⟩ => show win3_4.index t (0 : Fin 2) * 1 + 1 * (j 0).val = (j 0).val; rw [e40]; omega
  | ⟨1, _⟩ => show win3_4.index t (1 : Fin 2) * 256 + 1 * (j 1).val = (j 1).val; rw [e41]; omega

/-- Window 5's block is its whole [1, 256] array at every point. -/
theorem iblk_5 (c : Dev nD) (t : Fin cfg3.N) : (iblk3 V c 5 t : Vec Ideal S1x256 .f32) = V c main_arg6 := by
  obtain ⟨e00, e01, e10, e11, e20, e21, e30, e31, e40, e41, e50, e51, e60⟩ := idx_facts t
  funext j
  unfold iblk3
  rw [View.read_apply]
  show V c main_arg6 _ = V c main_arg6 j
  congr 1
  funext a
  apply Fin.ext
  match a with
  | ⟨0, _⟩ => show win3_5.index t (0 : Fin 2) * 1 + 1 * (j 0).val = (j 0).val; rw [e50]; omega
  | ⟨1, _⟩ => show win3_5.index t (1 : Fin 2) * 256 + 1 * (j 1).val = (j 1).val; rw [e51]; omega

/-! ## The scores -/

/-- The score of every row: the normalised, rectified row against the weight row. -/
def scoresOf (c : Dev nD) : S262144.Idx → EReal := fun i =>
  ∑ k : Fin 256, normReluBy (rows (n := 262144) (d := 256) (V c main_v56_0)) (row0 (d := 256) (V c main_v58))
    (row0 (d := 256) (V c main_v64)) (row0 (d := 256) (V c main_v66)) (row0 (d := 256) (V c main_v68)) (i 0) k
    * V c main_arg6 (ix2 0 k)

/-- The normalisation of an entry depends on the array only through that entry. -/
theorem normReluBy_entry {n n' d : ℕ} (y : Fin n → Fin d → EReal) (y' : Fin n' → Fin d → EReal) (mean var γ β : Fin d → EReal)
    (e : Fin n) (e' : Fin n') (k : Fin d) (h : y e k = y' e' k) :
    normReluBy y mean var γ β e k = normReluBy y' mean var γ β e' k := by
  unfold normReluBy
  rw [h]

/-- Entry p of block t of the output is the score of row 2048·t + p. -/
theorem blk_eq (c : Dev nD) (t : Fin cfg3.N) (p : Fin 2048) :
    k3_pay1 (F := Ideal) (iblk3 V c 0 t) (iblk3 V c 1 t) (iblk3 V c 2 t) (iblk3 V c 3 t) (iblk3 V c 4 t) (iblk3 V c 5 t) (ix1 p)
      = scoresOf V c (ix1 (rowOf t.val (lt128 t) p)) := by
  refine (pay3 (iblk3 V c 0 t) (iblk3 V c 1 t) (iblk3 V c 2 t) (iblk3 V c 3 t) (iblk3 V c 4 t) (iblk3 V c 5 t) p).trans ?_
  unfold scoresOf
  refine Finset.sum_congr rfl fun k _ => ?_
  rw [iblk_1 V c t, iblk_2 V c t, iblk_3 V c t, iblk_4 V c t, iblk_5 V c t]
  exact congrArg (· * V c main_arg6 (ix2 0 k))
    (normReluBy_entry (rows (n := 2048) (d := 256) (iblk3 V c 0 t)) (rows (n := 262144) (d := 256) (V c main_v56_0))
      (row0 (d := 256) (V c main_v58)) (row0 (d := 256) (V c main_v64)) (row0 (d := 256) (V c main_v66)) (row0 (d := 256) (V c main_v68))
      p (rowOf t.val (lt128 t) p) k (iblk_0 V c t p k))

/-! ## The array after the run -/

theorem mem_blk6 (t : Fin cfg3.N) (i : S262144.Idx) :
    i ∈ ((cfg3.win 6).blk t).view.set ↔ ∀ a : Fin 1, win3_6.index t a * S2048.size a ≤ (i a).val ∧ (i a).val < win3_6.index t a * S2048.size a + S2048.size a := by
  show i ∈ ((View.whole main_v69).slice (win3_6.rect t)).set ↔ _
  rw [View.set_slice_whole, Rect.mem_set_unit]
  exact Iff.rfl

/-- What point t writes back is block t of the scores. -/
theorem flushed6 (c : Dev nD) (t : Fin cfg3.N) :
    (dat3 V c).flushed 6 t = ((cfg3.win 6).blk t).view.read (Elt Ideal) (scoresOf V c) := by
  show (cfg3.win 6).cut (grid3.coords t) ((dat3 V c).after 6 t) = _
  rw [after3_6]
  unfold out3_6
  rw [View.canon_unit_zero hz1]
  simp only [View.ld_unit_zero (S := S2048x256) hz2, View.ld_unit_zero (S := S1x256) hz2]
  obtain ⟨e00, e01, e10, e11, e20, e21, e30, e31, e40, e41, e50, e51, e60⟩ := idx_facts t
  funext j
  obtain ⟨p, rfl⟩ : ∃ p : Fin 2048, j = ix1 p := ⟨j 0, eq_ix1 j⟩
  show k3_pay1 (F := Ideal) (iblk3 V c 0 t) (iblk3 V c 1 t) (iblk3 V c 2 t) (iblk3 V c 3 t) (iblk3 V c 4 t) (iblk3 V c 5 t) (ix1 p)
    = scoresOf V c (((cfg3.win 6).blk t).view.emb (ix1 p))
  rw [blk_eq V c t p]
  congr 1
  funext a
  apply Fin.ext
  match a with
  | ⟨0, _⟩ => show 2048 * t.val + p.val = win3_6.index t (0 : Fin 1) * 2048 + 1 * p.val; rw [e60]; omega

/-- So the output array ends at the scores, every entry in the block of its point. -/
theorem arr6 (c : Dev nD) : (dat3 V c).arrAt 6 cfg3.N = scoresOf V c :=
  (dat3 V c).arrAt_eq_of_cover 6 (scoresOf V c) (fun t _ => flushed6 V c t) fun i => by
    have hN : cfg3.N = 128 := N_3
    have hi0 : (i 0).val < 262144 := (i 0).isLt
    have ht : (i 0).val / 2048 < cfg3.N := by rw [hN]; omega
    obtain ⟨e00, e01, e10, e11, e20, e21, e30, e31, e40, e41, e50, e51, e60⟩ := idx_facts (⟨(i 0).val / 2048, ht⟩ : Fin cfg3.N)
    refine ⟨⟨(i 0).val / 2048, ht⟩, flush3_6 _, ?_⟩
    rw [mem_blk6]
    intro a
    match a with
    | ⟨0, _⟩ => show win3_6.index _ (0 : Fin 1) * 2048 ≤ (i 0).val ∧ (i 0).val < win3_6.index _ (0 : Fin 1) * 2048 + 2048; rw [e60]; dsimp only; omega

end Cert.KernelIdeal.Reg3

end
-- ==== Proof.KHost.lean ====
/-
  The host operations between the kernel launches, read at an index.

  Between two launches the program runs a short straight line of whole-array operations: it divides a column-sum row
  and a column-sum-of-squares row by the number of edges, forms the one-pass variance (mean of squares minus squared
  mean, cut off below at zero), and cuts one layer's scale, shift and weight matrix out of the stacked parameters.
  Before the first launch it gathers the two endpoint rows of every edge and adds them, lays the layer-norm weight out
  as a row, transposes every weight matrix and lays the scales and shifts out as [3, 1, 256].  Each lemma says what one
  buffer holds after such a line, entry by entry, in terms of the buffers the line started from.
-/
import proofs.«171780_j3272765079679_2_alg».proof.Proof.Gen.KernelIdeal.Launch
import proofs.«171780_j3272765079679_2_alg».proof.Proof.Layout
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Host

open Cert.KernelIdeal Cert.KernelIdeal.Gen Cert.EdgeNet
open Idealize.ShloMosaic Idealize.ShloMosaic.ValueIdx Idealize.ShloMosaic.StableHlo

/-! ## Two layout readings -/

/-- A rank-3 array cut along axis 0 from `o` reads, at `(j, b, e)`, the source at `(k, b, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, c]` array cast to `[a, 1, c]` reads, at `(l, z, q)`, the operand at `(l, q)`. -/
theorem shapeCast_ac_a1c_apply {α : Type} {a c : ℕ} (x : (⟨2, ![a, c]⟩ : Shape).Idx → α)
    (h : (⟨2, ![a, c]⟩ : Shape).ShapeCasts ⟨3, ![a, 1, c]⟩) (l : Fin a) (z : Fin 1) (q : Fin c) :
    shapeCast ⟨3, ![a, 1, c]⟩ x h (ix3 l z q) = x (ix2 l q) :=
  shapeCast_apply x h _ _ (by
    have hz : z.val = 0 := by omega
    rw [Shape.rowMajor_val_three, Shape.rowMajor_val_two]
    show l.val * c + q.val = (l.val * 1 + z.val) * c + q.val
    rw [hz, Nat.mul_one, Nat.add_zero])

variable (W : Valuation τ sig (Elt Ideal))

/-! ## The line before launch 0 -/

/-- One endpoint row of the edge list, as a vector of node numbers. -/
def endpoint0 (x1 : (⟨S2x262144, .i32⟩ : BufTy).Contents (Elt Ideal)) : (⟨S262144, .i32⟩ : BufTy).Contents (Elt Ideal) :=
  shapeCast S262144 (extractStridedSlice S1x262144 ![0, 0] x1 slices_S2x262144_S1x262144_0_0) shapeCasts_S1x262144_S262144

/-- The other endpoint row of the edge list. -/
def endpoint1 (x1 : (⟨S2x262144, .i32⟩ : BufTy).Contents (Elt Ideal)) : (⟨S262144, .i32⟩ : BufTy).Contents (Elt Ideal) :=
  shapeCast S262144 (extractStridedSlice S1x262144 ![1, 0] x1 slices_S2x262144_S1x262144_1_0) shapeCasts_S1x262144_S262144

/-- A negative node number counts from the end: the number of nodes is added to it. -/
def wrapNode (r : (⟨S262144, .i32⟩ : BufTy).Contents (Elt Ideal)) : (⟨S262144, .i32⟩ : BufTy).Contents (Elt Ideal) :=
  select (cmpi .slt r (broadcastInDim S262144 ![] bcast_S_S262144 (constantI S_ 32 0#32)))
    (addi r (broadcastInDim S262144 ![] bcast_S_S262144 (constantI S_ 32 50000#32))) r

/-- The node-feature rows at a vector of node numbers. -/
def nodeRows (x0 : (⟨S50000x256, .f32⟩ : BufTy).Contents (Elt Ideal)) (r : (⟨S262144, .i32⟩ : BufTy).Contents (Elt Ideal)) :
    (⟨S262144x256, .f32⟩ : BufTy).Contents (Elt Ideal) :=
  Host.gather gather_S50000x256_S262144x1_S262144x256_1_0_n_n_0_1_1256 x0
    (broadcastInDim S262144x1 ![0] bcast_S262144_S262144x1_0 r)

/-- The edge features: the sum of the two endpoints' node-feature rows. -/
def edgeTerm (x0 : (⟨S50000x256, .f32⟩ : BufTy).Contents (Elt Ideal)) (x1 : (⟨S2x262144, .i32⟩ : BufTy).Contents (Elt Ideal)) :
    (⟨S262144x256, .f32⟩ : BufTy).Contents (Elt Ideal) :=
  addf (F := Ideal) (s := S262144x256) (φ := .f32) (nodeRows x0 (wrapNode (endpoint0 x1))) (nodeRows x0 (wrapNode (endpoint1 x1)))

set_option maxHeartbeats 1000000 in
/-- The edge-feature buffer holds the sum of the two gathered row arrays. -/
theorem s0_edge : after (hostOps0 (F := Ideal)) W (Proc.devRef .tc main_v18) = edgeTerm (W (Proc.devRef .tc main_arg0)) (W (Proc.devRef .tc main_arg1)) := by
  after_results; rfl

/-- The layer-norm weight, laid out as one row. -/
theorem s0_lnw (z : Fin 1) (q : Fin 256) : after (hostOps0 (F := Ideal)) W (Proc.devRef .tc main_v19) (ix2 z q) = W (Proc.devRef .tc main_arg2) (ix1 q) := by
  have h : after (hostOps0 (F := Ideal)) W (Proc.devRef .tc main_v19) = shapeCast S1x256 (W (Proc.devRef .tc main_arg2)) shapeCasts_S256_S1x256 := by
    after_results; rfl
  rw [h, shapeCast_a_1a_apply]

/-- The stacked weight matrices, each transposed (the narrowing to bf16 changes no entry of an extended-real array). -/
theorem s0_v21 (l : Fin 3) (k q : Fin 256) :
    after (hostOps0 (F := Ideal)) W (Proc.devRef .tc main_v21) (ix3 l k q) = W (Proc.devRef .tc main_arg3) (ix3 l q k) := by
  have h : after (hostOps0 (F := Ideal)) W (Proc.devRef .tc main_v21)
      = truncf (F := Ideal) .bf16 (transpose S3x256x256 [0, 2, 1] (W (Proc.devRef .tc main_arg3)) transposes_S3x256x256_S3x256x256_0_2_1) bitsLt_bf16_f32 := by
    after_results
  rw [h, truncf_apply, transpose_ix3_021_apply]

/-- The first layer's weight matrix, transposed. -/
theorem s0_w (k q : Fin 256) : after (hostOps0 (F := Ideal)) W (Proc.devRef .tc main_v25) (ix2 k q) = W (Proc.devRef .tc main_arg3) (ix3 (0 : Fin 3) q k) := by
  have h : after (hostOps0 (F := Ideal)) W (Proc.devRef .tc main_v25)
      = shapeCast S256x256 (extractStridedSlice S1x256x256 ![0, 0, 0]
          (truncf (F := Ideal) .bf16 (transpose S3x256x256 [0, 2, 1] (W (Proc.devRef .tc main_arg3)) transposes_S3x256x256_S3x256x256_0_2_1) bitsLt_bf16_f32)
          slices_S3x256x256_S1x256x256_0_0_0) shapeCasts_S1x256x256_S256x256 := by
    after_results; rfl
  rw [h, shapeCast_1ab_ab_apply, slice3_axis0_apply 0 _ _ (0 : Fin 1) k q (0 : Fin 3) (by decide), truncf_apply,
    transpose_ix3_021_apply]

/-- The stacked scales, laid out as [3, 1, 256]. -/
theorem s0_v22 (l : Fin 3) (z : Fin 1) (q : Fin 256) :
    after (hostOps0 (F := Ideal)) W (Proc.devRef .tc main_v22) (ix3 l z q) = W (Proc.devRef .tc main_arg4) (ix2 l q) := by
  have h : after (hostOps0 (F := Ideal)) W (Proc.devRef .tc main_v22) = shapeCast S3x1x256 (W (Proc.devRef .tc main_arg4)) shapeCasts_S3x256_S3x1x256 := by
    after_results; rfl
  rw [h, shapeCast_ac_a1c_apply]

/-- The stacked shifts, laid out as [3, 1, 256]. -/
theorem s0_v23 (l : Fin 3) (z : Fin 1) (q : Fin 256) :
    after (hostOps0 (F := Ideal)) W (Proc.devRef .tc main_v23) (ix3 l z q) = W (Proc.devRef .tc main_arg5) (ix2 l q) := by
  have h : after (hostOps0 (F := Ideal)) W (Proc.devRef .tc main_v23) = shapeCast S3x1x256 (W (Proc.devRef .tc main_arg5)) shapeCasts_S3x256_S3x1x256 := by
    after_results; rfl
  rw [h, shapeCast_ac_a1c_apply]

/-- The last weight row is not written. -/
theorem s0_keep6 : after (hostOps0 (F := Ideal)) W (Proc.devRef .tc main_arg6) = W (Proc.devRef .tc main_arg6) := by
  after_results

/-! ## The line before launch 1 -/

/-- The linear layer's output is not written. -/
theorem s1_lin : after (hostOps1 (F := Ideal)) W (Proc.devRef .tc main_v26_0) = W (Proc.devRef .tc main_v26_0) := by
  after_results

/-- The column means: the column sums over the number of edges. -/
theorem s1_mean (z : Fin 1) (q : Fin 256) :
    after (hostOps1 (F := Ideal)) W (Proc.devRef .tc main_v28) (ix2 z q) = Ideal.div (W (Proc.devRef .tc main_v26_1) (ix2 z q)) cE := by
  have h : after (hostOps1 (F := Ideal)) W (Proc.devRef .tc main_v28) = Host.divf (F := Ideal) (W (Proc.devRef .tc main_v26_1)) (broadcastInDim S1x256 ![] bcast_S_S1x256 (constant (F := Ideal) S_ .f32 0x48800000#32)) := by
    after_results
  rw [h, hostDivf_apply, broadcastInDim_scalar_apply, constant_apply]; rfl

/-- The one-pass column variances: the mean of squares minus the squared mean, cut off below at zero. -/
theorem s1_var (z : Fin 1) (q : Fin 256) :
    after (hostOps1 (F := Ideal)) W (Proc.devRef .tc main_v34) (ix2 z q)
      = max (Ideal.div (W (Proc.devRef .tc main_v26_2) (ix2 z q)) cE
          - Ideal.div (W (Proc.devRef .tc main_v26_1) (ix2 z q)) cE * Ideal.div (W (Proc.devRef .tc main_v26_1) (ix2 z q)) cE) 0 := by
  have h : after (hostOps1 (F := Ideal)) W (Proc.devRef .tc main_v34)
      = maximumf (F := Ideal) (subf (F := Ideal) (Host.divf (F := Ideal) (W (Proc.devRef .tc main_v26_2)) (broadcastInDim S1x256 ![] bcast_S_S1x256 (constant (F := Ideal) S_ .f32 0x48800000#32)))
          (mulf (F := Ideal) (Host.divf (F := Ideal) (W (Proc.devRef .tc main_v26_1)) (broadcastInDim S1x256 ![] bcast_S_S1x256 (constant (F := Ideal) S_ .f32 0x48800000#32))) (Host.divf (F := Ideal) (W (Proc.devRef .tc main_v26_1)) (broadcastInDim S1x256 ![] bcast_S_S1x256 (constant (F := Ideal) S_ .f32 0x48800000#32))))) (broadcastInDim S1x256 ![] bcast_S_S1x256 (constant (F := Ideal) S_ .f32 0x00000000#32)) := by
    after_results
  rw [h, maximumf_apply, subf_apply, mulf_apply, hostDivf_apply, hostDivf_apply, broadcastInDim_scalar_apply,
    broadcastInDim_scalar_apply, constant_apply, constant_apply, Ideal.ofBits_zero_f32]; rfl

/-- Layer 0's scales, cut out of the stack. -/
theorem s1_g (z : Fin 1) (q : Fin 256) :
    after (hostOps1 (F := Ideal)) W (Proc.devRef .tc main_v36) (ix2 z q) = W (Proc.devRef .tc main_v22) (ix3 (0 : Fin 3) z q) := by
  have h : after (hostOps1 (F := Ideal)) W (Proc.devRef .tc main_v36)
      = shapeCast S1x256 (extractStridedSlice S1x1x256 ![0, 0, 0] (W (Proc.devRef .tc main_v22)) slices_S3x1x256_S1x1x256_0_0_0)
          shapeCasts_S1x1x256_S1x256 := by
    after_results; rfl
  rw [h, shapeCast_1ab_ab_apply]
  exact slice3_axis0_apply 0 _ _ (0 : Fin 1) z q (0 : Fin 3) (by decide)

/-- Layer 0's shifts, cut out of the stack. -/
theorem s1_b (z : Fin 1) (q : Fin 256) :
    after (hostOps1 (F := Ideal)) W (Proc.devRef .tc main_v38) (ix2 z q) = W (Proc.devRef .tc main_v23) (ix3 (0 : Fin 3) z q) := by
  have h : after (hostOps1 (F := Ideal)) W (Proc.devRef .tc main_v38)
      = shapeCast S1x256 (extractStridedSlice S1x1x256 ![0, 0, 0] (W (Proc.devRef .tc main_v23)) slices_S3x1x256_S1x1x256_0_0_0)
          shapeCasts_S1x1x256_S1x256 := by
    after_results; rfl
  rw [h, shapeCast_1ab_ab_apply]
  exact slice3_axis0_apply 0 _ _ (0 : Fin 1) z q (0 : Fin 3) (by decide)

/-- The next layer's weight matrix, cut out of the stack. -/
theorem s1_w (k q : Fin 256) :
    after (hostOps1 (F := Ideal)) W (Proc.devRef .tc main_v40) (ix2 k q) = W (Proc.devRef .tc main_v21) (ix3 (1 : Fin 3) k q) := by
  have h : after (hostOps1 (F := Ideal)) W (Proc.devRef .tc main_v40)
      = shapeCast S256x256 (extractStridedSlice S1x256x256 ![1, 0, 0] (W (Proc.devRef .tc main_v21)) slices_S3x256x256_S1x256x256_1_0_0)
          shapeCasts_S1x256x256_S256x256 := by
    after_results; rfl
  rw [h, shapeCast_1ab_ab_apply]
  exact slice3_axis0_apply 1 _ _ (0 : Fin 1) k q (1 : Fin 3) (by decide)

/-! The buffers a later line or launch still reads are not written. -/
theorem s1_keep21 : after (hostOps1 (F := Ideal)) W (Proc.devRef .tc main_v21) = W (Proc.devRef .tc main_v21) := by
  after_results
theorem s1_keep22 : after (hostOps1 (F := Ideal)) W (Proc.devRef .tc main_v22) = W (Proc.devRef .tc main_v22) := by
  after_results
theorem s1_keep23 : after (hostOps1 (F := Ideal)) W (Proc.devRef .tc main_v23) = W (Proc.devRef .tc main_v23) := by
  after_results
theorem s1_keep6 : after (hostOps1 (F := Ideal)) W (Proc.devRef .tc main_arg6) = W (Proc.devRef .tc main_arg6) := by
  after_results

/-! ## The line before launch 2 -/

/-- The linear layer's output is not written. -/
theorem s2_lin : after (hostOps2 (F := Ideal)) W (Proc.devRef .tc main_v41_0) = W (Proc.devRef .tc main_v41_0) := by
  after_results

/-- The column means: the column sums over the number of edges. -/
theorem s2_mean (z : Fin 1) (q : Fin 256) :
    after (hostOps2 (F := Ideal)) W (Proc.devRef .tc main_v43) (ix2 z q) = Ideal.div (W (Proc.devRef .tc main_v41_1) (ix2 z q)) cE := by
  have h : after (hostOps2 (F := Ideal)) W (Proc.devRef .tc main_v43) = Host.divf (F := Ideal) (W (Proc.devRef .tc main_v41_1)) (broadcastInDim S1x256 ![] bcast_S_S1x256 (constant (F := Ideal) S_ .f32 0x48800000#32)) := by
    after_results
  rw [h, hostDivf_apply, broadcastInDim_scalar_apply, constant_apply]; rfl

/-- The one-pass column variances: the mean of squares minus the squared mean, cut off below at zero. -/
theorem s2_var (z : Fin 1) (q : Fin 256) :
    after (hostOps2 (F := Ideal)) W (Proc.devRef .tc main_v49) (ix2 z q)
      = max (Ideal.div (W (Proc.devRef .tc main_v41_2) (ix2 z q)) cE
          - Ideal.div (W (Proc.devRef .tc main_v41_1) (ix2 z q)) cE * Ideal.div (W (Proc.devRef .tc main_v41_1) (ix2 z q)) cE) 0 := by
  have h : after (hostOps2 (F := Ideal)) W (Proc.devRef .tc main_v49)
      = maximumf (F := Ideal) (subf (F := Ideal) (Host.divf (F := Ideal) (W (Proc.devRef .tc main_v41_2)) (broadcastInDim S1x256 ![] bcast_S_S1x256 (constant (F := Ideal) S_ .f32 0x48800000#32)))
          (mulf (F := Ideal) (Host.divf (F := Ideal) (W (Proc.devRef .tc main_v41_1)) (broadcastInDim S1x256 ![] bcast_S_S1x256 (constant (F := Ideal) S_ .f32 0x48800000#32))) (Host.divf (F := Ideal) (W (Proc.devRef .tc main_v41_1)) (broadcastInDim S1x256 ![] bcast_S_S1x256 (constant (F := Ideal) S_ .f32 0x48800000#32))))) (broadcastInDim S1x256 ![] bcast_S_S1x256 (constant (F := Ideal) S_ .f32 0x00000000#32)) := by
    after_results
  rw [h, maximumf_apply, subf_apply, mulf_apply, hostDivf_apply, hostDivf_apply, broadcastInDim_scalar_apply,
    broadcastInDim_scalar_apply, constant_apply, constant_apply, Ideal.ofBits_zero_f32]; rfl

/-- Layer 1's scales, cut out of the stack. -/
theorem s2_g (z : Fin 1) (q : Fin 256) :
    after (hostOps2 (F := Ideal)) W (Proc.devRef .tc main_v51) (ix2 z q) = W (Proc.devRef .tc main_v22) (ix3 (1 : Fin 3) z q) := by
  have h : after (hostOps2 (F := Ideal)) W (Proc.devRef .tc main_v51)
      = shapeCast S1x256 (extractStridedSlice S1x1x256 ![1, 0, 0] (W (Proc.devRef .tc main_v22)) slices_S3x1x256_S1x1x256_1_0_0)
          shapeCasts_S1x1x256_S1x256 := by
    after_results; rfl
  rw [h, shapeCast_1ab_ab_apply]
  exact slice3_axis0_apply 1 _ _ (0 : Fin 1) z q (1 : Fin 3) (by decide)

/-- Layer 1's shifts, cut out of the stack. -/
theorem s2_b (z : Fin 1) (q : Fin 256) :
    after (hostOps2 (F := Ideal)) W (Proc.devRef .tc main_v53) (ix2 z q) = W (Proc.devRef .tc main_v23) (ix3 (1 : Fin 3) z q) := by
  have h : after (hostOps2 (F := Ideal)) W (Proc.devRef .tc main_v53)
      = shapeCast S1x256 (extractStridedSlice S1x1x256 ![1, 0, 0] (W (Proc.devRef .tc main_v23)) slices_S3x1x256_S1x1x256_1_0_0)
          shapeCasts_S1x1x256_S1x256 := by
    after_results; rfl
  rw [h, shapeCast_1ab_ab_apply]
  exact slice3_axis0_apply 1 _ _ (0 : Fin 1) z q (1 : Fin 3) (by decide)

/-- The next layer's weight matrix, cut out of the stack. -/
theorem s2_w (k q : Fin 256) :
    after (hostOps2 (F := Ideal)) W (Proc.devRef .tc main_v55) (ix2 k q) = W (Proc.devRef .tc main_v21) (ix3 (2 : Fin 3) k q) := by
  have h : after (hostOps2 (F := Ideal)) W (Proc.devRef .tc main_v55)
      = shapeCast S256x256 (extractStridedSlice S1x256x256 ![2, 0, 0] (W (Proc.devRef .tc main_v21)) slices_S3x256x256_S1x256x256_2_0_0)
          shapeCasts_S1x256x256_S256x256 := by
    after_results; rfl
  rw [h, shapeCast_1ab_ab_apply]
  exact slice3_axis0_apply 2 _ _ (0 : Fin 1) k q (2 : Fin 3) (by decide)

/-! The buffers a later line or launch still reads are not written. -/
theorem s2_keep21 : after (hostOps2 (F := Ideal)) W (Proc.devRef .tc main_v21) = W (Proc.devRef .tc main_v21) := by
  after_results
theorem s2_keep22 : after (hostOps2 (F := Ideal)) W (Proc.devRef .tc main_v22) = W (Proc.devRef .tc main_v22) := by
  after_results
theorem s2_keep23 : after (hostOps2 (F := Ideal)) W (Proc.devRef .tc main_v23) = W (Proc.devRef .tc main_v23) := by
  after_results
theorem s2_keep6 : after (hostOps2 (F := Ideal)) W (Proc.devRef .tc main_arg6) = W (Proc.devRef .tc main_arg6) := by
  after_results

/-! ## The line before launch 3 -/

/-- The linear layer's output is not written. -/
theorem s3_lin : after (hostOps3 (F := Ideal)) W (Proc.devRef .tc main_v56_0) = W (Proc.devRef .tc main_v56_0) := by
  after_results

/-- The column means: the column sums over the number of edges. -/
theorem s3_mean (z : Fin 1) (q : Fin 256) :
    after (hostOps3 (F := Ideal)) W (Proc.devRef .tc main_v58) (ix2 z q) = Ideal.div (W (Proc.devRef .tc main_v56_1) (ix2 z q)) cE := by
  have h : after (hostOps3 (F := Ideal)) W (Proc.devRef .tc main_v58) = Host.divf (F := Ideal) (W (Proc.devRef .tc main_v56_1)) (broadcastInDim S1x256 ![] bcast_S_S1x256 (constant (F := Ideal) S_ .f32 0x48800000#32)) := by
    after_results
  rw [h, hostDivf_apply, broadcastInDim_scalar_apply, constant_apply]; rfl

/-- The one-pass column variances: the mean of squares minus the squared mean, cut off below at zero. -/
theorem s3_var (z : Fin 1) (q : Fin 256) :
    after (hostOps3 (F := Ideal)) W (Proc.devRef .tc main_v64) (ix2 z q)
      = max (Ideal.div (W (Proc.devRef .tc main_v56_2) (ix2 z q)) cE
          - Ideal.div (W (Proc.devRef .tc main_v56_1) (ix2 z q)) cE * Ideal.div (W (Proc.devRef .tc main_v56_1) (ix2 z q)) cE) 0 := by
  have h : after (hostOps3 (F := Ideal)) W (Proc.devRef .tc main_v64)
      = maximumf (F := Ideal) (subf (F := Ideal) (Host.divf (F := Ideal) (W (Proc.devRef .tc main_v56_2)) (broadcastInDim S1x256 ![] bcast_S_S1x256 (constant (F := Ideal) S_ .f32 0x48800000#32)))
          (mulf (F := Ideal) (Host.divf (F := Ideal) (W (Proc.devRef .tc main_v56_1)) (broadcastInDim S1x256 ![] bcast_S_S1x256 (constant (F := Ideal) S_ .f32 0x48800000#32))) (Host.divf (F := Ideal) (W (Proc.devRef .tc main_v56_1)) (broadcastInDim S1x256 ![] bcast_S_S1x256 (constant (F := Ideal) S_ .f32 0x48800000#32))))) (broadcastInDim S1x256 ![] bcast_S_S1x256 (constant (F := Ideal) S_ .f32 0x00000000#32)) := by
    after_results
  rw [h, maximumf_apply, subf_apply, mulf_apply, hostDivf_apply, hostDivf_apply, broadcastInDim_scalar_apply,
    broadcastInDim_scalar_apply, constant_apply, constant_apply, Ideal.ofBits_zero_f32]; rfl

/-- Layer 2's scales, cut out of the stack. -/
theorem s3_g (z : Fin 1) (q : Fin 256) :
    after (hostOps3 (F := Ideal)) W (Proc.devRef .tc main_v66) (ix2 z q) = W (Proc.devRef .tc main_v22) (ix3 (2 : Fin 3) z q) := by
  have h : after (hostOps3 (F := Ideal)) W (Proc.devRef .tc main_v66)
      = shapeCast S1x256 (extractStridedSlice S1x1x256 ![2, 0, 0] (W (Proc.devRef .tc main_v22)) slices_S3x1x256_S1x1x256_2_0_0)
          shapeCasts_S1x1x256_S1x256 := by
    after_results; rfl
  rw [h, shapeCast_1ab_ab_apply]
  exact slice3_axis0_apply 2 _ _ (0 : Fin 1) z q (2 : Fin 3) (by decide)

/-- Layer 2's shifts, cut out of the stack. -/
theorem s3_b (z : Fin 1) (q : Fin 256) :
    after (hostOps3 (F := Ideal)) W (Proc.devRef .tc main_v68) (ix2 z q) = W (Proc.devRef .tc main_v23) (ix3 (2 : Fin 3) z q) := by
  have h : after (hostOps3 (F := Ideal)) W (Proc.devRef .tc main_v68)
      = shapeCast S1x256 (extractStridedSlice S1x1x256 ![2, 0, 0] (W (Proc.devRef .tc main_v23)) slices_S3x1x256_S1x1x256_2_0_0)
          shapeCasts_S1x1x256_S1x256 := by
    after_results; rfl
  rw [h, shapeCast_1ab_ab_apply]
  exact slice3_axis0_apply 2 _ _ (0 : Fin 1) z q (2 : Fin 3) (by decide)

/-! The buffers a later line or launch still reads are not written. -/
theorem s3_keep6 : after (hostOps3 (F := Ideal)) W (Proc.devRef .tc main_arg6) = W (Proc.devRef .tc main_arg6) := by
  after_results

end Cert.KernelIdeal.Host

end
-- ==== Proof.KParams.lean ====
/-
  The parameter arrays as each kernel is entered, in terms of the arrays the program is launched with.

  Between the kernels the program only re-lays its parameters out: the layer-norm weight [256] becomes a [1, 256] row; the
  stacked weight matrices [3, 256, 256] are transposed layer by layer and one layer is cut out for each kernel; the stacked
  scales and shifts [3, 256] become [3, 1, 256] and one row is cut out for each kernel; the last weight row is passed as it is.
  No kernel writes any of these arrays, and between two kernels each is either cut from or carried unchanged.  So every
  parameter a kernel reads is an entry-by-entry copy of the launched arrays: the layer-norm row is the launched vector, kernel
  j's matrix at (k, q) is the launched stack at (j, q, k), kernel j's scale and shift rows are rows j − 1 of the launched
  scale and shift arrays, and the last weight row is the launched one.
-/
import proofs.«171780_j3272765079679_2_alg».proof.Proof.Gen.KernelIdeal.Frame
import proofs.«171780_j3272765079679_2_alg».proof.Proof.KHost
import proofs.«171780_j3272765079679_2_alg».proof.Proof.Layout
import Idealize.ShloMosaic.Lib.ValueIdx
import Idealize.ShloMosaic.Lib.StableHlo.Run

set_option maxRecDepth 16384

noncomputable section

namespace Cert.KernelIdeal.Params

open Cert.KernelIdeal Cert.KernelIdeal.Gen Cert.EdgeNet
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! ## The carried arrays, walked back to the launch -/

theorem W2_v22 (l : Fin 3) (z : Fin 1) (q : Fin 256) : W2 m ρ c (Proc.devRef .tc main_v22) (ix3 l z q) = (m ((c : Thread nD τ).loc main_arg4)) (ix2 l q) := by
  rw [W2_of_ne m ρ c main_v22 (by decide)]
  exact Host.s0_v22 (W0 m ρ c) l z q

theorem W4_v22 (l : Fin 3) (z : Fin 1) (q : Fin 256) : W4 m ρ c (Proc.devRef .tc main_v22) (ix3 l z q) = (m ((c : Thread nD τ).loc main_arg4)) (ix2 l q) := by
  rw [W4_of_ne m ρ c main_v22 (by decide)]
  show StableHlo.after (hostOps1 (F := Ideal)) (W2 m ρ c) (Proc.devRef .tc main_v22) (ix3 l z q) = _
  rw [Host.s1_keep22 (W2 m ρ c)]
  exact W2_v22 m ρ c l z q

theorem W6_v22 (l : Fin 3) (z : Fin 1) (q : Fin 256) : W6 m ρ c (Proc.devRef .tc main_v22) (ix3 l z q) = (m ((c : Thread nD τ).loc main_arg4)) (ix2 l q) := by
  rw [W6_of_ne m ρ c main_v22 (by decide)]
  show StableHlo.after (hostOps2 (F := Ideal)) (W4 m ρ c) (Proc.devRef .tc main_v22) (ix3 l z q) = _
  rw [Host.s2_keep22 (W4 m ρ c)]
  exact W4_v22 m ρ c l z q

theorem W2_v23 (l : Fin 3) (z : Fin 1) (q : Fin 256) : W2 m ρ c (Proc.devRef .tc main_v23) (ix3 l z q) = (m ((c : Thread nD τ).loc main_arg5)) (ix2 l q) := by
  rw [W2_of_ne m ρ c main_v23 (by decide)]
  exact Host.s0_v23 (W0 m ρ c) l z q

theorem W4_v23 (l : Fin 3) (z : Fin 1) (q : Fin 256) : W4 m ρ c (Proc.devRef .tc main_v23) (ix3 l z q) = (m ((c : Thread nD τ).loc main_arg5)) (ix2 l q) := by
  rw [W4_of_ne m ρ c main_v23 (by decide)]
  show StableHlo.after (hostOps1 (F := Ideal)) (W2 m ρ c) (Proc.devRef .tc main_v23) (ix3 l z q) = _
  rw [Host.s1_keep23 (W2 m ρ c)]
  exact W2_v23 m ρ c l z q

theorem W6_v23 (l : Fin 3) (z : Fin 1) (q : Fin 256) : W6 m ρ c (Proc.devRef .tc main_v23) (ix3 l z q) = (m ((c : Thread nD τ).loc main_arg5)) (ix2 l q) := by
  rw [W6_of_ne m ρ c main_v23 (by decide)]
  show StableHlo.after (hostOps2 (F := Ideal)) (W4 m ρ c) (Proc.devRef .tc main_v23) (ix3 l z q) = _
  rw [Host.s2_keep23 (W4 m ρ c)]
  exact W4_v23 m ρ c l z q

theorem W2_v21 (l : Fin 3) (k q : Fin 256) : W2 m ρ c (Proc.devRef .tc main_v21) (ix3 l k q) = (m ((c : Thread nD τ).loc main_arg3)) (ix3 l q k) := by
  rw [W2_of_ne m ρ c main_v21 (by decide)]
  exact Host.s0_v21 (W0 m ρ c) l k q

theorem W4_v21 (l : Fin 3) (k q : Fin 256) : W4 m ρ c (Proc.devRef .tc main_v21) (ix3 l k q) = (m ((c : Thread nD τ).loc main_arg3)) (ix3 l q k) := by
  rw [W4_of_ne m ρ c main_v21 (by decide)]
  show StableHlo.after (hostOps1 (F := Ideal)) (W2 m ρ c) (Proc.devRef .tc main_v21) (ix3 l k q) = _
  rw [Host.s1_keep21 (W2 m ρ c)]
  exact W2_v21 m ρ c l k q

/-- The last weight row is never written: at kernel 2's exit it is as launched. -/
theorem W6_arg6 : W6 m ρ c (Proc.devRef .tc main_arg6) = (m ((c : Thread nD τ).loc main_arg6)) := by
  rw [W6_of_ne m ρ c main_arg6 (by decide)]
  show StableHlo.after (hostOps2 (F := Ideal)) (W4 m ρ c) (Proc.devRef .tc main_arg6) = _
  rw [Host.s2_keep6 (W4 m ρ c), W4_of_ne m ρ c main_arg6 (by decide)]
  show StableHlo.after (hostOps1 (F := Ideal)) (W2 m ρ c) (Proc.devRef .tc main_arg6) = _
  rw [Host.s1_keep6 (W2 m ρ c), W2_of_ne m ρ c main_arg6 (by decide)]
  exact Host.s0_keep6 (W0 m ρ c)

/-! ## Kernel 0's parameters -/

theorem V1_lnw : row0 (d := 256) (V1 m ρ c main_v19) = vec (d := 256) (m ((c : Thread nD τ).loc main_arg2)) :=
  funext fun q => Host.s0_lnw (W0 m ρ c) 0 q

theorem V1_w (k q : Fin 256) : V1 m ρ c main_v25 (ix2 k q) = mats (l := 3) (n := 256) (d := 256) (m ((c : Thread nD τ).loc main_arg3)) 0 q k :=
  Host.s0_w (W0 m ρ c) k q

/-! ## Kernel 1's parameters -/

theorem V3_g : row0 (d := 256) (V3 m ρ c main_v36) = rows (n := 3) (d := 256) (m ((c : Thread nD τ).loc main_arg4)) 0 :=
  funext fun q => (Host.s1_g (W2 m ρ c) 0 q).trans (W2_v22 m ρ c 0 0 q)

theorem V3_b : row0 (d := 256) (V3 m ρ c main_v38) = rows (n := 3) (d := 256) (m ((c : Thread nD τ).loc main_arg5)) 0 :=
  funext fun q => (Host.s1_b (W2 m ρ c) 0 q).trans (W2_v23 m ρ c 0 0 q)

theorem V3_w (k q : Fin 256) : V3 m ρ c main_v40 (ix2 k q) = mats (l := 3) (n := 256) (d := 256) (m ((c : Thread nD τ).loc main_arg3)) 1 q k :=
  (Host.s1_w (W2 m ρ c) k q).trans (W2_v21 m ρ c 1 k q)

/-! ## Kernel 2's parameters -/

theorem V5_g : row0 (d := 256) (V5 m ρ c main_v51) = rows (n := 3) (d := 256) (m ((c : Thread nD τ).loc main_arg4)) 1 :=
  funext fun q => (Host.s2_g (W4 m ρ c) 0 q).trans (W4_v22 m ρ c 1 0 q)

theorem V5_b : row0 (d := 256) (V5 m ρ c main_v53) = rows (n := 3) (d := 256) (m ((c : Thread nD τ).loc main_arg5)) 1 :=
  funext fun q => (Host.s2_b (W4 m ρ c) 0 q).trans (W4_v23 m ρ c 1 0 q)

theorem V5_w (k q : Fin 256) : V5 m ρ c main_v55 (ix2 k q) = mats (l := 3) (n := 256) (d := 256) (m ((c : Thread nD τ).loc main_arg3)) 2 q k :=
  (Host.s2_w (W4 m ρ c) k q).trans (W4_v21 m ρ c 2 k q)

/-! ## Kernel 3's parameters -/

theorem V7_g : row0 (d := 256) (V7 m ρ c main_v66) = rows (n := 3) (d := 256) (m ((c : Thread nD τ).loc main_arg4)) 2 :=
  funext fun q => (Host.s3_g (W6 m ρ c) 0 q).trans (W6_v22 m ρ c 2 0 q)

theorem V7_b : row0 (d := 256) (V7 m ρ c main_v68) = rows (n := 3) (d := 256) (m ((c : Thread nD τ).loc main_arg5)) 2 :=
  funext fun q => (Host.s3_b (W6 m ρ c) 0 q).trans (W6_v23 m ρ c 2 0 q)

theorem V7_wout : V7 m ρ c main_arg6 = (m ((c : Thread nD τ).loc main_arg6)) :=
  (Host.s3_keep6 (W6 m ρ c)).trans (W6_arg6 m ρ c)

end Cert.KernelIdeal.Params

end
-- ==== Proof.KNet.lean ====
/-
  The four kernels composed: what the score array holds after the whole program, as the network of Spec.lean with the
  one-pass column variance.

  Each kernel's output arrays are functions of the arrays it is entered with; the host operations between two kernels turn
  the running sums into the next kernel's mean and variance rows (sum / 262144; sum of squares / 262144 minus the squared
  mean, cut off at zero) and hand over the next layer's scale, shift and weight matrix.  Followed from the launch to the
  return, the score array is  Σ_k a3(e, k) · w_out(k)  with a3 the third normalised, rectified layer.
-/
import proofs.«171780_j3272765079679_2_alg».proof.Proof.KRun
import proofs.«171780_j3272765079679_2_alg».proof.Proof.KReg0
import proofs.«171780_j3272765079679_2_alg».proof.Proof.KReg1
import proofs.«171780_j3272765079679_2_alg».proof.Proof.KReg2
import proofs.«171780_j3272765079679_2_alg».proof.Proof.KReg3
import proofs.«171780_j3272765079679_2_alg».proof.Proof.KHost
import proofs.«171780_j3272765079679_2_alg».proof.Proof.KParams
import proofs.«171780_j3272765079679_2_alg».proof.Proof.Layout

set_option maxRecDepth 16384

noncomputable section

namespace Cert.KernelIdeal.Net

open Cert.KernelIdeal Cert.KernelIdeal.Gen Cert.KernelIdeal.Host Cert.KernelIdeal.Params Cert.EdgeNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The edge features x[src] + x[dst], as the kernel program's own host operations compute them. -/
abbrev H : S262144x256.Idx → EReal := edgeTerm (m ((c : Thread nD τ).loc main_arg0)) (m ((c : Thread nD τ).loc main_arg1))

/-- The first product: the layer-normalised edge features times the first weight matrix. -/
def y0 : Fin 262144 → Fin 256 → EReal :=
  linear (layerNorm (rows (n := 262144) (d := 256) (H m c)) (vec (m ((c : Thread nD τ).loc main_arg2)))) (mats (m ((c : Thread nD τ).loc main_arg3)) 0)

/-- The second product. -/
def y1 : Fin 262144 → Fin 256 → EReal :=
  linear (normRelu varOnePass (y0 m c) (rows (m ((c : Thread nD τ).loc main_arg4)) 0) (rows (m ((c : Thread nD τ).loc main_arg5)) 0)) (mats (m ((c : Thread nD τ).loc main_arg3)) 1)

/-- The third product. -/
def y2 : Fin 262144 → Fin 256 → EReal :=
  linear (normRelu varOnePass (y1 m c) (rows (m ((c : Thread nD τ).loc main_arg4)) 1) (rows (m ((c : Thread nD τ).loc main_arg5)) 1)) (mats (m ((c : Thread nD τ).loc main_arg3)) 2)

/-! ## Kernel 0 -/

theorem V1_edge : V1 m ρ c main_v18 = H m c := s0_edge (W0 m ρ c)

theorem lin0 : rows (n := 262144) (d := 256) (Reg0.lin (V1 m ρ) c) = y0 m c :=
  Reg0.lin_rows (V1 m ρ) c _ _ _ (congrArg (rows (n := 262144) (d := 256)) (V1_edge m ρ c)) (V1_lnw m ρ c) (V1_w m ρ c)

/-! ## Kernel 1: its entry arrays and its product -/

theorem W2_lin : W2 m ρ c (Proc.devRef .tc main_v26_0) = Reg0.lin (V1 m ρ) c :=
  (W2_arr m ρ c 3).trans (Reg0.arr3 (V1 m ρ) c)
theorem W2_sum : W2 m ρ c (Proc.devRef .tc main_v26_1) = Reg0.sums (V1 m ρ) c :=
  (W2_arr m ρ c 4).trans (Reg0.arr4 (V1 m ρ) c)
theorem W2_sq : W2 m ρ c (Proc.devRef .tc main_v26_2) = Reg0.sumsqs (V1 m ρ) c :=
  (W2_arr m ρ c 5).trans (Reg0.arr5 (V1 m ρ) c)

/-- The kernel's input is the previous product. -/
theorem V3_lin : rows (n := 262144) (d := 256) (V3 m ρ c main_v26_0) = y0 m c := by
  have e : V3 m ρ c main_v26_0 = Reg0.lin (V1 m ρ) c := (s1_lin (W2 m ρ c)).trans (W2_lin m ρ c)
  rw [e]
  exact lin0 m ρ c

/-- Its mean row is the previous product's column means. -/
theorem V3_mean : row0 (d := 256) (V3 m ρ c main_v28) = colMean (y0 m c) := by
  funext q
  refine (s1_mean (W2 m ρ c) 0 q).trans ?_
  rw [W2_sum]
  show Ideal.div (row0 (d := 256) (Reg0.sums (V1 m ρ) c) q) cE = _
  rw [Reg0.sums_row0, lin0]
  rfl

/-- Its variance row is the previous product's one-pass column variances. -/
theorem V3_var : row0 (d := 256) (V3 m ρ c main_v34) = varOnePass (y0 m c) := by
  funext q
  refine (s1_var (W2 m ρ c) 0 q).trans ?_
  rw [W2_sum, W2_sq]
  show max (Ideal.div (row0 (d := 256) (Reg0.sumsqs (V1 m ρ) c) q) cE
      - Ideal.div (row0 (d := 256) (Reg0.sums (V1 m ρ) c) q) cE * Ideal.div (row0 (d := 256) (Reg0.sums (V1 m ρ) c) q) cE) 0 = _
  rw [Reg0.sums_row0, Reg0.sumsqs_row0, lin0]
  rfl

theorem lin1 : rows (n := 262144) (d := 256) (Reg1.lin (V3 m ρ) c) = y1 m c :=
  Reg1.lin_rows (V3 m ρ) c _ _ _ _ _ _ (V3_lin m ρ c) (V3_mean m ρ c) (V3_var m ρ c) (V3_g m ρ c) (V3_b m ρ c) (V3_w m ρ c)

/-! ## Kernel 2: its entry arrays and its product -/

theorem W4_lin : W4 m ρ c (Proc.devRef .tc main_v41_0) = Reg1.lin (V3 m ρ) c :=
  (W4_arr m ρ c 6).trans (Reg1.arr6 (V3 m ρ) c)
theorem W4_sum : W4 m ρ c (Proc.devRef .tc main_v41_1) = Reg1.sums (V3 m ρ) c :=
  (W4_arr m ρ c 7).trans (Reg1.arr7 (V3 m ρ) c)
theorem W4_sq : W4 m ρ c (Proc.devRef .tc main_v41_2) = Reg1.sumsqs (V3 m ρ) c :=
  (W4_arr m ρ c 8).trans (Reg1.arr8 (V3 m ρ) c)

/-- The kernel's input is the previous product. -/
theorem V5_lin : rows (n := 262144) (d := 256) (V5 m ρ c main_v41_0) = y1 m c := by
  have e : V5 m ρ c main_v41_0 = Reg1.lin (V3 m ρ) c := (s2_lin (W4 m ρ c)).trans (W4_lin m ρ c)
  rw [e]
  exact lin1 m ρ c

/-- Its mean row is the previous product's column means. -/
theorem V5_mean : row0 (d := 256) (V5 m ρ c main_v43) = colMean (y1 m c) := by
  funext q
  refine (s2_mean (W4 m ρ c) 0 q).trans ?_
  rw [W4_sum]
  show Ideal.div (row0 (d := 256) (Reg1.sums (V3 m ρ) c) q) cE = _
  rw [Reg1.sums_row0, lin1]
  rfl

/-- Its variance row is the previous product's one-pass column variances. -/
theorem V5_var : row0 (d := 256) (V5 m ρ c main_v49) = varOnePass (y1 m c) := by
  funext q
  refine (s2_var (W4 m ρ c) 0 q).trans ?_
  rw [W4_sum, W4_sq]
  show max (Ideal.div (row0 (d := 256) (Reg1.sumsqs (V3 m ρ) c) q) cE
      - Ideal.div (row0 (d := 256) (Reg1.sums (V3 m ρ) c) q) cE * Ideal.div (row0 (d := 256) (Reg1.sums (V3 m ρ) c) q) cE) 0 = _
  rw [Reg1.sums_row0, Reg1.sumsqs_row0, lin1]
  rfl

theorem lin2 : rows (n := 262144) (d := 256) (Reg2.lin (V5 m ρ) c) = y2 m c :=
  Reg2.lin_rows (V5 m ρ) c _ _ _ _ _ _ (V5_lin m ρ c) (V5_mean m ρ c) (V5_var m ρ c) (V5_g m ρ c) (V5_b m ρ c) (V5_w m ρ c)

/-! ## Kernel 3: its entry arrays and its product -/

theorem W6_lin : W6 m ρ c (Proc.devRef .tc main_v56_0) = Reg2.lin (V5 m ρ) c :=
  (W6_arr m ρ c 6).trans (Reg2.arr6 (V5 m ρ) c)
theorem W6_sum : W6 m ρ c (Proc.devRef .tc main_v56_1) = Reg2.sums (V5 m ρ) c :=
  (W6_arr m ρ c 7).trans (Reg2.arr7 (V5 m ρ) c)
theorem W6_sq : W6 m ρ c (Proc.devRef .tc main_v56_2) = Reg2.sumsqs (V5 m ρ) c :=
  (W6_arr m ρ c 8).trans (Reg2.arr8 (V5 m ρ) c)

/-- The kernel's input is the previous product. -/
theorem V7_lin : rows (n := 262144) (d := 256) (V7 m ρ c main_v56_0) = y2 m c := by
  have e : V7 m ρ c main_v56_0 = Reg2.lin (V5 m ρ) c := (s3_lin (W6 m ρ c)).trans (W6_lin m ρ c)
  rw [e]
  exact lin2 m ρ c

/-- Its mean row is the previous product's column means. -/
theorem V7_mean : row0 (d := 256) (V7 m ρ c main_v58) = colMean (y2 m c) := by
  funext q
  refine (s3_mean (W6 m ρ c) 0 q).trans ?_
  rw [W6_sum]
  show Ideal.div (row0 (d := 256) (Reg2.sums (V5 m ρ) c) q) cE = _
  rw [Reg2.sums_row0, lin2]
  rfl

/-- Its variance row is the previous product's one-pass column variances. -/
theorem V7_var : row0 (d := 256) (V7 m ρ c main_v64) = varOnePass (y2 m c) := by
  funext q
  refine (s3_var (W6 m ρ c) 0 q).trans ?_
  rw [W6_sum, W6_sq]
  show max (Ideal.div (row0 (d := 256) (Reg2.sumsqs (V5 m ρ) c) q) cE
      - Ideal.div (row0 (d := 256) (Reg2.sums (V5 m ρ) c) q) cE * Ideal.div (row0 (d := 256) (Reg2.sums (V5 m ρ) c) q) cE) 0 = _
  rw [Reg2.sums_row0, Reg2.sumsqs_row0, lin2]
  rfl

/-! ## The score array -/

/-- After the whole program the score array is the network with the one-pass column variance. -/
theorem result : W8 m ρ c (Proc.devRef .tc main_v69)
    = scores varOnePass (H m c) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 6).trans ((Reg3.arr6 (V7 m ρ) c).trans ?_)
  funext i
  unfold Reg3.scoresOf
  rw [V7_lin, V7_mean, V7_var, V7_g, V7_b, V7_wout]
  rfl

end Cert.KernelIdeal.Net

end
-- ==== Proof.EdgeEq.lean ====
/-
  The two programs' edge features are one term.

  Both programs cut the two endpoint rows out of the edge list, flatten them, add the number of nodes to a negative node
  number, gather the node-feature rows at the two node-number vectors and add the two gathered arrays.  The kernel
  program's term and the reference's operation-by-operation reading are built from the same operations on the same
  shapes with the same constants, so they are equal by unfolding both.
-/
import proofs.«171780_j3272765079679_2_alg».proof.Proof.KHost
import proofs.«171780_j3272765079679_2_alg».proof.Proof.RefRead

noncomputable section

namespace Cert.EdgeEq

open Idealize.ShloMosaic

set_option maxRecDepth 8192 in
/-- The kernel program's edge-feature term is the reference's edge-feature array, as functions of the node features and
    the edge list. -/
theorem edge_eq (x0 : (⟨Cert.KernelIdeal.S50000x256, .f32⟩ : BufTy).Contents (Elt Ideal))
    (x1 : (⟨Cert.KernelIdeal.S2x262144, .i32⟩ : BufTy).Contents (Elt Ideal)) :
    Cert.KernelIdeal.Host.edgeTerm x0 x1 = Cert.ReferenceIdeal.Read.val_main_v18 (F := Ideal) x0 x1 := rfl

end Cert.EdgeEq

end
-- ==== Proof.lean ====
/-
  The proof of `Cert.Claim`: the kernel program and the reference program score the edges of a graph alike.

  Every edge e carries the sum h(e, ·) of the feature rows of its two end nodes.  The row is layer-normalised over its 256
  features; then, three times, it is mapped linearly (y(e, q) = Σ_k a(e, k) · W(q, k)), every column q of y is normalised
  by its mean and variance over all 262144 edges, scaled, shifted and rectified; the score of the edge is the last row
  against one weight row.  The reference takes each column's variance in two passes, the mean of (y - mean)²; the kernel,
  which meets the rows block by block, accumulates Σ y and Σ y² and takes the mean of squares minus the squared mean, cut
  off below at zero.  For a column of real numbers over exactly 262144 rows the two are equal, and the precondition makes
  every float input real, hence every intermediate array real; so the two programs compute one function.

  The three frames: each program runs to the end and leaves its seven argument arrays as they were.  The idealized kernel
  is the kernel's own text read over the extended reals (no rewrite was applied), so there is nothing to preserve.  The
  algebraic claim: from memories that agree on the arguments, both programs end with the same score vector, the network
  with the two-pass variance of the edge features and the parameter arrays.
-/
import proofs.«171780_j3272765079679_2_alg».proof.Defs
import proofs.«171780_j3272765079679_2_alg».proof.Proof.Gen.Kernel
import proofs.«171780_j3272765079679_2_alg».proof.Proof.Gen.Kernel.Skeleton
import proofs.«171780_j3272765079679_2_alg».proof.Proof.Gen.Kernel.Launch
import proofs.«171780_j3272765079679_2_alg».proof.Proof.Gen.Kernel.Points
import proofs.«171780_j3272765079679_2_alg».proof.Proof.Gen.Kernel.Frame
import proofs.«171780_j3272765079679_2_alg».proof.Proof.Gen.KernelIdeal
import proofs.«171780_j3272765079679_2_alg».proof.Proof.Gen.KernelIdeal.Skeleton
import proofs.«171780_j3272765079679_2_alg».proof.Proof.Gen.KernelIdeal.Launch
import proofs.«171780_j3272765079679_2_alg».proof.Proof.Gen.KernelIdeal.Points
import proofs.«171780_j3272765079679_2_alg».proof.Proof.Gen.KernelIdeal.Frame
import proofs.«171780_j3272765079679_2_alg».proof.Proof.Gen.ReferenceIdeal
import proofs.«171780_j3272765079679_2_alg».proof.Proof.Gen.Pre_finite_inputs
import proofs.«171780_j3272765079679_2_alg».proof.Proof.Assemble
import proofs.«171780_j3272765079679_2_alg».proof.Proof.RefRun
import proofs.«171780_j3272765079679_2_alg».proof.Proof.KNet
import proofs.«171780_j3272765079679_2_alg».proof.Proof.EdgeEq
import Idealize.ShloMosaic.Adequacy
import Idealize.ShloMosaic.Init

noncomputable section

namespace Cert.Proof

open Idealize.ShloMosaic Idealize.SL.Sem

/-- The three frames, the (empty) preservation claim, and the equality of the two programs' results. -/
theorem claim : Cert.Claim :=
  ⟨Cert.Kernel.Gen.facts, Cert.KernelIdeal.Gen.facts, Cert.ReferenceIdeal.Gen.facts, Cert.Pre_finite_inputs.Gen.facts,
    Parts.frame_kernel,
    Parts.frame_kernelIdeal,
    Parts.frame_referenceIdeal_of (fun m ρ => Cert.ReferenceIdeal.RefRun.run (F := Ideal) m ρ),
    trivial,
    Parts.algebraic_of Cert.KernelIdeal.Host.edgeTerm Cert.EdgeEq.edge_eq
      (fun m ρ c => Cert.KernelIdeal.Net.result m ρ c)
      (fun m ρ => Cert.ReferenceIdeal.RefRun.run (F := Ideal) m ρ)⟩

end Cert.Proof

end
